-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v28)) (v3 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_v29) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S2x2048 : Shape := ⟨2, ![2, 2048]⟩
abbrev S3x2048 : Shape := ⟨2, ![3, 2048]⟩
abbrev S6x2048 : Shape := ⟨2, ![6, 2048]⟩
abbrev S2048x2 : Shape := ⟨2, ![2048, 2]⟩
abbrev S2048x3 : Shape := ⟨2, ![2048, 3]⟩
abbrev S2048x6 : Shape := ⟨2, ![2048, 6]⟩
abbrev S3 : Shape := ⟨1, ![3]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S2x2048 : S_.BroadcastsInDim S2x2048 (![] : Fin 0 → Fin S2x2048.rank)
  reducesTo_S2x2048_S_d0_1 : S2x2048.ReducesTo [0, 1] S_
  bcast_S_S3x2048 : S_.BroadcastsInDim S3x2048 (![] : Fin 0 → Fin S3x2048.rank)
  reducesTo_S3x2048_S_d0_1 : S3x2048.ReducesTo [0, 1] S_
  bcast_S_S6x2048 : S_.BroadcastsInDim S6x2048 (![] : Fin 0 → Fin S6x2048.rank)
  reducesTo_S6x2048_S_d0_1 : S6x2048.ReducesTo [0, 1] S_
  bcast_S_S2048x2 : S_.BroadcastsInDim S2048x2 (![] : Fin 0 → Fin S2048x2.rank)
  reducesTo_S2048x2_S_d0_1 : S2048x2.ReducesTo [0, 1] S_
  bcast_S_S2048x3 : S_.BroadcastsInDim S2048x3 (![] : Fin 0 → Fin S2048x3.rank)
  reducesTo_S2048x3_S_d0_1 : S2048x3.ReducesTo [0, 1] S_
  bcast_S_S2048x6 : S_.BroadcastsInDim S2048x6 (![] : Fin 0 → Fin S2048x6.rank)
  reducesTo_S2048x6_S_d0_1 : S2048x6.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S3 .f32) (main_v33 : IVec S_ 1) : IVec S_ 1 :=
  let main_v34 : FVec F S3 .f32 := Host.absf main_arg7
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  main_v38

def fn_part1 {F : FTy → Type} [FloatOps F] (main_arg4 : FVec F S2048x2 .f32) (main_arg5 : FVec F S2048x3 .f32) (main_arg6 : FVec F S2048x6 .f32) (main_arg7 : FVec F S3 .f32) (main_v13 : IVec S_ 1) (main_v16 : IVec S6x2048 1) : IVec S_ 1 :=
  let main_c_5 : IVec S_ 1 := constantI S_ 1 1#1
  let main_v17 : IVec S_ 1 := (fun x v => Host.reduce IntOp.andi x v reducesTo_S6x2048_S_d0_1 h_S_) main_v16 main_c_5
  let main_v18 : IVec S_ 1 := andi main_v13 main_v17
  let main_v19 : FVec F S2048x2 .f32 := Host.absf main_arg4
  let main_cst_6 : FVec F S_ .f32 := constant S_ .f32 0x7F800000#32
  let main_v20 : FVec F S2048x2 .f32 := broadcastInDim S2048x2 ![] bcast_S_S2048x2 main_cst_6
  let main_v21 : IVec S2048x2 1 := cmpf .olt main_v19 main_v20
  let main_c_7 : IVec S_ 1 := constantI S_ 1 1#1
  let main_v22 : IVec S_ 1 := (fun x v => Host.reduce IntOp.andi x v reducesTo_S2048x2_S_d0_1 h_S_) main_v21 main_c_7
  let main_v23 : IVec S_ 1 := andi main_v18 main_v22
  let main_v24 : FVec F S2048x3 .f32 := Host.absf main_arg5
  let main_cst_8 : FVec F S_ .f32 := constant S_ .f32 0x7F800000#32
  let main_v25 : FVec F S2048x3 .f32 := broadcastInDim S2048x3 ![] bcast_S_S2048x3 main_cst_8
  let main_v26 : IVec S2048x3 1 := cmpf .olt main_v24 main_v25
  let main_c_9 : IVec S_ 1 := constantI S_ 1 1#1
  let main_v27 : IVec S_ 1 := (fun x v => Host.reduce IntOp.andi x v reducesTo_S2048x3_S_d0_1 h_S_) main_v26 main_c_9
  let main_v28 : IVec S_ 1 := andi main_v23 main_v27
  let main_v29 : FVec F S2048x6 .f32 := Host.absf main_arg6
  let main_cst_10 : FVec F S_ .f32 := constant S_ .f32 0x7F800000#32
  let main_v30 : FVec F S2048x6 .f32 := broadcastInDim S2048x6 ![] bcast_S_S2048x6 main_cst_10
  let main_v31 : IVec S2048x6 1 := cmpf .olt main_v29 main_v30
  let main_c_11 : IVec S_ 1 := constantI S_ 1 1#1
  let main_v32 : IVec S_ 1 := (fun x v => Host.reduce IntOp.andi x v reducesTo_S2048x6_S_d0_1 h_S_) main_v31 main_c_11
  let main_v33 : IVec S_ 1 := andi main_v28 main_v32
  fn_part2 (F := F) main_arg7 main_v33

def fn {F : FTy → Type} [FloatOps F] (main_arg0 : FVec F S8x4096x2048 .f32) (main_arg1 : FVec F S2x2048 .f32) (main_arg2 : FVec F S3x2048 .f32) (main_arg3 : FVec F S6x2048 .f32) (main_arg4 : FVec F S2048x2 .f32) (main_arg5 : FVec F S2048x3 .f32) (main_arg6 : FVec F S2048x6 .f32) (main_arg7 : FVec F S3 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S2x2048 .f32 := Host.absf main_arg1
  let main_cst_0 : FVec F S_ .f32 := constant S_ .f32 0x7F800000#32
  let main_v5 : FVec F S2x2048 .f32 := broadcastInDim S2x2048 ![] bcast_S_S2x2048 main_cst_0
  let main_v6 : IVec S2x2048 1 := cmpf .olt main_v4 main_v5
  let main_c_1 : IVec S_ 1 := constantI S_ 1 1#1
  let main_v7 : IVec S_ 1 := (fun x v => Host.reduce IntOp.andi x v reducesTo_S2x2048_S_d0_1 h_S_) main_v6 main_c_1
  let main_v8 : IVec S_ 1 := andi main_v3 main_v7
  let main_v9 : FVec F S3x2048 .f32 := Host.absf main_arg2
  let main_cst_2 : FVec F S_ .f32 := constant S_ .f32 0x7F800000#32
  let main_v10 : FVec F S3x2048 .f32 := broadcastInDim S3x2048 ![] bcast_S_S3x2048 main_cst_2
  let main_v11 : IVec S3x2048 1 := cmpf .olt main_v9 main_v10
  let main_c_3 : IVec S_ 1 := constantI S_ 1 1#1
  let main_v12 : IVec S_ 1 := (fun x v => Host.reduce IntOp.andi x v reducesTo_S3x2048_S_d0_1 h_S_) main_v11 main_c_3
  let main_v13 : IVec S_ 1 := andi main_v8 main_v12
  let main_v14 : FVec F S6x2048 .f32 := Host.absf main_arg3
  let main_cst_4 : FVec F S_ .f32 := constant S_ .f32 0x7F800000#32
  let main_v15 : FVec F S6x2048 .f32 := broadcastInDim S6x2048 ![] bcast_S_S6x2048 main_cst_4
  let main_v16 : IVec S6x2048 1 := cmpf .olt main_v14 main_v15
  fn_part1 (F := F) main_arg4 main_arg5 main_arg6 main_arg7 main_v13 main_v16
-- ==== Kernel.lean ====
abbrev S8x4096x2048 : Shape := ⟨3, ![8, 4096, 2048]⟩
abbrev S2x2048 : Shape := ⟨2, ![2, 2048]⟩
abbrev S3x2048 : Shape := ⟨2, ![3, 2048]⟩
abbrev S6x2048 : Shape := ⟨2, ![6, 2048]⟩
abbrev S2048x2 : Shape := ⟨2, ![2048, 2]⟩
abbrev S2048x3 : Shape := ⟨2, ![2048, 3]⟩
abbrev S2048x6 : Shape := ⟨2, ![2048, 6]⟩
abbrev S3 : Shape := ⟨1, ![3]⟩
abbrev S4x2 : Shape := ⟨2, ![4, 2]⟩
abbrev S8x3 : Shape := ⟨2, ![8, 3]⟩
abbrev S64x6 : Shape := ⟨2, ![64, 6]⟩
abbrev S32768x2048 : Shape := ⟨2, ![32768, 2048]⟩
abbrev S11x2048 : Shape := ⟨2, ![11, 2048]⟩
abbrev S_ : Shape := ⟨0, ![]⟩
abbrev S1 : Shape := ⟨1, ![1]⟩
abbrev S2048x11 : Shape := ⟨2, ![2048, 11]⟩
abbrev S32768x4 : Shape := ⟨2, ![32768, 4]⟩
abbrev S32768x8 : Shape := ⟨2, ![32768, 8]⟩
abbrev S32768x64 : Shape := ⟨2, ![32768, 64]⟩
abbrev S512x2048 : Shape := ⟨2, ![512, 2048]⟩
abbrev S512x4 : Shape := ⟨2, ![512, 4]⟩
abbrev S512x8 : Shape := ⟨2, ![512, 8]⟩
abbrev S512x64 : Shape := ⟨2, ![512, 64]⟩
abbrev S512x11 : Shape := ⟨2, ![512, 11]⟩
abbrev S512x2 : Shape := ⟨2, ![512, 2]⟩
abbrev S512x3 : Shape := ⟨2, ![512, 3]⟩
abbrev S512x6 : Shape := ⟨2, ![512, 6]⟩
abbrev S512 : Shape := ⟨1, ![512]⟩
abbrev S512x1 : Shape := ⟨2, ![512, 1]⟩
abbrev S8x4096x4 : Shape := ⟨3, ![8, 4096, 4]⟩
abbrev S8x4096x8 : Shape := ⟨3, ![8, 4096, 8]⟩
abbrev S8x4096x64 : Shape := ⟨3, ![8, 4096, 64]⟩

abbrev nBuf : Space → Nat
  | .hbm => 47
  | .vmem => 15
  | .smem => 0
  | _ => 0

abbrev bufTy : (tb : Table) → Fin (tcTables nBuf tb) → BufTy
  | .hbm, ⟨0, _⟩ => ⟨S8x4096x2048, .f32⟩
  | .hbm, ⟨1, _⟩ => ⟨S2x2048, .f32⟩
  | .hbm, ⟨2, _⟩ => ⟨S3x2048, .f32⟩
  | .hbm, ⟨3, _⟩ => ⟨S6x2048, .f32⟩
  | .hbm, ⟨4, _⟩ => ⟨S2048x2, .f32⟩
  | .hbm, ⟨5, _⟩ => ⟨S2048x3, .f32⟩
  | .hbm, ⟨6, _⟩ => ⟨S2048x6, .f32⟩
  | .hbm, ⟨7, _⟩ => ⟨S3, .f32⟩
  | .hbm, ⟨8, _⟩ => ⟨S4x2, .f32⟩
  | .hbm, ⟨9, _⟩ => ⟨S8x3, .f32⟩
  | .hbm, ⟨10, _⟩ => ⟨S64x6, .f32⟩
  | .hbm, ⟨11, _⟩ => ⟨S32768x2048, .f32⟩
  | .hbm, ⟨12, _⟩ => ⟨S11x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S3, .f32⟩
  | .hbm, ⟨19, _⟩ => ⟨S3, .f32⟩
  | .hbm, ⟨20, _⟩ => ⟨S3, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S3, .f32⟩
  | .hbm, ⟨25, _⟩ => ⟨S3, .f32⟩
  | .hbm, ⟨26, _⟩ => ⟨S1, .f32⟩
  | .hbm, ⟨27, _⟩ => ⟨S_, .f32⟩
  | .hbm, ⟨28, _⟩ => ⟨S2048x2, .f32⟩
  | .hbm, ⟨29, _⟩ => ⟨S2048x2, .f32⟩
  | .hbm, ⟨30, _⟩ => ⟨S1, .f32⟩
  | .hbm, ⟨31, _⟩ => ⟨S_, .f32⟩
  | .hbm, ⟨32, _⟩ => ⟨S2048x3, .f32⟩
  | .hbm, ⟨33, _⟩ => ⟨S2048x3, .f32⟩
  | .hbm, ⟨34, _⟩ => ⟨S1, .f32⟩
  | .hbm, ⟨35, _⟩ => ⟨S_, .f32⟩
  | .hbm, ⟨36, _⟩ => ⟨S2048x6, .f32⟩
  | .hbm, ⟨37, _⟩ => ⟨S2048x6, .f32⟩
  | .hbm, ⟨38, _⟩ => ⟨S2048x11, .f32⟩
  | .hbm, ⟨39, _⟩ => ⟨S32768x2048, .f32⟩
  | .hbm, ⟨40, _⟩ => ⟨S32768x4, .f32⟩
  | .hbm, ⟨41, _⟩ => ⟨S32768x8, .f32⟩
  | .hbm, ⟨42, _⟩ => ⟨S32768x64, .f32⟩
  | .hbm, ⟨43, _⟩ => ⟨S8x4096x2048, .f32⟩
  | .hbm, ⟨44, _⟩ => ⟨S8x4096x4, .f32⟩
  | .hbm, ⟨45, _⟩ => ⟨S8x4096x8, .f32⟩
  | .hbm, ⟨46, _⟩ => ⟨S8x4096x64, .f32⟩
  | .local _ .vmem, ⟨0, _⟩ => ⟨S512x2048, .f32⟩
  | .local _ .vmem, ⟨1, _⟩ => ⟨S512x2048, .f32⟩
  | .local _ .vmem, ⟨2, _⟩ => ⟨S11x2048, .f32⟩
  | .local _ .vmem, ⟨3, _⟩ => ⟨S2048x11, .f32⟩
  | .local _ .vmem, ⟨4, _⟩ => ⟨S4x2, .f32⟩
  | .local _ .vmem, ⟨5, _⟩ => ⟨S8x3, .f32⟩
  | .local _ .vmem, ⟨6, _⟩ => ⟨S64x6, .f32⟩
  | .local _ .vmem, ⟨7, _⟩ => ⟨S512x2048, .f32⟩
  | .local _ .vmem, ⟨8, _⟩ => ⟨S512x2048, .f32⟩
  | .local _ .vmem, ⟨9, _⟩ => ⟨S512x4, .f32⟩
  | .local _ .vmem, ⟨10, _⟩ => ⟨S512x4, .f32⟩
  | .local _ .vmem, ⟨11, _⟩ => ⟨S512x8, .f32⟩
  | .local _ .vmem, ⟨12, _⟩ => ⟨S512x8, .f32⟩
  | .local _ .vmem, ⟨13, _⟩ => ⟨S512x64, .f32⟩
  | .local _ .vmem, ⟨14, _⟩ => ⟨S512x64, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_v0 : Ref sig .tc := ⟨.hbm, 11, rfl⟩
abbrev main_v1 : Ref sig .tc := ⟨.hbm, 12, rfl⟩
abbrev main_cst_2 : Ref sig .tc := ⟨.hbm, 13, rfl⟩
abbrev main_v2 : Ref sig .tc := ⟨.hbm, 14, rfl⟩
abbrev main_cst_3 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev main_v25_2 : Ref sig .tc := ⟨.hbm, 41, rfl⟩
abbrev main_v25_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x11 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S8x4096x2048_S32768x2048 : S8x4096x2048.ShapeCasts S32768x2048
  concatenates_S2x2048_S3x2048_S6x2048_S11x2048_d0 : Shape.Concatenates [S2x2048, S3x2048, S6x2048] S11x2048 0
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  slices_S3_S1_0 : S3.Slices ![0] S1
  shapeCasts_S1_S_ : S1.ShapeCasts S_
  bcast_S_S2048x2 : S_.BroadcastsInDim S2048x2 (![] : Fin 0 → Fin S2048x2.rank)
  slices_S3_S1_1 : S3.Slices ![1] S1
  bcast_S_S2048x3 : S_.BroadcastsInDim S2048x3 (![] : Fin 0 → Fin S2048x3.rank)
  slices_S3_S1_2 : S3.Slices ![2] S1
  bcast_S_S2048x6 : S_.BroadcastsInDim S2048x6 (![] : Fin 0 → Fin S2048x6.rank)
  concatenates_S2048x2_S2048x3_S2048x6_S2048x11_d1 : Shape.Concatenates [S2048x2, S2048x3, S2048x6] S2048x11 1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S11x2048_S11x2048_0_0 : ∀ a, (![0, 0] : Fin 2 → Nat) a + S11x2048.size a ≤ S11x2048.size a
  h_S11x2048 : 0 < S11x2048.numel
  shapeCasts_S11x2048_S11x2048 : S11x2048.ShapeCasts S11x2048
  slices_S512x11_o0_0_S512x2 : S512x11.Slices ![0, 0] S512x2
  slices_S512x11_o0_2_S512x3 : S512x11.Slices ![0, 2] S512x3
  slices_S512x11_o0_5_S512x6 : S512x11.Slices ![0, 5] S512x6
  inb_S4x2_S4x2_0_0 : ∀ a, (![0, 0] : Fin 2 → Nat) a + S4x2.size a ≤ S4x2.size a
  h_S4x2 : 0 < S4x2.numel
  inb_S8x3_S8x3_0_0 : ∀ a, (![0, 0] : Fin 2 → Nat) a + S8x3.size a ≤ S8x3.size a
  h_S8x3 : 0 < S8x3.numel
  inb_S64x6_S64x6_0_0 : ∀ a, (![0, 0] : Fin 2 → Nat) a + S64x6.size a ≤ S64x6.size a
  h_S64x6 : 0 < S64x6.numel
  reduces_S512x4_S512 : S512x4.Reduces [1] S512
  shapeCasts_S512_S512x1 : S512.ShapeCasts S512x1
  broadcasts_S512x1_S512x4 : S512x1.Broadcasts S512x4
  inb_S512x4_S512x4_0_0 : ∀ a, (![0, 0] : Fin 2 → Nat) a + S512x4.size a ≤ S512x4.size a
  h_S512x4 : 0 < S512x4.numel
  reduces_S512x8_S512 : S512x8.Reduces [1] S512
  broadcasts_S512x1_S512x8 : S512x1.Broadcasts S512x8
  inb_S512x8_S512x8_0_0 : ∀ a, (![0, 0] : Fin 2 → Nat) a + S512x8.size a ≤ S512x8.size a
  h_S512x8 : 0 < S512x8.numel
  reduces_S512x64_S512 : S512x64.Reduces [1] S512
  broadcasts_S512x1_S512x64 : S512x1.Broadcasts S512x64
  inb_S512x64_S512x64_0_0 : ∀ a, (![0, 0] : Fin 2 → Nat) a + S512x64.size a ≤ S512x64.size a
  h_S512x64 : 0 < S512x64.numel
  concatenates_S512x2_S512x3_S512x6_S512x11_d1 : Shape.Concatenates [S512x2, S512x3, S512x6] S512x11 1
  inb_S2048x11_S2048x11_0_0 : ∀ a, (![0, 0] : Fin 2 → Nat) a + S2048x11.size a ≤ S2048x11.size a
  h_S2048x11 : 0 < S2048x11.numel
  shapeCasts_S2048x11_S2048x11 : S2048x11.ShapeCasts S2048x11
  shapeCasts_S32768x2048_S8x4096x2048 : S32768x2048.ShapeCasts S8x4096x2048
  shapeCasts_S32768x4_S8x4096x4 : S32768x4.ShapeCasts S8x4096x4
  shapeCasts_S32768x8_S8x4096x8 : S32768x8.ShapeCasts S8x4096x8
  shapeCasts_S32768x64_S8x4096x64 : S32768x64.ShapeCasts S8x4096x64
  dot_S512x2048_S11x2048_S512x11_1_1_0_0_n_n_wf : DotDims.WF S512x2048 S11x2048 S512x11 [1] [1] [0] [0] [] []
  dot_S512x2_S4x2_S512x4_1_1_0_0_n_n_wf : DotDims.WF S512x2 S4x2 S512x4 [1] [1] [0] [0] [] []
  dot_S512x3_S8x3_S512x8_1_1_0_0_n_n_wf : DotDims.WF S512x3 S8x3 S512x8 [1] [1] [0] [0] [] []
  dot_S512x6_S64x6_S512x64_1_1_0_0_n_n_wf : DotDims.WF S512x6 S64x6 S512x64 [1] [1] [0] [0] [] []
  dot_S512x4_S4x2_S512x2_1_0_0_1_n_n_wf : DotDims.WF S512x4 S4x2 S512x2 [1] [0] [0] [1] [] []
  dot_S512x8_S8x3_S512x3_1_0_0_1_n_n_wf : DotDims.WF S512x8 S8x3 S512x3 [1] [0] [0] [1] [] []
  dot_S512x64_S64x6_S512x6_1_0_0_1_n_n_wf : DotDims.WF S512x64 S64x6 S512x6 [1] [0] [0] [1] [] []
  dot_S512x11_S2048x11_S512x2048_1_1_0_0_n_n_wf : DotDims.WF S512x11 S2048x11 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x2048.size a ≤ S11x2048.size a
  hwx0_1 : ∀ i : grid0.Coords, EltTy.bits .f32 = 32 ∨ (Rect.block (s := S11x2048) S11x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x11.size a ≤ S2048x11.size a
  hwx0_2 : ∀ i : grid0.Coords, EltTy.bits .f32 = 32 ∨ (Rect.block (s := S2048x11) S2048x11.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x2.size a ≤ S4x2.size a
  hwx0_3 : ∀ i : grid0.Coords, EltTy.bits .f32 = 32 ∨ (Rect.block (s := S4x2) S4x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x3.size a ≤ S8x3.size a
  hwx0_4 : ∀ i : grid0.Coords, EltTy.bits .f32 = 32 ∨ (Rect.block (s := S8x3) S8x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x6.size a ≤ S64x6.size a
  hwx0_5 : ∀ i : grid0.Coords, EltTy.bits .f32 = 32 ∨ (Rect.block (s := S64x6) S64x6.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S32768x2048.size a
  hwx0_6 : ∀ i : grid0.Coords, EltTy.bits .f32 = 32 ∨ (Rect.block (s := S32768x2048) S512x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x4.size a ≤ S32768x4.size a
  hwx0_7 : ∀ i : grid0.Coords, EltTy.bits .f32 = 32 ∨ (Rect.block (s := S32768x4) S512x4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x8.size a ≤ S32768x8.size a
  hwx0_8 : ∀ i : grid0.Coords, EltTy.bits .f32 = 32 ∨ (Rect.block (s := S32768x8) S512x8.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x64.size a ≤ S32768x64.size a
  hwx0_9 : ∀ i : grid0.Coords, EltTy.bits .f32 = 32 ∨ (Rect.block (s := S32768x64) S512x64.size (cc0_transform_9 i) (hinb0_9 i)).WholeWords (EltTy.packing .f32)

variable [Facts₀]

def dot_S512x2048_S11x2048_S512x11_1_1_0_0_n_n : DotDims S512x2048 S11x2048 S512x11 where
  lhsContracting := [1]
  rhsContracting := [1]
  lhsNonContracting := [0]
  rhsNonContracting := [0]
  lhsBatch := []
  rhsBatch := []
  wf := dot_S512x2048_S11x2048_S512x11_1_1_0_0_n_n_wf
def dot_S512x2_S4x2_S512x4_1_1_0_0_n_n : DotDims S512x2 S4x2 S512x4 where
  lhsContracting := [1]
  rhsContracting := [1]
  lhsNonContracting := [0]
  rhsNonContracting := [0]
  lhsBatch := []
  rhsBatch := []
  wf := dot_S512x2_S4x2_S512x4_1_1_0_0_n_n_wf
def dot_S512x3_S8x3_S512x8_1_1_0_0_n_n : DotDims S512x3 S8x3 S512x8 where
  lhsContracting := [1]
  rhsContracting := [1]
  lhsNonContracting := [0]
  rhsNonContracting := [0]
  lhsBatch := []
  rhsBatch := []
  wf := dot_S512x3_S8x3_S512x8_1_1_0_0_n_n_wf
def dot_S512x6_S64x6_S512x64_1_1_0_0_n_n : DotDims S512x6 S64x6 S512x64 where
  lhsContracting := [1]
  rhsContracting := [1]
  lhsNonContracting := [0]
  rhsNonContracting := [0]
  lhsBatch := []
  rhsBatch := []
  wf := dot_S512x6_S64x6_S512x64_1_1_0_0_n_n_wf
def dot_S512x4_S4x2_S512x2_1_0_0_1_n_n : DotDims S512x4 S4x2 S512x2 where
  lhsContracting := [1]
  rhsContracting := [0]
  lhsNonContracting := [0]
  rhsNonContracting := [1]
  lhsBatch := []
  rhsBatch := []
  wf := dot_S512x4_S4x2_S512x2_1_0_0_1_n_n_wf
def dot_S512x8_S8x3_S512x3_1_0_0_1_n_n : DotDims S512x8 S8x3 S512x3 where
  lhsContracting := [1]
  rhsContracting := [0]
  lhsNonContracting := [0]
  rhsNonContracting := [1]
  lhsBatch := []
  rhsBatch := []
  wf := dot_S512x8_S8x3_S512x3_1_0_0_1_n_n_wf
def dot_S512x64_S64x6_S512x6_1_0_0_1_n_n : DotDims S512x64 S64x6 S512x6 where
  lhsContracting := [1]
  rhsContracting := [0]
  lhsNonContracting := [0]
  rhsNonContracting := [1]
  lhsBatch := []
  rhsBatch := []
  wf := dot_S512x64_S64x6_S512x6_1_0_0_1_n_n_wf
def dot_S512x11_S2048x11_S512x2048_1_1_0_0_n_n : DotDims S512x11 S2048x11 S512x2048 where
  lhsContracting := [1]
  rhsContracting := [1]
  lhsNonContracting := [0]
  rhsNonContracting := [0]
  lhsBatch := []
  rhsBatch := []
  wf := dot_S512x11_S2048x11_S512x2048_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S11x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S2048x11.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_cst) S4x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_cst_0) S8x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_cst_1) S64x6.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25_0) S512x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v25_1) S512x4.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v25_2) S512x8.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v25_3) S512x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S2x2048 : Shape := ⟨2, ![2, 2048]⟩
abbrev S3x2048 : Shape := ⟨2, ![3, 2048]⟩
abbrev S6x2048 : Shape := ⟨2, ![6, 2048]⟩
abbrev S2048x2 : Shape := ⟨2, ![2048, 2]⟩
abbrev S2048x3 : Shape := ⟨2, ![2048, 3]⟩
abbrev S2048x6 : Shape := ⟨2, ![2048, 6]⟩
abbrev S3 : Shape := ⟨1, ![3]⟩
abbrev S4x2 : Shape := ⟨2, ![4, 2]⟩
abbrev S8x3 : Shape := ⟨2, ![8, 3]⟩
abbrev S64x6 : Shape := ⟨2, ![64, 6]⟩
abbrev S8x4096x2 : Shape := ⟨3, ![8, 4096, 2]⟩
abbrev S8x4096x4 : Shape := ⟨3, ![8, 4096, 4]⟩
abbrev S_ : Shape := ⟨0, ![]⟩
abbrev S8x4096 : Shape := ⟨2, ![8, 4096]⟩
abbrev S8x4096x1 : Shape := ⟨3, ![8, 4096, 1]⟩
abbrev S8x4096x3 : Shape := ⟨3, ![8, 4096, 3]⟩
abbrev S8x4096x8 : Shape := ⟨3, ![8, 4096, 8]⟩
abbrev S8x4096x6 : Shape := ⟨3, ![8, 4096, 6]⟩
abbrev S8x4096x64 : Shape := ⟨3, ![8, 4096, 64]⟩
abbrev S1 : Shape := ⟨1, ![1]⟩

abbrev nBuf : Space → Nat
  | .hbm => 105
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2x2048, .f32⟩
  | .hbm, ⟨2, _⟩ => ⟨S3x2048, .f32⟩
  | .hbm, ⟨3, _⟩ => ⟨S6x2048, .f32⟩
  | .hbm, ⟨4, _⟩ => ⟨S2048x2, .f32⟩
  | .hbm, ⟨5, _⟩ => ⟨S2048x3, .f32⟩
  | .hbm, ⟨6, _⟩ => ⟨S2048x6, .f32⟩
  | .hbm, ⟨7, _⟩ => ⟨S3, .f32⟩
  | .hbm, ⟨8, _⟩ => ⟨S4x2, .f32⟩
  | .hbm, ⟨9, _⟩ => ⟨S8x3, .f32⟩
  | .hbm, ⟨10, _⟩ => ⟨S64x6, .f32⟩
  | .hbm, ⟨11, _⟩ => ⟨S8x4096x2, .f32⟩
  | .hbm, ⟨12, _⟩ => ⟨S8x4096x2, .f32⟩
  | .hbm, ⟨13, _⟩ => ⟨S8x4096x4, .f32⟩
  | .hbm, ⟨14, _⟩ => ⟨S_, .f32⟩
  | .hbm, ⟨15, _⟩ => ⟨S8x4096x4, .f32⟩
  | .hbm, ⟨16, _⟩ => ⟨S8x4096x4, .f32⟩
  | .hbm, ⟨17, _⟩ => ⟨S_, .f32⟩
  | .hbm, ⟨18, _⟩ => ⟨S8x4096, .f32⟩
  | .hbm, ⟨19, _⟩ => ⟨S_, .f32⟩
  | .hbm, ⟨20, _⟩ => ⟨S8x4096, .f32⟩
  | .hbm, ⟨21, _⟩ => ⟨S8x4096, .f32⟩
  | .hbm, ⟨22, _⟩ => ⟨S8x4096x1, .f32⟩
  | .hbm, ⟨23, _⟩ => ⟨S8x4096x4, .f32⟩
  | .hbm, ⟨24, _⟩ => ⟨S8x4096x4, .f32⟩
  | .hbm, ⟨25, _⟩ => ⟨S8x4096x4, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4, .f32⟩
  | .hbm, ⟨30, _⟩ => ⟨S8x4096x4, .f32⟩
  | .hbm, ⟨31, _⟩ => ⟨S8x4096x2, .f32⟩
  | .hbm, ⟨32, _⟩ => ⟨S8x4096x3, .f32⟩
  | .hbm, ⟨33, _⟩ => ⟨S8x4096x3, .f32⟩
  | .hbm, ⟨34, _⟩ => ⟨S8x4096x8, .f32⟩
  | .hbm, ⟨35, _⟩ => ⟨S_, .f32⟩
  | .hbm, ⟨36, _⟩ => ⟨S8x4096x8, .f32⟩
  | .hbm, ⟨37, _⟩ => ⟨S8x4096x8, .f32⟩
  | .hbm, ⟨38, _⟩ => ⟨S_, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S8x4096, .f32⟩
  | .hbm, ⟨43, _⟩ => ⟨S8x4096x1, .f32⟩
  | .hbm, ⟨44, _⟩ => ⟨S8x4096x8, .f32⟩
  | .hbm, ⟨45, _⟩ => ⟨S8x4096x8, .f32⟩
  | .hbm, ⟨46, _⟩ => ⟨S8x4096x8, .f32⟩
  | .hbm, ⟨47, _⟩ => ⟨S_, .f32⟩
  | .hbm, ⟨48, _⟩ => ⟨S8x4096, .f32⟩
  | .hbm, ⟨49, _⟩ => ⟨S8x4096x1, .f32⟩
  | .hbm, ⟨50, _⟩ => ⟨S8x4096x8, .f32⟩
  | .hbm, ⟨51, _⟩ => ⟨S8x4096x8, .f32⟩
  | .hbm, ⟨52, _⟩ => ⟨S8x4096x3, .f32⟩
  | .hbm, ⟨53, _⟩ => ⟨S8x4096x6, .f32⟩
  | .hbm, ⟨54, _⟩ => ⟨S8x4096x6, .f32⟩
  | .hbm, ⟨55, _⟩ => ⟨S8x4096x64, .f32⟩
  | .hbm, ⟨56, _⟩ => ⟨S_, .f32⟩
  | .hbm, ⟨57, _⟩ => ⟨S8x4096x64, .f32⟩
  | .hbm, ⟨58, _⟩ => ⟨S8x4096x64, .f32⟩
  | .hbm, ⟨59, _⟩ => ⟨S_, .f32⟩
  | .hbm, ⟨60, _⟩ => ⟨S8x4096, .f32⟩
  | .hbm, ⟨61, _⟩ => ⟨S_, .f32⟩
  | .hbm, ⟨62, _⟩ => ⟨S8x4096, .f32⟩
  | .hbm, ⟨63, _⟩ => ⟨S8x4096, .f32⟩
  | .hbm, ⟨64, _⟩ => ⟨S8x4096x1, .f32⟩
  | .hbm, ⟨65, _⟩ => ⟨S8x4096x64, .f32⟩
  | .hbm, ⟨66, _⟩ => ⟨S8x4096x64, .f32⟩
  | .hbm, ⟨67, _⟩ => ⟨S8x4096x64, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S8x4096x64, .f32⟩
  | .hbm, ⟨72, _⟩ => ⟨S8x4096x64, .f32⟩
  | .hbm, ⟨73, _⟩ => ⟨S8x4096x6, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S1, .f32⟩
  | .hbm, ⟨79, _⟩ => ⟨S3, .f32⟩
  | .hbm, ⟨80, _⟩ => ⟨S3, .f32⟩
  | .hbm, ⟨81, _⟩ => ⟨S3, .f32⟩
  | .hbm, ⟨82, _⟩ => ⟨S_, .f32⟩
  | .hbm, ⟨83, _⟩ => ⟨S_, .f32⟩
  | .hbm, ⟨84, _⟩ => ⟨S1, .f32⟩
  | .hbm, ⟨85, _⟩ => ⟨S3, .f32⟩
  | .hbm, ⟨86, _⟩ => ⟨S3, .f32⟩
  | .hbm, ⟨87, _⟩ => ⟨S1, .f32⟩
  | .hbm, ⟨88, _⟩ => ⟨S_, .f32⟩
  | .hbm, ⟨89, _⟩ => ⟨S8x4096x2048, .f32⟩
  | .hbm, ⟨90, _⟩ => ⟨S8x4096x2048, .f32⟩
  | .hbm, ⟨91, _⟩ => ⟨S8x4096x2048, .f32⟩
  | .hbm, ⟨92, _⟩ => ⟨S1, .f32⟩
  | .hbm, ⟨93, _⟩ => ⟨S_, .f32⟩
  | .hbm, ⟨94, _⟩ => ⟨S8x4096x2048, .f32⟩
  | .hbm, ⟨95, _⟩ => ⟨S8x4096x2048, .f32⟩
  | .hbm, ⟨96, _⟩ => ⟨S8x4096x2048, .f32⟩
  | .hbm, ⟨97, _⟩ => ⟨S8x4096x2048, .f32⟩
  | .hbm, ⟨98, _⟩ => ⟨S1, .f32⟩
  | .hbm, ⟨99, _⟩ => ⟨S_, .f32⟩
  | .hbm, ⟨100, _⟩ => ⟨S8x4096x2048, .f32⟩
  | .hbm, ⟨101, _⟩ => ⟨S8x4096x2048, .f32⟩
  | .hbm, ⟨102, _⟩ => ⟨S8x4096x2048, .f32⟩
  | .hbm, ⟨103, _⟩ => ⟨S8x4096x2048, .f32⟩
  | .hbm, ⟨104, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_2 : Ref sig .tc := ⟨.hbm, 14, rfl⟩
abbrev main_v3 : Ref sig .tc := ⟨.hbm, 15, rfl⟩
abbrev main_v4 : Ref sig .tc := ⟨.hbm, 16, rfl⟩
abbrev main_cst_3 : Ref sig .tc := ⟨.hbm, 17, rfl⟩
abbrev main_v5 : Ref sig .tc := ⟨.hbm, 18, rfl⟩
abbrev main_cst_4 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_cst_12 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_cst_15 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_16 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩

abbrev nD : Nat := 1
abbrev τ : Topo := Topo.v7x

variable {F : FTy → Type} [FloatOps F]

class Facts₀ : Prop where
  bcast_S_S8x4096x4 : S_.BroadcastsInDim S8x4096x4 (![] : Fin 0 → Fin S8x4096x4.rank)
  reducesTo_S8x4096x4_S8x4096_d2 : S8x4096x4.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4_0_1_2 : S8x4096x1.BroadcastsInDim S8x4096x4 (![0, 1, 2] : Fin 3 → Fin S8x4096x4.rank)
  bcast_S_S8x4096x8 : S_.BroadcastsInDim S8x4096x8 (![] : Fin 0 → Fin S8x4096x8.rank)
  reducesTo_S8x4096x8_S8x4096_d2 : S8x4096x8.ReducesTo [2] S8x4096
  bcast_S8x4096x1_S8x4096x8_0_1_2 : S8x4096x1.BroadcastsInDim S8x4096x8 (![0, 1, 2] : Fin 3 → Fin S8x4096x8.rank)
  bcast_S_S8x4096x64 : S_.BroadcastsInDim S8x4096x64 (![] : Fin 0 → Fin S8x4096x64.rank)
  reducesTo_S8x4096x64_S8x4096_d2 : S8x4096x64.ReducesTo [2] S8x4096
  bcast_S8x4096x1_S8x4096x64_0_1_2 : S8x4096x1.BroadcastsInDim S8x4096x64 (![0, 1, 2] : Fin 3 → Fin S8x4096x64.rank)
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  slices_S3_S1_0 : S3.Slices ![0] S1
  shapeCasts_S1_S_ : S1.ShapeCasts S_
  bcast_S_S8x4096x2048 : S_.BroadcastsInDim S8x4096x2048 (![] : Fin 0 → Fin S8x4096x2048.rank)
  slices_S3_S1_1 : S3.Slices ![1] S1
  slices_S3_S1_2 : S3.Slices ![2] S1
  dot_S8x4096x2048_S2x2048_S8x4096x2_2_1_01_0_n_n_wf : DotDims.WF S8x4096x2048 S2x2048 S8x4096x2 [2] [1] [0, 1] [0] [] []
  dot_S8x4096x2_S4x2_S8x4096x4_2_1_01_0_n_n_wf : DotDims.WF S8x4096x2 S4x2 S8x4096x4 [2] [1] [0, 1] [0] [] []
  dot_S8x4096x4_S4x2_S8x4096x2_2_0_01_1_n_n_wf : DotDims.WF S8x4096x4 S4x2 S8x4096x2 [2] [0] [0, 1] [1] [] []
  dot_S8x4096x2048_S3x2048_S8x4096x3_2_1_01_0_n_n_wf : DotDims.WF S8x4096x2048 S3x2048 S8x4096x3 [2] [1] [0, 1] [0] [] []
  dot_S8x4096x3_S8x3_S8x4096x8_2_1_01_0_n_n_wf : DotDims.WF S8x4096x3 S8x3 S8x4096x8 [2] [1] [0, 1] [0] [] []
  dot_S8x4096x8_S8x3_S8x4096x3_2_0_01_1_n_n_wf : DotDims.WF S8x4096x8 S8x3 S8x4096x3 [2] [0] [0, 1] [1] [] []
  dot_S8x4096x2048_S6x2048_S8x4096x6_2_1_01_0_n_n_wf : DotDims.WF S8x4096x2048 S6x2048 S8x4096x6 [2] [1] [0, 1] [0] [] []
  dot_S8x4096x6_S64x6_S8x4096x64_2_1_01_0_n_n_wf : DotDims.WF S8x4096x6 S64x6 S8x4096x64 [2] [1] [0, 1] [0] [] []
  dot_S8x4096x64_S64x6_S8x4096x6_2_0_01_1_n_n_wf : DotDims.WF S8x4096x64 S64x6 S8x4096x6 [2] [0] [0, 1] [1] [] []
  dot_S8x4096x2_S2048x2_S8x4096x2048_2_1_01_0_n_n_wf : DotDims.WF S8x4096x2 S2048x2 S8x4096x2048 [2] [1] [0, 1] [0] [] []
  dot_S8x4096x3_S2048x3_S8x4096x2048_2_1_01_0_n_n_wf : DotDims.WF S8x4096x3 S2048x3 S8x4096x2048 [2] [1] [0, 1] [0] [] []
  dot_S8x4096x6_S2048x6_S8x4096x2048_2_1_01_0_n_n_wf : DotDims.WF S8x4096x6 S2048x6 S8x4096x2048 [2] [1] [0, 1] [0] [] []

variable [Facts₀]

def dot_S8x4096x2048_S2x2048_S8x4096x2_2_1_01_0_n_n : DotDims S8x4096x2048 S2x2048 S8x4096x2 where
  lhsContracting := [2]
  rhsContracting := [1]
  lhsNonContracting := [0, 1]
  rhsNonContracting := [0]
  lhsBatch := []
  rhsBatch := []
  wf := dot_S8x4096x2048_S2x2048_S8x4096x2_2_1_01_0_n_n_wf
def dot_S8x4096x2_S4x2_S8x4096x4_2_1_01_0_n_n : DotDims S8x4096x2 S4x2 S8x4096x4 where
  lhsContracting := [2]
  rhsContracting := [1]
  lhsNonContracting := [0, 1]
  rhsNonContracting := [0]
  lhsBatch := []
  rhsBatch := []
  wf := dot_S8x4096x2_S4x2_S8x4096x4_2_1_01_0_n_n_wf
def dot_S8x4096x4_S4x2_S8x4096x2_2_0_01_1_n_n : DotDims S8x4096x4 S4x2 S8x4096x2 where
  lhsContracting := [2]
  rhsContracting := [0]
  lhsNonContracting := [0, 1]
  rhsNonContracting := [1]
  lhsBatch := []
  rhsBatch := []
  wf := dot_S8x4096x4_S4x2_S8x4096x2_2_0_01_1_n_n_wf
def dot_S8x4096x2048_S3x2048_S8x4096x3_2_1_01_0_n_n : DotDims S8x4096x2048 S3x2048 S8x4096x3 where
  lhsContracting := [2]
  rhsContracting := [1]
  lhsNonContracting := [0, 1]
  rhsNonContracting := [0]
  lhsBatch := []
  rhsBatch := []
  wf := dot_S8x4096x2048_S3x2048_S8x4096x3_2_1_01_0_n_n_wf
def dot_S8x4096x3_S8x3_S8x4096x8_2_1_01_0_n_n : DotDims S8x4096x3 S8x3 S8x4096x8 where
  lhsContracting := [2]
  rhsContracting := [1]
  lhsNonContracting := [0, 1]
  rhsNonContracting := [0]
  lhsBatch := []
  rhsBatch := []
  wf := dot_S8x4096x3_S8x3_S8x4096x8_2_1_01_0_n_n_wf
def dot_S8x4096x8_S8x3_S8x4096x3_2_0_01_1_n_n : DotDims S8x4096x8 S8x3 S8x4096x3 where
  lhsContracting := [2]
  rhsContracting := [0]
  lhsNonContracting := [0, 1]
  rhsNonContracting := [1]
  lhsBatch := []
  rhsBatch := []
  wf := dot_S8x4096x8_S8x3_S8x4096x3_2_0_01_1_n_n_wf
def dot_S8x4096x2048_S6x2048_S8x4096x6_2_1_01_0_n_n : DotDims S8x4096x2048 S6x2048 S8x4096x6 where
  lhsContracting := [2]
  rhsContracting := [1]
  lhsNonContracting := [0, 1]
  rhsNonContracting := [0]
  lhsBatch := []
  rhsBatch := []
  wf := dot_S8x4096x2048_S6x2048_S8x4096x6_2_1_01_0_n_n_wf
def dot_S8x4096x6_S64x6_S8x4096x64_2_1_01_0_n_n : DotDims S8x4096x6 S64x6 S8x4096x64 where
  lhsContracting := [2]
  rhsContracting := [1]
  lhsNonContracting := [0, 1]
  rhsNonContracting := [0]
  lhsBatch := []
  rhsBatch := []
  wf := dot_S8x4096x6_S64x6_S8x4096x64_2_1_01_0_n_n_wf
def dot_S8x4096x64_S64x6_S8x4096x6_2_0_01_1_n_n : DotDims S8x4096x64 S64x6 S8x4096x6 where
  lhsContracting := [2]
  rhsContracting := [0]
  lhsNonContracting := [0, 1]
  rhsNonContracting := [1]
  lhsBatch := []
  rhsBatch := []
  wf := dot_S8x4096x64_S64x6_S8x4096x6_2_0_01_1_n_n_wf
def dot_S8x4096x2_S2048x2_S8x4096x2048_2_1_01_0_n_n : DotDims S8x4096x2 S2048x2 S8x4096x2048 where
  lhsContracting := [2]
  rhsContracting := [1]
  lhsNonContracting := [0, 1]
  rhsNonContracting := [0]
  lhsBatch := []
  rhsBatch := []
  wf := dot_S8x4096x2_S2048x2_S8x4096x2048_2_1_01_0_n_n_wf
def dot_S8x4096x3_S2048x3_S8x4096x2048_2_1_01_0_n_n : DotDims S8x4096x3 S2048x3 S8x4096x2048 where
  lhsContracting := [2]
  rhsContracting := [1]
  lhsNonContracting := [0, 1]
  rhsNonContracting := [0]
  lhsBatch := []
  rhsBatch := []
  wf := dot_S8x4096x3_S2048x3_S8x4096x2048_2_1_01_0_n_n_wf
def dot_S8x4096x6_S2048x6_S8x4096x2048_2_1_01_0_n_n : DotDims S8x4096x6 S2048x6 S8x4096x2048 where
  lhsContracting := [2]
  rhsContracting := [1]
  lhsNonContracting := [0, 1]
  rhsNonContracting := [0]
  lhsBatch := []
  rhsBatch := []
  wf := dot_S8x4096x6_S2048x6_S8x4096x2048_2_1_01_0_n_n_wf

class Facts : Prop extends Facts₀ where

variable [Facts]
-- ==== Proof.FrameK.lean ====
/-
  The frame of `Kernel`: @main is a stretch of host operations (the vertex tables, the reshape of x to rows, the two
  concatenated projection tables with the mixing weights folded into the second), one region of 64 grid points,
  and four reshapes of the region's results.  Stated here: the buffer contents when the region is entered, each
  window's block at a grid point, what the body leaves in each of its four output buffers (the whole block,
  stored once, as the body's arithmetic of the six input blocks), the body's run, the pipeline's proof data, and
  the run of @main to a state in which every array of the pipeline is what the write-backs leave and every other
  buffer what the host operations after the region leave.  The argument arrays are written by no operation, so
  they end as launched.  The body also loads each output buffer before storing it; the loaded values are unused,
  so the output buffers may hold anything when the body starts.
-/
import proofs.«107425_j46832323395756_2_alg».proof.Proof.Gen.Kernel.Launch
import proofs.«107425_j46832323395756_2_alg».proof.Proof.Gen.Kernel.Skeleton
import proofs.«107425_j46832323395756_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.reshape_writes, Finset.mem_singleton] <;> exact StableHlo.devRef_ne_of_ne (by decide)

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The eight argument arrays are no array of the pipeline and are written by no host operation. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

/-! ## The body's accesses: every load and store is of a whole buffer -/

abbrev rX : Rect S512x2048 := Rect.unit (s := S512x2048) ![0, 0] S512x2048.size inb_S512x2048_S512x2048_0_0
abbrev rWp : Rect S11x2048 := Rect.unit (s := S11x2048) ![0, 0] S11x2048.size inb_S11x2048_S11x2048_0_0
abbrev rWo : Rect S2048x11 := Rect.unit (s := S2048x11) ![0, 0] S2048x11.size inb_S2048x11_S2048x11_0_0
abbrev rV2 : Rect S4x2 := Rect.unit (s := S4x2) ![0, 0] S4x2.size inb_S4x2_S4x2_0_0
abbrev rV3 : Rect S8x3 := Rect.unit (s := S8x3) ![0, 0] S8x3.size inb_S8x3_S8x3_0_0
abbrev rV6 : Rect S64x6 := Rect.unit (s := S64x6) ![0, 0] S64x6.size inb_S64x6_S64x6_0_0
abbrev rO4 : Rect S512x4 := Rect.unit (s := S512x4) ![0, 0] S512x4.size inb_S512x4_S512x4_0_0
abbrev rO8 : Rect S512x8 := Rect.unit (s := S512x8) ![0, 0] S512x8.size inb_S512x8_S512x8_0_0
abbrev rO64 : Rect S512x64 := Rect.unit (s := S512x64) ![0, 0] S512x64.size inb_S512x64_S512x64_0_0

/-! ## What the body leaves in each output buffer -/

/-- The weights over the 4 vertices of the square. -/
def pay7 (x0 : Vec F S512x2048 .f32) (tp : Vec F S11x2048 .f32) (v2 : Vec F S4x2 .f32) : FVec F S512x4 .f32 :=
  k0_pay4 (View.ld x0 rX) (View.ld tp rWp) (View.ld v2 rV2)
/-- The weights over the 8 vertices of the cube. -/
def pay8 (x0 : Vec F S512x2048 .f32) (tp : Vec F S11x2048 .f32) (v3 : Vec F S8x3 .f32) : FVec F S512x8 .f32 :=
  k0_pay7 (k0_pay5 (View.ld x0 rX) (View.ld tp rWp) (View.ld v3 rV3)) (k0_pay6 (View.ld x0 rX) (View.ld tp rWp) (View.ld v3 rV3))
/-- The weights over the 64 vertices of the 6-cube. -/
def pay9 (x0 : Vec F S512x2048 .f32) (tp : Vec F S11x2048 .f32) (v6 : Vec F S64x6 .f32) : FVec F S512x64 .f32 :=
  k0_pay8 (k0_pay3 (View.ld x0 rX) (View.ld tp rWp)) (View.ld v6 rV6)
/-- The residual rows. -/
def pay6 (x0 : Vec F S512x2048 .f32) (tp : Vec F S11x2048 .f32) (wo : Vec F S2048x11 .f32) (v2 : Vec F S4x2 .f32) (v3 : Vec F S8x3 .f32) (v6 : Vec F S64x6 .f32) : FVec F S512x2048 .f32 :=
  k0_pay9 (k0_pay1 (View.ld x0 rX)) (k0_pay3 (View.ld x0 rX) (View.ld tp rWp)) (View.ld v2 rV2) (View.ld v3 rV3) (View.ld v6 rV6)
    (k0_pay4 (View.ld x0 rX) (View.ld tp rWp) (View.ld v2 rV2)) (k0_pay5 (View.ld x0 rX) (View.ld tp rWp) (View.ld v3 rV3))
    (k0_pay6 (View.ld x0 rX) (View.ld tp rWp) (View.ld v3 rV3)) (View.ld wo rWo)

def out0_6 (x0 : Vec F S512x2048 .f32) (tp : Vec F S11x2048 .f32) (wo : Vec F S2048x11 .f32) (v2 : Vec F S4x2 .f32) (v3 : Vec F S8x3 .f32) (v6 : Vec F S64x6 .f32) : Vec F S512x2048 .f32 :=
  View.canon [⟨rX, pay6 x0 tp wo v2 v3 v6⟩]
def out0_7 (x0 : Vec F S512x2048 .f32) (tp : Vec F S11x2048 .f32) (v2 : Vec F S4x2 .f32) : Vec F S512x4 .f32 :=
  View.canon [⟨rO4, pay7 x0 tp v2⟩]
def out0_8 (x0 : Vec F S512x2048 .f32) (tp : Vec F S11x2048 .f32) (v3 : Vec F S8x3 .f32) : Vec F S512x8 .f32 :=
  View.canon [⟨rO8, pay8 x0 tp v3⟩]
def out0_9 (x0 : Vec F S512x2048 .f32) (tp : Vec F S11x2048 .f32) (v6 : Vec F S64x6 .f32) : Vec F S512x64 .f32 :=
  View.canon [⟨rO64, pay9 x0 tp v6⟩]

theorem cover0_6 (p0 : Vec F S512x2048 .f32) (y : S512x2048.Idx) :
    ∃ pc ∈ ([⟨rX, p0⟩] : List (View.Piece (Elt F) S512x2048 .f32)), y ∈ pc.1.set :=
  View.cover_of_tiled [⟨rX, p0⟩] S512x2048.size (by rfl) y
theorem cover0_7 (p0 : Vec F S512x4 .f32) (y : S512x4.Idx) :
    ∃ pc ∈ ([⟨rO4, p0⟩] : List (View.Piece (Elt F) S512x4 .f32)), y ∈ pc.1.set :=
  View.cover_of_tiled [⟨rO4, p0⟩] S512x4.size (by rfl) y
theorem cover0_8 (p0 : Vec F S512x8 .f32) (y : S512x8.Idx) :
    ∃ pc ∈ ([⟨rO8, p0⟩] : List (View.Piece (Elt F) S512x8 .f32)), y ∈ pc.1.set :=
  View.cover_of_tiled [⟨rO8, p0⟩] S512x8.size (by rfl) y
theorem cover0_9 (p0 : Vec F S512x64 .f32) (y : S512x64.Idx) :
    ∃ pc ∈ ([⟨rO64, p0⟩] : List (View.Piece (Elt F) S512x64 .f32)), y ∈ pc.1.set :=
  View.cover_of_tiled [⟨rO64, p0⟩] S512x64.size (by rfl) y

/-! ## The body's run -/

set_option maxHeartbeats 4000000 in
/-- The kernel body on whole staging memrefs, the inputs' at read contents and the outputs' at anything, runs to the
    continuation holding the inputs' as they were and each output's at `out0_W` of the inputs'. -/
theorem sound_kernel (c : Dev nD) (E : Set ℕ) (i : grid0.Coords)
    (arg1 : Memref sig .tc .vmem S512x2048 .f32) (harg1 : arg1.IsWhole) (arg2 : Memref sig .tc .vmem S11x2048 .f32) (harg2 : arg2.IsWhole)
    (arg3 : Memref sig .tc .vmem S2048x11 .f32) (harg3 : arg3.IsWhole) (arg4 : Memref sig .tc .vmem S4x2 .f32) (harg4 : arg4.IsWhole)
    (arg5 : Memref sig .tc .vmem S8x3 .f32) (harg5 : arg5.IsWhole) (arg6 : Memref sig .tc .vmem S64x6 .f32) (harg6 : arg6.IsWhole)
    (arg7 : Memref sig .tc .vmem S512x2048 .f32) (harg7 : arg7.IsWhole) (arg8 : Memref sig .tc .vmem S512x4 .f32) (harg8 : arg8.IsWhole)
    (arg9 : Memref sig .tc .vmem S512x8 .f32) (harg9 : arg9.IsWhole) (arg10 : Memref sig .tc .vmem S512x64 .f32) (harg10 : arg10.IsWhole)
    (x0 : Vec F S512x2048 .f32) (tp : Vec F S11x2048 .f32) (wo : Vec F S2048x11 .f32) (v2 : Vec F S4x2 .f32) (v3 : Vec F S8x3 .f32) (v6 : Vec F S64x6 .f32)
    (K : PUnit → sProp 𝕄) :
    iprop(owns (c : Thread nD τ) arg1 fullShare x0 ∗ owns (c : Thread nD τ) arg2 fullShare tp ∗ owns (c : Thread nD τ) arg3 fullShare wo
        ∗ owns (c : Thread nD τ) arg4 fullShare v2 ∗ owns (c : Thread nD τ) arg5 fullShare v3 ∗ owns (c : Thread nD τ) arg6 fullShare v6
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare tp ∗ owns (c : Thread nD τ) arg3 fullShare wo
            ∗ owns (c : Thread nD τ) arg4 fullShare v2 ∗ owns (c : Thread nD τ) arg5 fullShare v3 ∗ owns (c : Thread nD τ) arg6 fullShare v6
            ∗ owns (c : Thread nD τ) arg7 fullShare (out0_6 x0 tp wo v2 v3 v6) ∗ owns (c : Thread nD τ) arg8 fullShare (out0_7 x0 tp v2)
            ∗ owns (c : Thread nD τ) arg9 fullShare (out0_8 x0 tp v3) ∗ owns (c : Thread nD τ) arg10 fullShare (out0_9 x0 tp v6)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9 arg10 harg10) K := by
  simp only [cc0__kernel_eq_skeleton, k0_part1_eq_skeleton, k0_part2_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_6 _)
  isplitl [H8]
  · iexists _; isplitr
    swap; · iexact H8
    ipureintro
    exact View.read_writes_eq_canon _ _ _ (cover0_7 _)
  isplitl [H9]
  · iexists _; isplitr
    swap; · iexact H9
    ipureintro
    exact View.read_writes_eq_canon _ _ _ (cover0_8 _)
  iexists _; isplitr
  swap; · iexact H10
  ipureintro
  exact View.read_writes_eq_canon _ _ _ (cover0_9 _)

/-! ## The pipeline's proof data -/

/-- The arrays as the region finds them; after the body at point `t` each input's buffer at its block and each
    output's at `out0_W` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 3 t)
    | ⟨8, _⟩ => out0_8 (iblk m c 0 t) (iblk m c 1 t) (iblk m c 4 t)
    | ⟨9, _⟩ => out0_9 (iblk m c 0 t) (iblk m c 1 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 3 t) := by dsimp only [dats]
theorem after0_8 (c : Dev nD) (t : Fin cfg0.N) : (dats m 0 c).after 8 t = out0_8 (iblk m c 0 t) (iblk m c 1 t) (iblk m c 4 t) := by dsimp only [dats]
theorem after0_9 (c : Dev nD) (t : Fin cfg0.N) : (dats m 0 c).after 9 t = out0_9 (iblk m c 0 t) (iblk m c 1 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the write-backs leave and every other buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.Kernel.Fr

end
-- ==== Proof.FrameKI.lean ====
/-
  The frame of `KernelIdeal`: @main is a stretch of host operations (the vertex tables, the reshape of x to rows, the two
  concatenated projection tables with the mixing weights folded into the second), one region of 64 grid points,
  and four reshapes of the region's results.  Stated here: the buffer contents when the region is entered, each
  window's block at a grid point, what the body leaves in each of its four output buffers (the whole block,
  stored once, as the body's arithmetic of the six input blocks), the body's run, the pipeline's proof data, and
  the run of @main to a state in which every array of the pipeline is what the write-backs leave and every other
  buffer what the host operations after the region leave.  The argument arrays are written by no operation, so
  they end as launched.  The body also loads each output buffer before storing it; the loaded values are unused,
  so the output buffers may hold anything when the body starts.
-/
import proofs.«107425_j46832323395756_2_alg».proof.Proof.Gen.KernelIdeal.Launch
import proofs.«107425_j46832323395756_2_alg».proof.Proof.Gen.KernelIdeal.Skeleton
import proofs.«107425_j46832323395756_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.reshape_writes, Finset.mem_singleton] <;> exact StableHlo.devRef_ne_of_ne (by decide)

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The eight argument arrays are no array of the pipeline and are written by no host operation. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

/-! ## The body's accesses: every load and store is of a whole buffer -/

abbrev rX : Rect S512x2048 := Rect.unit (s := S512x2048) ![0, 0] S512x2048.size inb_S512x2048_S512x2048_0_0
abbrev rWp : Rect S11x2048 := Rect.unit (s := S11x2048) ![0, 0] S11x2048.size inb_S11x2048_S11x2048_0_0
abbrev rWo : Rect S2048x11 := Rect.unit (s := S2048x11) ![0, 0] S2048x11.size inb_S2048x11_S2048x11_0_0
abbrev rV2 : Rect S4x2 := Rect.unit (s := S4x2) ![0, 0] S4x2.size inb_S4x2_S4x2_0_0
abbrev rV3 : Rect S8x3 := Rect.unit (s := S8x3) ![0, 0] S8x3.size inb_S8x3_S8x3_0_0
abbrev rV6 : Rect S64x6 := Rect.unit (s := S64x6) ![0, 0] S64x6.size inb_S64x6_S64x6_0_0
abbrev rO4 : Rect S512x4 := Rect.unit (s := S512x4) ![0, 0] S512x4.size inb_S512x4_S512x4_0_0
abbrev rO8 : Rect S512x8 := Rect.unit (s := S512x8) ![0, 0] S512x8.size inb_S512x8_S512x8_0_0
abbrev rO64 : Rect S512x64 := Rect.unit (s := S512x64) ![0, 0] S512x64.size inb_S512x64_S512x64_0_0

/-! ## What the body leaves in each output buffer -/

/-- The weights over the 4 vertices of the square. -/
def pay7 (x0 : Vec F S512x2048 .f32) (tp : Vec F S11x2048 .f32) (v2 : Vec F S4x2 .f32) : FVec F S512x4 .f32 :=
  k0_pay4 (View.ld x0 rX) (View.ld tp rWp) (View.ld v2 rV2)
/-- The weights over the 8 vertices of the cube. -/
def pay8 (x0 : Vec F S512x2048 .f32) (tp : Vec F S11x2048 .f32) (v3 : Vec F S8x3 .f32) : FVec F S512x8 .f32 :=
  k0_pay7 (k0_pay5 (View.ld x0 rX) (View.ld tp rWp) (View.ld v3 rV3)) (k0_pay6 (View.ld x0 rX) (View.ld tp rWp) (View.ld v3 rV3))
/-- The weights over the 64 vertices of the 6-cube. -/
def pay9 (x0 : Vec F S512x2048 .f32) (tp : Vec F S11x2048 .f32) (v6 : Vec F S64x6 .f32) : FVec F S512x64 .f32 :=
  k0_pay8 (k0_pay3 (View.ld x0 rX) (View.ld tp rWp)) (View.ld v6 rV6)
/-- The residual rows. -/
def pay6 (x0 : Vec F S512x2048 .f32) (tp : Vec F S11x2048 .f32) (wo : Vec F S2048x11 .f32) (v2 : Vec F S4x2 .f32) (v3 : Vec F S8x3 .f32) (v6 : Vec F S64x6 .f32) : FVec F S512x2048 .f32 :=
  k0_pay9 (k0_pay1 (View.ld x0 rX)) (k0_pay3 (View.ld x0 rX) (View.ld tp rWp)) (View.ld v2 rV2) (View.ld v3 rV3) (View.ld v6 rV6)
    (k0_pay4 (View.ld x0 rX) (View.ld tp rWp) (View.ld v2 rV2)) (k0_pay5 (View.ld x0 rX) (View.ld tp rWp) (View.ld v3 rV3))
    (k0_pay6 (View.ld x0 rX) (View.ld tp rWp) (View.ld v3 rV3)) (View.ld wo rWo)

def out0_6 (x0 : Vec F S512x2048 .f32) (tp : Vec F S11x2048 .f32) (wo : Vec F S2048x11 .f32) (v2 : Vec F S4x2 .f32) (v3 : Vec F S8x3 .f32) (v6 : Vec F S64x6 .f32) : Vec F S512x2048 .f32 :=
  View.canon [⟨rX, pay6 x0 tp wo v2 v3 v6⟩]
def out0_7 (x0 : Vec F S512x2048 .f32) (tp : Vec F S11x2048 .f32) (v2 : Vec F S4x2 .f32) : Vec F S512x4 .f32 :=
  View.canon [⟨rO4, pay7 x0 tp v2⟩]
def out0_8 (x0 : Vec F S512x2048 .f32) (tp : Vec F S11x2048 .f32) (v3 : Vec F S8x3 .f32) : Vec F S512x8 .f32 :=
  View.canon [⟨rO8, pay8 x0 tp v3⟩]
def out0_9 (x0 : Vec F S512x2048 .f32) (tp : Vec F S11x2048 .f32) (v6 : Vec F S64x6 .f32) : Vec F S512x64 .f32 :=
  View.canon [⟨rO64, pay9 x0 tp v6⟩]

theorem cover0_6 (p0 : Vec F S512x2048 .f32) (y : S512x2048.Idx) :
    ∃ pc ∈ ([⟨rX, p0⟩] : List (View.Piece (Elt F) S512x2048 .f32)), y ∈ pc.1.set :=
  View.cover_of_tiled [⟨rX, p0⟩] S512x2048.size (by rfl) y
theorem cover0_7 (p0 : Vec F S512x4 .f32) (y : S512x4.Idx) :
    ∃ pc ∈ ([⟨rO4, p0⟩] : List (View.Piece (Elt F) S512x4 .f32)), y ∈ pc.1.set :=
  View.cover_of_tiled [⟨rO4, p0⟩] S512x4.size (by rfl) y
theorem cover0_8 (p0 : Vec F S512x8 .f32) (y : S512x8.Idx) :
    ∃ pc ∈ ([⟨rO8, p0⟩] : List (View.Piece (Elt F) S512x8 .f32)), y ∈ pc.1.set :=
  View.cover_of_tiled [⟨rO8, p0⟩] S512x8.size (by rfl) y
theorem cover0_9 (p0 : Vec F S512x64 .f32) (y : S512x64.Idx) :
    ∃ pc ∈ ([⟨rO64, p0⟩] : List (View.Piece (Elt F) S512x64 .f32)), y ∈ pc.1.set :=
  View.cover_of_tiled [⟨rO64, p0⟩] S512x64.size (by rfl) y

/-! ## The body's run -/

set_option maxHeartbeats 4000000 in
/-- The kernel body on whole staging memrefs, the inputs' at read contents and the outputs' at anything, runs to the
    continuation holding the inputs' as they were and each output's at `out0_W` of the inputs'. -/
theorem sound_kernel (c : Dev nD) (E : Set ℕ) (i : grid0.Coords)
    (arg1 : Memref sig .tc .vmem S512x2048 .f32) (harg1 : arg1.IsWhole) (arg2 : Memref sig .tc .vmem S11x2048 .f32) (harg2 : arg2.IsWhole)
    (arg3 : Memref sig .tc .vmem S2048x11 .f32) (harg3 : arg3.IsWhole) (arg4 : Memref sig .tc .vmem S4x2 .f32) (harg4 : arg4.IsWhole)
    (arg5 : Memref sig .tc .vmem S8x3 .f32) (harg5 : arg5.IsWhole) (arg6 : Memref sig .tc .vmem S64x6 .f32) (harg6 : arg6.IsWhole)
    (arg7 : Memref sig .tc .vmem S512x2048 .f32) (harg7 : arg7.IsWhole) (arg8 : Memref sig .tc .vmem S512x4 .f32) (harg8 : arg8.IsWhole)
    (arg9 : Memref sig .tc .vmem S512x8 .f32) (harg9 : arg9.IsWhole) (arg10 : Memref sig .tc .vmem S512x64 .f32) (harg10 : arg10.IsWhole)
    (x0 : Vec F S512x2048 .f32) (tp : Vec F S11x2048 .f32) (wo : Vec F S2048x11 .f32) (v2 : Vec F S4x2 .f32) (v3 : Vec F S8x3 .f32) (v6 : Vec F S64x6 .f32)
    (K : PUnit → sProp 𝕄) :
    iprop(owns (c : Thread nD τ) arg1 fullShare x0 ∗ owns (c : Thread nD τ) arg2 fullShare tp ∗ owns (c : Thread nD τ) arg3 fullShare wo
        ∗ owns (c : Thread nD τ) arg4 fullShare v2 ∗ owns (c : Thread nD τ) arg5 fullShare v3 ∗ owns (c : Thread nD τ) arg6 fullShare v6
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare tp ∗ owns (c : Thread nD τ) arg3 fullShare wo
            ∗ owns (c : Thread nD τ) arg4 fullShare v2 ∗ owns (c : Thread nD τ) arg5 fullShare v3 ∗ owns (c : Thread nD τ) arg6 fullShare v6
            ∗ owns (c : Thread nD τ) arg7 fullShare (out0_6 x0 tp wo v2 v3 v6) ∗ owns (c : Thread nD τ) arg8 fullShare (out0_7 x0 tp v2)
            ∗ owns (c : Thread nD τ) arg9 fullShare (out0_8 x0 tp v3) ∗ owns (c : Thread nD τ) arg10 fullShare (out0_9 x0 tp v6)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9 arg10 harg10) K := by
  simp only [cc0__kernel_eq_skeleton, k0_part1_eq_skeleton, k0_part2_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_6 _)
  isplitl [H8]
  · iexists _; isplitr
    swap; · iexact H8
    ipureintro
    exact View.read_writes_eq_canon _ _ _ (cover0_7 _)
  isplitl [H9]
  · iexists _; isplitr
    swap; · iexact H9
    ipureintro
    exact View.read_writes_eq_canon _ _ _ (cover0_8 _)
  iexists _; isplitr
  swap; · iexact H10
  ipureintro
  exact View.read_writes_eq_canon _ _ _ (cover0_9 _)

/-! ## The pipeline's proof data -/

/-- The arrays as the region finds them; after the body at point `t` each input's buffer at its block and each
    output's at `out0_W` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 3 t)
    | ⟨8, _⟩ => out0_8 (iblk m c 0 t) (iblk m c 1 t) (iblk m c 4 t)
    | ⟨9, _⟩ => out0_9 (iblk m c 0 t) (iblk m c 1 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 3 t) := by dsimp only [dats]
theorem after0_8 (c : Dev nD) (t : Fin cfg0.N) : (dats m 0 c).after 8 t = out0_8 (iblk m c 0 t) (iblk m c 1 t) (iblk m c 4 t) := by dsimp only [dats]
theorem after0_9 (c : Dev nD) (t : Fin cfg0.N) : (dats m 0 c).after 9 t = out0_9 (iblk m c 0 t) (iblk m c 1 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the write-backs leave and every other buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.KernelIdeal.Fr

end
-- ==== Proof.KBlocks.lean ====
/-
  From blocks to arrays (idealized kernel).  The grid has 64 points; point t handles rows 512·t … 512·t + 511.
  The x block and the four output blocks move with the point along the row axis; the tables are read whole at
  every point.  An element (p, d) of a moving block sits in its array at row 512·t + p, column d.
-/
import proofs.«107425_j46832323395756_2_alg».proof.Proof.FrameKI
import Idealize.ShloMosaic.Lib.Pipeline.Value
import Idealize.ShloMosaic.Lib.ValueIdx

noncomputable section

namespace Cert.KernelIdeal.Val

open Idealize.ShloMosaic Idealize.ShloMosaic.TcCoe Idealize.ShloMosaic.ValueIdx
open Idealize.SL.Sem
open Cert.KernelIdeal Cert.KernelIdeal.Gen Cert.KernelIdeal.Fr

variable (m : (ℓ : Loc nD τ sig) → Buf (Elt Ideal) ℓ)

theorem hz : (![0, 0] : Fin 2 → Nat) = fun _ => 0 := funext fun a => by fin_cases a <;> rfl

/-- The printed index maps, decided over the grid. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

theorem t_lt (t : Fin cfg0.N) : t.val < 64 := by
  have h := t.isLt; have hN : cfg0.N = 64 := N_0; omega

/-- The array row of row p of point t's block. -/
def rowOf (t : Fin cfg0.N) (p : Fin 512) : Fin 32768 := ⟨t.val * 512 + p.val, by have := t_lt t; have := p.isLt; omega⟩

/-! ## The input blocks read at an element -/

theorem iblk0_apply (c : Dev nD) (t : Fin cfg0.N) (p : Fin 512) (d : Fin 2048) :
    iblk m c 0 t (ix2 p d) = V m c main_v0 (ix2 (rowOf t p) d) := by
  show V m c main_v0 (((cfg0.win 0).blk t).view.emb (ix2 p d)) = _
  refine congrArg (V m c main_v0) ?_
  obtain ⟨⟨e0, e1⟩, -⟩ := idx_facts t
  funext a; apply Fin.ext
  match a with
  | ⟨0, _⟩ => show win0_0.index t (0 : Fin 2) * 512 + 1 * p.val = t.val * 512 + p.val; rw [e0]; omega
  | ⟨1, _⟩ => show win0_0.index t (1 : Fin 2) * 2048 + 1 * d.val = d.val; rw [e1]; omega

theorem iblk1_apply (c : Dev nD) (t : Fin cfg0.N) (j : Fin 11) (d : Fin 2048) :
    iblk m c 1 t (ix2 j d) = V m c main_v1 (ix2 j d) := by
  show V m c main_v1 (((cfg0.win 1).blk t).view.emb (ix2 j d)) = _
  refine congrArg (V m c main_v1) ?_
  obtain ⟨-, ⟨e0, e1⟩, -⟩ := idx_facts t
  funext a; apply Fin.ext
  match a with
  | ⟨0, _⟩ => show win0_1.index t (0 : Fin 2) * 11 + 1 * j.val = j.val; rw [e0]; omega
  | ⟨1, _⟩ => show win0_1.index t (1 : Fin 2) * 2048 + 1 * d.val = d.val; rw [e1]; omega

theorem iblk2_apply (c : Dev nD) (t : Fin cfg0.N) (d : Fin 2048) (j : Fin 11) :
    iblk m c 2 t (ix2 d j) = V m c main_v24 (ix2 d j) := by
  show V m c main_v24 (((cfg0.win 2).blk t).view.emb (ix2 d j)) = _
  refine congrArg (V m c main_v24) ?_
  obtain ⟨-, -, ⟨e0, e1⟩, -⟩ := idx_facts t
  funext a; apply Fin.ext
  match a with
  | ⟨0, _⟩ => show win0_2.index t (0 : Fin 2) * 2048 + 1 * d.val = d.val; rw [e0]; omega
  | ⟨1, _⟩ => show win0_2.index t (1 : Fin 2) * 11 + 1 * j.val = j.val; rw [e1]; omega

theorem iblk3_apply (c : Dev nD) (t : Fin cfg0.N) (u : Fin 4) (j : Fin 2) :
    iblk m c 3 t (ix2 u j) = V m c main_cst (ix2 u j) := by
  show V m c main_cst (((cfg0.win 3).blk t).view.emb (ix2 u j)) = _
  refine congrArg (V m c main_cst) ?_
  obtain ⟨-, -, -, ⟨e0, e1⟩, -⟩ := idx_facts t
  funext a; apply Fin.ext
  match a with
  | ⟨0, _⟩ => show win0_3.index t (0 : Fin 2) * 4 + 1 * u.val = u.val; rw [e0]; omega
  | ⟨1, _⟩ => show win0_3.index t (1 : Fin 2) * 2 + 1 * j.val = j.val; rw [e1]; omega

theorem iblk4_apply (c : Dev nD) (t : Fin cfg0.N) (u : Fin 8) (j : Fin 3) :
    iblk m c 4 t (ix2 u j) = V m c main_cst_0 (ix2 u j) := by
  show V m c main_cst_0 (((cfg0.win 4).blk t).view.emb (ix2 u j)) = _
  refine congrArg (V m c main_cst_0) ?_
  obtain ⟨-, -, -, -, ⟨e0, e1⟩, -⟩ := idx_facts t
  funext a; apply Fin.ext
  match a with
  | ⟨0, _⟩ => show win0_4.index t (0 : Fin 2) * 8 + 1 * u.val = u.val; rw [e0]; omega
  | ⟨1, _⟩ => show win0_4.index t (1 : Fin 2) * 3 + 1 * j.val = j.val; rw [e1]; omega

theorem iblk5_apply (c : Dev nD) (t : Fin cfg0.N) (u : Fin 64) (j : Fin 6) :
    iblk m c 5 t (ix2 u j) = V m c main_cst_1 (ix2 u j) := by
  show V m c main_cst_1 (((cfg0.win 5).blk t).view.emb (ix2 u j)) = _
  refine congrArg (V m c main_cst_1) ?_
  obtain ⟨-, -, -, -, -, ⟨e0, e1⟩, -⟩ := idx_facts t
  funext a; apply Fin.ext
  match a with
  | ⟨0, _⟩ => show win0_5.index t (0 : Fin 2) * 64 + 1 * u.val = u.val; rw [e0]; omega
  | ⟨1, _⟩ => show win0_5.index t (1 : Fin 2) * 6 + 1 * j.val = j.val; rw [e1]; omega

/-! ## Where an element of an output block sits in its array -/

theorem emb6 (t : Fin cfg0.N) (p : Fin 512) (d : Fin 2048) :
    ((cfg0.win 6).blk t).view.emb (ix2 p d) = ix2 (rowOf t p) d := by
  obtain ⟨-, -, -, -, -, -, ⟨e0, e1⟩, -⟩ := idx_facts t
  funext a; apply Fin.ext
  match a with
  | ⟨0, _⟩ => show win0_6.index t (0 : Fin 2) * 512 + 1 * p.val = t.val * 512 + p.val; rw [e0]; omega
  | ⟨1, _⟩ => show win0_6.index t (1 : Fin 2) * 2048 + 1 * d.val = d.val; rw [e1]; omega
theorem emb7 (t : Fin cfg0.N) (p : Fin 512) (v : Fin 4) :
    ((cfg0.win 7).blk t).view.emb (ix2 p v) = ix2 (rowOf t p) v := by
  obtain ⟨-, -, -, -, -, -, -, ⟨e0, e1⟩, -⟩ := idx_facts t
  funext a; apply Fin.ext
  match a with
  | ⟨0, _⟩ => show win0_7.index t (0 : Fin 2) * 512 + 1 * p.val = t.val * 512 + p.val; rw [e0]; omega
  | ⟨1, _⟩ => show win0_7.index t (1 : Fin 2) * 4 + 1 * v.val = v.val; rw [e1]; omega
theorem emb8 (t : Fin cfg0.N) (p : Fin 512) (v : Fin 8) :
    ((cfg0.win 8).blk t).view.emb (ix2 p v) = ix2 (rowOf t p) v := by
  obtain ⟨-, -, -, -, -, -, -, -, ⟨e0, e1⟩, -⟩ := idx_facts t
  funext a; apply Fin.ext
  match a with
  | ⟨0, _⟩ => show win0_8.index t (0 : Fin 2) * 512 + 1 * p.val = t.val * 512 + p.val; rw [e0]; omega
  | ⟨1, _⟩ => show win0_8.index t (1 : Fin 2) * 8 + 1 * v.val = v.val; rw [e1]; omega
theorem emb9 (t : Fin cfg0.N) (p : Fin 512) (v : Fin 64) :
    ((cfg0.win 9).blk t).view.emb (ix2 p v) = ix2 (rowOf t p) v := by
  obtain ⟨-, -, -, -, -, -, -, -, -, ⟨e0, e1⟩⟩ := idx_facts t
  funext a; apply Fin.ext
  match a with
  | ⟨0, _⟩ => show win0_9.index t (0 : Fin 2) * 512 + 1 * p.val = t.val * 512 + p.val; rw [e0]; omega
  | ⟨1, _⟩ => show win0_9.index t (1 : Fin 2) * 64 + 1 * v.val = v.val; rw [e1]; omega

/-! ## Every row of an output array is in some point's block -/

/-- The point that covers row r is r / 512. -/
def ptOf (r : Nat) (hr : r < 32768) : Fin cfg0.N := ⟨r / 512, by have hN : cfg0.N = 64 := N_0; omega⟩

theorem cover6 (i : S32768x2048.Idx) : ∃ t : Fin cfg0.N, (cfg0.win 6).flush t = true ∧ i ∈ ((cfg0.win 6).blk t).view.set := by
  have h0 : (i 0).val < 32768 := (i 0).isLt
  have h1 : (i 1).val < 2048 := (i 1).isLt
  refine ⟨ptOf (i 0).val h0, flush0_6 _, ?_⟩
  obtain ⟨-, -, -, -, -, -, ⟨e0, e1⟩, -⟩ := idx_facts (ptOf (i 0).val h0)
  show i ∈ ((View.whole main_v25_0).slice (win0_6.rect (ptOf (i 0).val h0))).set
  rw [View.set_slice_whole, Rect.mem_set_unit]
  intro a
  match a with
  | ⟨0, _⟩ => show win0_6.index (ptOf (i 0).val h0) (0 : Fin 2) * 512 ≤ (i 0).val ∧ (i 0).val < win0_6.index (ptOf (i 0).val h0) (0 : Fin 2) * 512 + 512
              rw [e0]; show (i 0).val / 512 * 512 ≤ (i 0).val ∧ (i 0).val < (i 0).val / 512 * 512 + 512; omega
  | ⟨1, _⟩ => show win0_6.index (ptOf (i 0).val h0) (1 : Fin 2) * 2048 ≤ (i 1).val ∧ (i 1).val < win0_6.index (ptOf (i 0).val h0) (1 : Fin 2) * 2048 + 2048
              rw [e1]; omega

theorem cover7 (i : S32768x4.Idx) : ∃ t : Fin cfg0.N, (cfg0.win 7).flush t = true ∧ i ∈ ((cfg0.win 7).blk t).view.set := by
  have h0 : (i 0).val < 32768 := (i 0).isLt
  have h1 : (i 1).val < 4 := (i 1).isLt
  refine ⟨ptOf (i 0).val h0, flush0_7 _, ?_⟩
  obtain ⟨-, -, -, -, -, -, -, ⟨e0, e1⟩, -⟩ := idx_facts (ptOf (i 0).val h0)
  show i ∈ ((View.whole main_v25_1).slice (win0_7.rect (ptOf (i 0).val h0))).set
  rw [View.set_slice_whole, Rect.mem_set_unit]
  intro a
  match a with
  | ⟨0, _⟩ => show win0_7.index (ptOf (i 0).val h0) (0 : Fin 2) * 512 ≤ (i 0).val ∧ (i 0).val < win0_7.index (ptOf (i 0).val h0) (0 : Fin 2) * 512 + 512
              rw [e0]; show (i 0).val / 512 * 512 ≤ (i 0).val ∧ (i 0).val < (i 0).val / 512 * 512 + 512; omega
  | ⟨1, _⟩ => show win0_7.index (ptOf (i 0).val h0) (1 : Fin 2) * 4 ≤ (i 1).val ∧ (i 1).val < win0_7.index (ptOf (i 0).val h0) (1 : Fin 2) * 4 + 4
              rw [e1]; omega

theorem cover8 (i : S32768x8.Idx) : ∃ t : Fin cfg0.N, (cfg0.win 8).flush t = true ∧ i ∈ ((cfg0.win 8).blk t).view.set := by
  have h0 : (i 0).val < 32768 := (i 0).isLt
  have h1 : (i 1).val < 8 := (i 1).isLt
  refine ⟨ptOf (i 0).val h0, flush0_8 _, ?_⟩
  obtain ⟨-, -, -, -, -, -, -, -, ⟨e0, e1⟩, -⟩ := idx_facts (ptOf (i 0).val h0)
  show i ∈ ((View.whole main_v25_2).slice (win0_8.rect (ptOf (i 0).val h0))).set
  rw [View.set_slice_whole, Rect.mem_set_unit]
  intro a
  match a with
  | ⟨0, _⟩ => show win0_8.index (ptOf (i 0).val h0) (0 : Fin 2) * 512 ≤ (i 0).val ∧ (i 0).val < win0_8.index (ptOf (i 0).val h0) (0 : Fin 2) * 512 + 512
              rw [e0]; show (i 0).val / 512 * 512 ≤ (i 0).val ∧ (i 0).val < (i 0).val / 512 * 512 + 512; omega
  | ⟨1, _⟩ => show win0_8.index (ptOf (i 0).val h0) (1 : Fin 2) * 8 ≤ (i 1).val ∧ (i 1).val < win0_8.index (ptOf (i 0).val h0) (1 : Fin 2) * 8 + 8
              rw [e1]; omega

theorem cover9 (i : S32768x64.Idx) : ∃ t : Fin cfg0.N, (cfg0.win 9).flush t = true ∧ i ∈ ((cfg0.win 9).blk t).view.set := by
  have h0 : (i 0).val < 32768 := (i 0).isLt
  have h1 : (i 1).val < 64 := (i 1).isLt
  refine ⟨ptOf (i 0).val h0, flush0_9 _, ?_⟩
  obtain ⟨-, -, -, -, -, -, -, -, -, ⟨e0, e1⟩⟩ := idx_facts (ptOf (i 0).val h0)
  show i ∈ ((View.whole main_v25_3).slice (win0_9.rect (ptOf (i 0).val h0))).set
  rw [View.set_slice_whole, Rect.mem_set_unit]
  intro a
  match a with
  | ⟨0, _⟩ => show win0_9.index (ptOf (i 0).val h0) (0 : Fin 2) * 512 ≤ (i 0).val ∧ (i 0).val < win0_9.index (ptOf (i 0).val h0) (0 : Fin 2) * 512 + 512
              rw [e0]; show (i 0).val / 512 * 512 ≤ (i 0).val ∧ (i 0).val < (i 0).val / 512 * 512 + 512; omega
  | ⟨1, _⟩ => show win0_9.index (ptOf (i 0).val h0) (1 : Fin 2) * 64 ≤ (i 1).val ∧ (i 1).val < win0_9.index (ptOf (i 0).val h0) (1 : Fin 2) * 64 + 64
              rw [e1]; omega

end Cert.KernelIdeal.Val

end
-- ==== Proof.Spec.lean ====
/-
  The specification both programs are compared against, row by row.

  One row of the input, `xr : Fin 2048 → EReal`, is projected onto k directions (k = 2, 3, 6), squashed by tanh,
  compared with the 2^k sign vertices of the k-cube (the rows of a table `V`), and the similarities are turned
  into weights by a row softmax, spelt as both programs spell it: the maximum is taken from -∞ and once more
  against -∞, the exponentials of the differences are divided by their plain sum.  The weights average the
  vertices back into an embedding of the row, the three embeddings are projected back to 2048 columns, scaled by
  three mixing weights and added to the row.
-/
import Idealize.ShloMosaic.PureOps.Ideal
import Idealize.ShloMosaic.Lib.ValueIdx

noncomputable section

namespace Cert.Spec

open Idealize.ShloMosaic

/-- -∞ as the programs write it. -/
def NEG : EReal := Ideal.ofBits .f32 0xFF800000#32
/-- The temperature 1 as the programs write it. -/
def ONE : EReal := Ideal.ofBits .f32 0x3F800000#32

/-- The maximum of a row, taken from -∞ and compared with -∞ once more. -/
def rowMax {n : Nat} (f : Fin n → EReal) : EReal := max NEG ((Finset.univ : Finset (Fin n)).fold max NEG f)

/-- The softmax of a row: exp (f v - max) / Σ_u exp (f u - max). -/
def softmaxRow {n : Nat} (f : Fin n → EReal) (v : Fin n) : EReal :=
  Ideal.div (Ideal.exp (f v - rowMax f)) (∑ u : Fin n, Ideal.exp (f u - rowMax f))

/-- tanh of the row's projection on direction j: tanh (Σ_d xr d · Wp j d). -/
def soft {k : Nat} (xr : Fin 2048 → EReal) (Wp : Fin k → Fin 2048 → EReal) (j : Fin k) : EReal :=
  Ideal.tanh (∑ d : Fin 2048, xr d * Wp j d)

/-- The similarity with vertex v, over the temperature: (Σ_j s j · V v j) / 1. -/
def sim {k nv : Nat} (s : Fin k → EReal) (V : Fin nv → Fin k → EReal) (v : Fin nv) : EReal :=
  Ideal.div (∑ j : Fin k, s j * V v j) ONE

/-- The weights of a row over the vertices. -/
def wts {k nv : Nat} (xr : Fin 2048 → EReal) (Wp : Fin k → Fin 2048 → EReal) (V : Fin nv → Fin k → EReal) : Fin nv → EReal :=
  softmaxRow (sim (soft xr Wp) V)

/-- The weighted vertex: Σ_v w v · V v j. -/
def emb {k nv : Nat} (w : Fin nv → EReal) (V : Fin nv → Fin k → EReal) (j : Fin k) : EReal :=
  ∑ v : Fin nv, w v * V v j

/-- The embedding of a row in group k. -/
def embRow {k nv : Nat} (xr : Fin 2048 → EReal) (Wp : Fin k → Fin 2048 → EReal) (V : Fin nv → Fin k → EReal) : Fin k → EReal :=
  emb (wts xr Wp V) V

/-- Back to 2048 columns: Σ_j e j · Wo d j. -/
def proj {k : Nat} (e : Fin k → EReal) (Wo : Fin 2048 → Fin k → EReal) (d : Fin 2048) : EReal :=
  ∑ j : Fin k, e j * Wo d j

/-- The residual row in the reference's arrangement: each group projected back, scaled by its mixing weight, added up. -/
def outRow (xr : Fin 2048 → EReal)
    (Wp2 : Fin 2 → Fin 2048 → EReal) (Wp3 : Fin 3 → Fin 2048 → EReal) (Wp6 : Fin 6 → Fin 2048 → EReal)
    (V2 : Fin 4 → Fin 2 → EReal) (V3 : Fin 8 → Fin 3 → EReal) (V6 : Fin 64 → Fin 6 → EReal)
    (Wo2 : Fin 2048 → Fin 2 → EReal) (Wo3 : Fin 2048 → Fin 3 → EReal) (Wo6 : Fin 2048 → Fin 6 → EReal)
    (sw : Fin 3 → EReal) (d : Fin 2048) : EReal :=
  xr d + ((sw 0 * proj (embRow xr Wp2 V2) Wo2 d + sw 1 * proj (embRow xr Wp3 V3) Wo3 d)
    + sw 2 * proj (embRow xr Wp6 V6) Wo6 d)

/-! ## The kernel's arrangement: the three groups side by side in 11 columns -/

/-- Column j of group 2, 3, 6 among the 11 columns. -/
def c2 (j : Fin 2) : Fin 11 := ⟨j.val, by omega⟩
def c3 (j : Fin 3) : Fin 11 := ⟨j.val + 2, by omega⟩
def c6 (j : Fin 6) : Fin 11 := ⟨j.val + 5, by omega⟩

/-- Three rows side by side. -/
def cat11 (a : Fin 2 → EReal) (b : Fin 3 → EReal) (c : Fin 6 → EReal) (j : Fin 11) : EReal :=
  if h : j.val < 2 then a ⟨j.val, h⟩ else if h' : j.val < 5 then b ⟨j.val - 2, by omega⟩ else c ⟨j.val - 5, by omega⟩

/-- The residual row in the kernel's arrangement: one table `Wp` of 11 directions, one table `Wo` of 11 columns. -/
def outRowCat (xr : Fin 2048 → EReal) (Wp : Fin 11 → Fin 2048 → EReal)
    (V2 : Fin 4 → Fin 2 → EReal) (V3 : Fin 8 → Fin 3 → EReal) (V6 : Fin 64 → Fin 6 → EReal)
    (Wo : Fin 2048 → Fin 11 → EReal) (d : Fin 2048) : EReal :=
  xr d + ∑ j : Fin 11, cat11 (embRow xr (fun j => Wp (c2 j)) V2) (embRow xr (fun j => Wp (c3 j)) V3)
      (embRow xr (fun j => Wp (c6 j)) V6) j * Wo d j

end Cert.Spec

end
-- ==== Proof.KPayLemmas.lean ====
/-
  Small facts about single operations of the kernel body, read at one entry of the vector they produce, at the
  extended reals.

  * A vector of length a viewed as a column [a, 1] reads its entry; a column [a, 1] repeated along b columns reads the
    row's entry.
  * A product of an [M, K] matrix with an [N, K] matrix contracted over their second axes (or with a [K, N] matrix
    contracted over its first), accumulated into zero, is the plain sum Σ_k l(p, k) · r(v, k) (resp. Σ_k l(p, k) · r(k, v)).
  * The row maximum taken from -∞, compared once more with -∞ and kept as a column, is the specification's row maximum;
    the exponentials of the differences divided by their row sum are the specification's row softmax.
  * Three blocks of 2, 3 and 6 columns side by side read the block whose span holds the column.
-/
import Idealize.ShloMosaic.Lib.ValueIdx
import Idealize.ShloMosaic.Lib.Pipeline.Value
import Idealize.ShloMosaic.Lib.ValueLayout
import Idealize.ShloMosaic.PureOps.Ideal.Laws
import proofs.«107425_j46832323395756_2_alg».proof.Proof.Spec

noncomputable section

namespace Cert.KSide

open Idealize.ShloMosaic Idealize.ShloMosaic.ValueIdx
open scoped BigOperators

/-! ## A column kept as a unit axis -/

section Layout
variable {α : Type}

/-- A vector [a] viewed as a column [a, 1] reads, at (i, z), the vector at i. -/
theorem shapeCast_a_a1_apply {a : ℕ} (x : (⟨1, ![a]⟩ : Shape).Idx → α) (h : (⟨1, ![a]⟩ : Shape).ShapeCasts ⟨2, ![a, 1]⟩)
    (i : Fin a) (z : Fin 1) : shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-- A column [a, 1] repeated over b columns reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row p with coordinate k inserted on the reduced second axis is (p, k). -/
theorem lift_axis1 {a n : ℕ} (h : (⟨2, ![a, n]⟩ : Shape).Reduces [1] ⟨1, ![a]⟩) (p : Fin a) (k : Fin n) :
    h.lift (ix1 p) k = ix2 p k :=
  funext fun c => Fin.ext (by
    match c with
    | ⟨0, _⟩ => rfl
    | ⟨1, _⟩ => rfl)

end Layout

/-! ## A product into the zero accumulator, read at an entry -/

section Matmul
variable {φ₁ φ₂ : FTy}

theorem tr_lhs_0 (M K N : ℕ) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

theorem tr_rhs_0 (M K N : ℕ) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- [M, K] times [N, K] over the second axes, into zero: Σ_k l(p, k) · r(v, k). -/
theorem matmul_transposedRhs_apply (M K N : ℕ) (prec : Option ContractPrecision)
    (lhs : FVec Ideal ⟨2, ![M, K]⟩ φ₁) (rhs : FVec Ideal ⟨2, ![N, K]⟩ φ₂) (p : Fin M) (v : Fin N) :
    FloatOps.matmul (DotDims.transposedRhs M K N) prec lhs rhs (constant (F := Ideal) ⟨2, ![M, N]⟩ .f32 0x00000000#32) (ix2 p v)
      = ∑ k : Fin K, lhs (ix2 p k) * rhs (ix2 v k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p v) ((contrEquiv1 (DotDims.transposedRhs M K N) K rfl rfl).symm k)
      = ix2 p k := funext fun a => Fin.ext (by
    match a with
    | ⟨0, _⟩ => exact tr_lhs_0 M K N _ _
    | ⟨1, _⟩ => exact ((DotDims.transposedRhs M K N).lhsIdx_val_of_single rfl _ _).trans hk)
  have er : (DotDims.transposedRhs M K N).rhsIdx (ix2 p v) ((contrEquiv1 (DotDims.transposedRhs M K N) K rfl rfl).symm k)
      = ix2 v k := funext fun a => Fin.ext (by
    match a with
    | ⟨0, _⟩ => exact tr_rhs_0 M K N _ _
    | ⟨1, _⟩ => exact ((DotDims.transposedRhs M K N).rhsIdx_val_of_single rfl _ _).trans hk)
  rw [el, er]

theorem pl_lhs_0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

theorem pl_rhs_1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- [M, K] times [K, N], into zero: Σ_k l(p, k) · r(k, v). -/
theorem matmul_plain_apply (M K N : ℕ) (prec : Option ContractPrecision)
    (lhs : FVec Ideal ⟨2, ![M, K]⟩ φ₁) (rhs : FVec Ideal ⟨2, ![K, N]⟩ φ₂) (p : Fin M) (v : Fin N) :
    FloatOps.matmul (DotDims.plain M K N) prec lhs rhs (constant (F := Ideal) ⟨2, ![M, N]⟩ .f32 0x00000000#32) (ix2 p v)
      = ∑ k : Fin K, lhs (ix2 p k) * rhs (ix2 k v) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p v) ((contrEquiv1 (DotDims.plain M K N) K rfl rfl).symm k)
      = ix2 p k := funext fun a => Fin.ext (by
    match a with
    | ⟨0, _⟩ => exact pl_lhs_0 M K N _ _
    | ⟨1, _⟩ => exact ((DotDims.plain M K N).lhsIdx_val_of_single rfl _ _).trans hk)
  have er : (DotDims.plain M K N).rhsIdx (ix2 p v) ((contrEquiv1 (DotDims.plain M K N) K rfl rfl).symm k)
      = ix2 k v := funext fun a => Fin.ext (by
    match a with
    | ⟨0, _⟩ => exact ((DotDims.plain M K N).rhsIdx_val_of_single rfl _ _).trans hk
    | ⟨1, _⟩ => exact pl_rhs_1 M K N _ _)
  rw [el, er]

end Matmul

/-! ## The similarity over the temperature -/

section Sim

/-- The row's k soft coordinates against the vertex table, over the temperature. -/
theorem sim_apply (K N : ℕ) (prec : Option ContractPrecision) (s : FVec Ideal ⟨2, ![512, K]⟩ .f32)
    (V : FVec Ideal ⟨2, ![N, K]⟩ .f32) (p : Fin 512) (v : Fin N) :
    divf (FloatOps.matmul (DotDims.transposedRhs 512 K N) prec s V (constant (F := Ideal) ⟨2, ![512, N]⟩ .f32 0x00000000#32))
        (broadcast ⟨2, ![512, N]⟩ (Scalar.ofBits (F := Ideal) .f32 0x3F800000#32)) (ix2 p v)
      = Cert.Spec.sim (fun j => s (ix2 p j)) (fun u j => V (ix2 u j)) v :=
  congrArg (fun t => Ideal.div t Cert.Spec.ONE) (matmul_transposedRhs_apply 512 K N prec s V p v)

end Sim

/-! ## The row softmax -/

section Softmax

/-- -∞ compared with the row's maximum from -∞, kept as a column: the specification's row maximum. -/
theorem rowMax_col_apply {n : ℕ} (S : FVec Ideal ⟨2, ![512, n]⟩ .f32)
    (hr : (⟨2, ![512, n]⟩ : Shape).Reduces [1] ⟨1, ![512]⟩) (hsc : (⟨1, ![512]⟩ : Shape).ShapeCasts ⟨2, ![512, 1]⟩)
    (hφ : FKind.Formats .f32) (hacc : (0xFF800000#32 : BitVec 32) = FKind.maximumf.neutral .f32 hφ)
    (p : Fin 512) (z : Fin 1) :
    shapeCast ⟨2, ![512, 1]⟩ (maximumf (broadcast ⟨1, ![512]⟩ (Scalar.ofBits (F := Ideal) .f32 0xFF800000#32))
        (multiReduction .maximumf [1] ⟨1, ![512]⟩ S 0xFF800000#32 hr hφ hacc)) hsc (ix2 p z)
      = Cert.Spec.rowMax (fun u => S (ix2 p u)) := by
  refine (shapeCast_a_a1_apply _ hsc p z).trans ?_
  have e : (S ∘ hr.lift (ix1 p)) = fun u => S (ix2 p u) := funext fun u => congrArg S (lift_axis1 hr p u)
  refine (congrArg (max (Ideal.ofBits .f32 0xFF800000#32))
    (Ideal.multiReduction_maximumf_single S _ hr hφ hacc (ix1 p))).trans ?_
  exact congrArg (fun g => max (Ideal.ofBits .f32 0xFF800000#32)
    (Finset.fold max (Ideal.ofBits .f32 0xFF800000#32) g Finset.univ)) e

/-- With the row maximum in a column: exp of the differences over their row sum is the specification's softmax. -/
theorem softmax_rest_apply {n : ℕ} (S : FVec Ideal ⟨2, ![512, n]⟩ .f32) (Mx : FVec Ideal ⟨2, ![512, 1]⟩ .f32)
    (hr : (⟨2, ![512, n]⟩ : Shape).Reduces [1] ⟨1, ![512]⟩) (hsc : (⟨1, ![512]⟩ : Shape).ShapeCasts ⟨2, ![512, 1]⟩)
    (hb : (⟨2, ![512, 1]⟩ : Shape).Broadcasts ⟨2, ![512, n]⟩)
    (hφ : FKind.Formats .f32) (hadd : (0x00000000#32 : BitVec 32) = FKind.add.neutral .f32 hφ)
    (p : Fin 512) (hM : Mx (ix2 p (0 : Fin 1)) = Cert.Spec.rowMax (fun u => S (ix2 p u))) (v : Fin n) :
    divf (exp (subf S (broadcastTo ⟨2, ![512, n]⟩ Mx hb)))
        (broadcastTo ⟨2, ![512, n]⟩ (shapeCast ⟨2, ![512, 1]⟩
          (multiReduction .add [1] ⟨1, ![512]⟩ (exp (subf S (broadcastTo ⟨2, ![512, n]⟩ Mx hb))) 0x00000000#32 hr hφ hadd)
          hsc) hb) (ix2 p v)
      = Cert.Spec.softmaxRow (fun u => S (ix2 p u)) v := by
  have hE : ∀ u : Fin n, (exp (subf S (broadcastTo ⟨2, ![512, n]⟩ Mx hb)) : FVec Ideal ⟨2, ![512, n]⟩ .f32) (ix2 p u)
      = Ideal.exp (S (ix2 p u) - Cert.Spec.rowMax (fun u => S (ix2 p u))) := fun u =>
    congrArg (fun m => Ideal.exp (S (ix2 p u) - m)) ((broadcastTo_a1_ab_apply Mx hb p u).trans hM)
  have hsum : multiReduction .add [1] ⟨1, ![512]⟩ (exp (subf S (broadcastTo ⟨2, ![512, n]⟩ Mx hb))) 0x00000000#32 hr hφ hadd
        (ix1 p)
      = ∑ u : Fin n, Ideal.exp (S (ix2 p u) - Cert.Spec.rowMax (fun u => S (ix2 p u))) :=
    (Ideal.multiReduction_add_single _ _ hr hφ hadd (ix1 p)).trans
      (Finset.sum_congr rfl fun u _ => (congrArg _ (lift_axis1 hr p u)).trans (hE u))
  have hden : broadcastTo ⟨2, ![512, n]⟩ (shapeCast ⟨2, ![512, 1]⟩
        (multiReduction .add [1] ⟨1, ![512]⟩ (exp (subf S (broadcastTo ⟨2, ![512, n]⟩ Mx hb))) 0x00000000#32 hr hφ hadd)
        hsc) hb (ix2 p v)
      = ∑ u : Fin n, Ideal.exp (S (ix2 p u) - Cert.Spec.rowMax (fun u => S (ix2 p u))) :=
    (broadcastTo_a1_ab_apply _ hb p v).trans ((shapeCast_a_a1_apply _ hsc p 0).trans hsum)
  exact congrArg₂ Ideal.div (hE v) hden

end Softmax

/-! ## Three blocks side by side -/

section Concat

/-- Blocks of 2, 3 and 6 columns laid side by side read, at column j, the block whose span holds j. -/
theorem concat_2_3_6_apply (A : (⟨2, ![512, 2]⟩ : Shape).Idx → EReal) (B : (⟨2, ![512, 3]⟩ : Shape).Idx → EReal)
    (C : (⟨2, ![512, 6]⟩ : Shape).Idx → EReal)
    (h : Shape.Concatenates [(⟨2, ![512, 2]⟩ : Shape), ⟨2, ![512, 3]⟩, ⟨2, ![512, 6]⟩] ⟨2, ![512, 11]⟩ 1)
    (p : Fin 512) (j : Fin 11) :
    concatenate ⟨2, ![512, 11]⟩ 1 [⟨⟨2, ![512, 2]⟩, A⟩, ⟨⟨2, ![512, 3]⟩, B⟩, ⟨⟨2, ![512, 6]⟩, C⟩] h (ix2 p j)
      = Cert.Spec.cat11 (fun j => A (ix2 p j)) (fun j => B (ix2 p j)) (fun j => C (ix2 p j)) j := by
  unfold Cert.Spec.cat11
  split
  · next h2 =>
    exact concatenate_apply_piece 1 [⟨⟨2, ![512, 2]⟩, A⟩, ⟨⟨2, ![512, 3]⟩, B⟩, ⟨⟨2, ![512, 6]⟩, C⟩] h (ix2 p j) 0 (by show (0 : ℕ) < 3; omega) ⟨2, ![512, 2]⟩ A rfl rfl 0 rfl
      (ix2 p ⟨j.val, h2⟩)
      (fun b => by
        match b with
        | ⟨0, _⟩ => intro _; rfl
        | ⟨1, _⟩ => intro hne; exact absurd rfl hne)
      (Nat.zero_add _)
  · next h2 =>
    split
    · next h5 =>
      exact concatenate_apply_piece 1 [⟨⟨2, ![512, 2]⟩, A⟩, ⟨⟨2, ![512, 3]⟩, B⟩, ⟨⟨2, ![512, 6]⟩, C⟩] h (ix2 p j) 1 (by show (1 : ℕ) < 3; omega) ⟨2, ![512, 3]⟩ B rfl rfl 2 rfl
        (ix2 p ⟨j.val - 2, by omega⟩)
        (fun b => by
          match b with
          | ⟨0, _⟩ => intro _; rfl
          | ⟨1, _⟩ => intro hne; exact absurd rfl hne)
        (by show 2 + (j.val - 2) = j.val; omega)
    · next h5 =>
      exact concatenate_apply_piece 1 [⟨⟨2, ![512, 2]⟩, A⟩, ⟨⟨2, ![512, 3]⟩, B⟩, ⟨⟨2, ![512, 6]⟩, C⟩] h (ix2 p j) 2 (by show (2 : ℕ) < 3; omega) ⟨2, ![512, 6]⟩ C rfl rfl 5 rfl
        (ix2 p ⟨j.val - 5, by omega⟩)
        (fun b => by
          match b with
          | ⟨0, _⟩ => intro _; rfl
          | ⟨1, _⟩ => intro hne; exact absurd rfl hne)
        (by show 5 + (j.val - 5) = j.val; omega)

end Concat

end Cert.KSide

end
-- ==== Proof.KPayW.lean ====
/-
  The kernel body's softmax weights read at one entry.

  Row p of the input block is projected onto the 11 directions of the table and squashed by tanh; columns 0–1, 2–4
  and 5–10 of the result are the soft coordinates of the three groups.  In each group the soft coordinates are
  compared with the vertex table, divided by the temperature, and turned into weights by the row softmax.  Every
  change of float format on the way is the identity on the extended reals, and every product accumulates into zero,
  so each stored weight is the specification's weight of row p with the group's slice of the direction table.
-/
import proofs.«107425_j46832323395756_2_alg».proof.Proof.Gen.KernelIdeal.Skeleton
import proofs.«107425_j46832323395756_2_alg».proof.Proof.Spec
import proofs.«107425_j46832323395756_2_alg».proof.Proof.KPayLemmas

noncomputable section

namespace Cert.KSide

open Idealize.ShloMosaic Idealize.ShloMosaic.ValueIdx Cert.KernelIdeal Cert.KernelIdeal.Gen
open scoped BigOperators

variable (x0 : Vec Ideal S512x2048 .f32) (wp : Vec Ideal S11x2048 .f32)

/-- The input block cast to its own shape is itself. -/
theorem pay1_eq : k0_pay1 (F := Ideal) x0 = x0 := shapeCast_self x0 _

/-- Entry (p, j) of the squashed projection: tanh (Σ_d x(p, d) · Wp(j, d)). -/
theorem pay2_apply (p : Fin 512) (j : Fin 11) :
    k0_pay2 (F := Ideal) x0 wp (ix2 p j) = Cert.Spec.soft (fun d => x0 (ix2 p d)) (fun j d => wp (ix2 j d)) j := by
  refine congrArg Ideal.tanh ((matmul_transposedRhs_apply 512 2048 11 none _ _ p j).trans ?_)
  refine Finset.sum_congr rfl fun d _ => ?_
  exact congrArg₂ (· * ·) (congrFun (pay1_eq x0) (ix2 p d)) (congrFun (shapeCast_self wp _) (ix2 j d))

/-- Columns 0–1 of the squashed projection. -/
theorem slice2_apply (p : Fin 512) (j : Fin 2) :
    extractStridedSlice S512x2 ![0, 0] (k0_pay2 (F := Ideal) x0 wp) slices_S512x11_o0_0_S512x2 (ix2 p j)
      = Cert.Spec.soft (fun d => x0 (ix2 p d)) (fun j d => wp (ix2 (Cert.Spec.c2 j) d)) j :=
  (slice2_axis1_apply 0 (k0_pay2 (F := Ideal) x0 wp) slices_S512x11_o0_0_S512x2 p j (Cert.Spec.c2 j) (Nat.zero_add _).symm).trans (pay2_apply x0 wp p (Cert.Spec.c2 j))

/-- Columns 2–4 of the squashed projection. -/
theorem slice3_apply (p : Fin 512) (j : Fin 3) :
    extractStridedSlice S512x3 ![0, 2] (k0_pay2 (F := Ideal) x0 wp) slices_S512x11_o0_2_S512x3 (ix2 p j)
      = Cert.Spec.soft (fun d => x0 (ix2 p d)) (fun j d => wp (ix2 (Cert.Spec.c3 j) d)) j :=
  (slice2_axis1_apply 2 (k0_pay2 (F := Ideal) x0 wp) slices_S512x11_o0_2_S512x3 p j (Cert.Spec.c3 j) (Nat.add_comm _ _)).trans (pay2_apply x0 wp p (Cert.Spec.c3 j))

/-- Columns 5–10 of the squashed projection. -/
theorem pay3_apply (p : Fin 512) (j : Fin 6) :
    k0_pay3 (F := Ideal) x0 wp (ix2 p j)
      = Cert.Spec.soft (fun d => x0 (ix2 p d)) (fun j d => wp (ix2 (Cert.Spec.c6 j) d)) j :=
  (slice2_axis1_apply 5 (k0_pay2 (F := Ideal) x0 wp) slices_S512x11_o0_5_S512x6 p j (Cert.Spec.c6 j) (Nat.add_comm _ _)).trans (pay2_apply x0 wp p (Cert.Spec.c6 j))

/-! ## The weights of the group of 2 directions and 4 vertices -/

variable (v2 : Vec Ideal S4x2 .f32) (v3 : Vec Ideal S8x3 .f32) (v6 : Vec Ideal S64x6 .f32)

/-- The similarities of the group of 2 directions: the body's quotient of the product by the temperature. -/
def simv2 : FVec Ideal S512x4 .f32 :=
  divf (matmul (φ₁ := .f32) (φ₂ := .f32) dot_S512x2_S4x2_S512x4_1_1_0_0_n_n (some .fp32)
      (extractStridedSlice S512x2 ![0, 0] (k0_pay2 (F := Ideal) x0 wp) slices_S512x11_o0_0_S512x2) v2
      (constant S512x4 .f32 0x00000000#32))
    (broadcast S512x4 (Scalar.ofBits .f32 0x3F800000#32))

theorem simv2_apply (p : Fin 512) (u : Fin 4) :
    simv2 x0 wp v2 (ix2 p u)
      = Cert.Spec.sim (Cert.Spec.soft (fun d => x0 (ix2 p d)) (fun j d => wp (ix2 (Cert.Spec.c2 j) d)))
          (fun u j => v2 (ix2 u j)) u :=
  (sim_apply 2 4 (some .fp32) _ v2 p u).trans
    (congrArg (fun s => Cert.Spec.sim s (fun u j => v2 (ix2 u j)) u) (funext fun j => slice2_apply x0 wp p j))

theorem pay_w2 (p : Fin 512) (v : Fin 4) :
    k0_pay4 (F := Ideal) x0 wp v2 (ix2 p v)
      = Cert.Spec.wts (fun d => x0 (ix2 p d)) (fun j d => wp (ix2 (Cert.Spec.c2 j) d)) (fun u j => v2 (ix2 u j)) v :=
  (softmax_rest_apply (simv2 x0 wp v2) _ reduces_S512x4_S512 shapeCasts_S512_S512x1 broadcasts_S512x1_S512x4 (.inl rfl) rfl p
      (rowMax_col_apply (simv2 x0 wp v2) reduces_S512x4_S512 shapeCasts_S512_S512x1 (.inl rfl) rfl p 0) v).trans
    (congrArg (fun f => Cert.Spec.softmaxRow f v) (funext fun u => simv2_apply x0 wp v2 p u))

/-! ## The weights of the group of 3 directions and 8 vertices -/

theorem pay5_apply (p : Fin 512) (u : Fin 8) :
    k0_pay5 (F := Ideal) x0 wp v3 (ix2 p u)
      = Cert.Spec.sim (Cert.Spec.soft (fun d => x0 (ix2 p d)) (fun j d => wp (ix2 (Cert.Spec.c3 j) d)))
          (fun u j => v3 (ix2 u j)) u :=
  (sim_apply 3 8 (some .fp32) _ v3 p u).trans
    (congrArg (fun s => Cert.Spec.sim s (fun u j => v3 (ix2 u j)) u) (funext fun j => slice3_apply x0 wp p j))

theorem pay_w3 (p : Fin 512) (v : Fin 8) :
    k0_pay7 (F := Ideal) (k0_pay5 x0 wp v3) (k0_pay6 x0 wp v3) (ix2 p v)
      = Cert.Spec.wts (fun d => x0 (ix2 p d)) (fun j d => wp (ix2 (Cert.Spec.c3 j) d)) (fun u j => v3 (ix2 u j)) v :=
  (softmax_rest_apply (k0_pay5 (F := Ideal) x0 wp v3) (k0_pay6 (F := Ideal) x0 wp v3) reduces_S512x8_S512 shapeCasts_S512_S512x1
      broadcasts_S512x1_S512x8 (.inl rfl) rfl p
      (rowMax_col_apply (k0_pay5 (F := Ideal) x0 wp v3) reduces_S512x8_S512 shapeCasts_S512_S512x1 (.inl rfl) rfl p 0) v).trans
    (congrArg (fun f => Cert.Spec.softmaxRow f v) (funext fun u => pay5_apply x0 wp v3 p u))

/-! ## The weights of the group of 6 directions and 64 vertices -/

/-- The similarities of the group of 6 directions. -/
def simv6 : FVec Ideal S512x64 .f32 :=
  divf (matmul (φ₁ := .f32) (φ₂ := .f32) dot_S512x6_S64x6_S512x64_1_1_0_0_n_n (some .fp32) (k0_pay3 (F := Ideal) x0 wp) v6
      (constant S512x64 .f32 0x00000000#32))
    (broadcast S512x64 (Scalar.ofBits .f32 0x3F800000#32))

theorem simv6_apply (p : Fin 512) (u : Fin 64) :
    simv6 x0 wp v6 (ix2 p u)
      = Cert.Spec.sim (Cert.Spec.soft (fun d => x0 (ix2 p d)) (fun j d => wp (ix2 (Cert.Spec.c6 j) d)))
          (fun u j => v6 (ix2 u j)) u :=
  (sim_apply 6 64 (some .fp32) _ v6 p u).trans
    (congrArg (fun s => Cert.Spec.sim s (fun u j => v6 (ix2 u j)) u) (funext fun j => pay3_apply x0 wp p j))

theorem pay_w6 (p : Fin 512) (v : Fin 64) :
    k0_pay8 (F := Ideal) (k0_pay3 x0 wp) v6 (ix2 p v)
      = Cert.Spec.wts (fun d => x0 (ix2 p d)) (fun j d => wp (ix2 (Cert.Spec.c6 j) d)) (fun u j => v6 (ix2 u j)) v :=
  (softmax_rest_apply (simv6 x0 wp v6) _ reduces_S512x64_S512 shapeCasts_S512_S512x1 broadcasts_S512x1_S512x64 (.inl rfl) rfl p
      (rowMax_col_apply (simv6 x0 wp v6) reduces_S512x64_S512 shapeCasts_S512_S512x1 (.inl rfl) rfl p 0) v).trans
    (congrArg (fun f => Cert.Spec.softmaxRow f v) (funext fun u => simv6_apply x0 wp v6 p u))

end Cert.KSide

end
-- ==== Proof.KPayOut.lean ====
/-
  The kernel body's residual output read at one entry.

  The weights of each group average the group's vertex table into an embedding of row p (a product accumulated into
  zero: Σ_v w(v) · V(v, j)).  The three embeddings are laid side by side in 11 columns and multiplied with the
  2048 × 11 output table over the 11 columns; the row of the input block is added.  Every change of float format on
  the way is the identity on the extended reals.
-/
import proofs.«107425_j46832323395756_2_alg».proof.Proof.KPayW

noncomputable section

namespace Cert.KSide

open Idealize.ShloMosaic Idealize.ShloMosaic.ValueIdx Cert.KernelIdeal Cert.KernelIdeal.Gen
open scoped BigOperators

/-- Three rows side by side depend only on the three rows. -/
theorem cat11_congr {a a' : Fin 2 → EReal} {b b' : Fin 3 → EReal} {c c' : Fin 6 → EReal}
    (ha : ∀ j, a j = a' j) (hb : ∀ j, b j = b' j) (hc : ∀ j, c j = c' j) (j : Fin 11) :
    Cert.Spec.cat11 a b c j = Cert.Spec.cat11 a' b' c' j := by
  rw [funext ha, funext hb, funext hc]

/-- Weights times a vertex table, accumulated into zero: the weighted vertex. -/
theorem emb_apply (N K : ℕ) (W : FVec Ideal ⟨2, ![512, N]⟩ .f32) (V : FVec Ideal ⟨2, ![N, K]⟩ .f32)
    (hlt : FTy.bits .bf16 < FTy.bits .f32) (p : Fin 512) (w : Fin N → EReal) (hW : ∀ u, W (ix2 p u) = w u) (j : Fin K) :
    FloatOps.matmul (DotDims.plain 512 N K) none (truncf .bf16 W hlt) (truncf .bf16 V hlt)
        (constant (F := Ideal) ⟨2, ![512, K]⟩ .f32 0x00000000#32) (ix2 p j)
      = Cert.Spec.emb w (fun u j => V (ix2 u j)) j :=
  (matmul_plain_apply 512 N K none _ _ p j).trans
    (Finset.sum_congr rfl fun u _ => congrArg (· * V (ix2 u j)) (hW u))

variable (x0 : Vec Ideal S512x2048 .f32) (wp : Vec Ideal S11x2048 .f32)
  (v2 : Vec Ideal S4x2 .f32) (v3 : Vec Ideal S8x3 .f32) (v6 : Vec Ideal S64x6 .f32) (wo : Vec Ideal S2048x11 .f32)

theorem pay_out (p : Fin 512) (d : Fin 2048) :
    k0_pay9 (F := Ideal) (k0_pay1 x0) (k0_pay3 x0 wp) v2 v3 v6 (k0_pay4 x0 wp v2) (k0_pay5 x0 wp v3) (k0_pay6 x0 wp v3) wo
        (ix2 p d)
      = Cert.Spec.outRowCat (fun d => x0 (ix2 p d)) (fun j d => wp (ix2 j d)) (fun u j => v2 (ix2 u j))
          (fun u j => v3 (ix2 u j)) (fun u j => v6 (ix2 u j)) (fun d j => wo (ix2 d j)) d := by
  refine congrArg₂ (· + ·) (congrFun (pay1_eq x0) (ix2 p d))
    ((matmul_transposedRhs_apply 512 11 2048 none _ _ p d).trans ?_)
  refine Finset.sum_congr rfl fun j _ => ?_
  refine congrArg₂ (· * ·) ((concat_2_3_6_apply _ _ _ concatenates_S512x2_S512x3_S512x6_S512x11_d1 p j).trans ?_) (congrFun (shapeCast_self wo _) (ix2 d j))
  exact cat11_congr
    (fun j => emb_apply 4 2 _ v2 _ p _ (fun u => pay_w2 x0 wp v2 p u) j)
    (fun j => emb_apply 8 3 _ v3 _ p _ (fun u => pay_w3 x0 wp v3 p u) j)
    (fun j => emb_apply 64 6 _ v6 _ p _ (fun u => pay_w6 x0 wp v6 p u) j) j

end Cert.KSide

end
-- ==== Proof.KPay.lean ====
/-
  The kernel body's four stored payloads read at one entry: the three weight blocks and the residual output.
-/
import proofs.«107425_j46832323395756_2_alg».proof.Proof.KPayW
import proofs.«107425_j46832323395756_2_alg».proof.Proof.KPayOut
-- ==== Proof.KFinal.lean ====
/-
  The four arrays the region writes, as whole-array functions (idealized kernel).  Point t writes rows
  512·t … 512·t + 511 of each; every row of a block is the specification's row function of the same row of x and
  of the tables, so each array ends as that function of its row index, row by row.
-/
import proofs.«107425_j46832323395756_2_alg».proof.Proof.KBlocks
import proofs.«107425_j46832323395756_2_alg».proof.Proof.KPay
import proofs.«107425_j46832323395756_2_alg».proof.Proof.Spec

noncomputable section

namespace Cert.KernelIdeal.Val

open Idealize.ShloMosaic Idealize.ShloMosaic.TcCoe Idealize.ShloMosaic.ValueIdx
open Idealize.SL.Sem
open Cert.KernelIdeal Cert.KernelIdeal.Gen Cert.KernelIdeal.Fr

variable (m : (ℓ : Loc nD τ sig) → Buf (Elt Ideal) ℓ)

/-! ## The body's four results at an element, over the blocks it loaded -/

theorem pay7_apply (x0 : Vec Ideal S512x2048 .f32) (tp : Vec Ideal S11x2048 .f32) (v2 : Vec Ideal S4x2 .f32) (p : Fin 512) (v : Fin 4) :
    pay7 x0 tp v2 (ix2 p v) = Cert.Spec.wts (fun d => x0 (ix2 p d)) (fun j d => tp (ix2 (Cert.Spec.c2 j) d)) (fun u j => v2 (ix2 u j)) v := by
  unfold pay7
  simp only [View.ld_unit_zero (S := S512x2048) hz, View.ld_unit_zero (S := S11x2048) hz, View.ld_unit_zero (S := S4x2) hz]
  exact Cert.KSide.pay_w2 x0 tp v2 p v

theorem pay8_apply (x0 : Vec Ideal S512x2048 .f32) (tp : Vec Ideal S11x2048 .f32) (v3 : Vec Ideal S8x3 .f32) (p : Fin 512) (v : Fin 8) :
    pay8 x0 tp v3 (ix2 p v) = Cert.Spec.wts (fun d => x0 (ix2 p d)) (fun j d => tp (ix2 (Cert.Spec.c3 j) d)) (fun u j => v3 (ix2 u j)) v := by
  unfold pay8
  simp only [View.ld_unit_zero (S := S512x2048) hz, View.ld_unit_zero (S := S11x2048) hz, View.ld_unit_zero (S := S8x3) hz]
  exact Cert.KSide.pay_w3 x0 tp v3 p v

theorem pay9_apply (x0 : Vec Ideal S512x2048 .f32) (tp : Vec Ideal S11x2048 .f32) (v6 : Vec Ideal S64x6 .f32) (p : Fin 512) (v : Fin 64) :
    pay9 x0 tp v6 (ix2 p v) = Cert.Spec.wts (fun d => x0 (ix2 p d)) (fun j d => tp (ix2 (Cert.Spec.c6 j) d)) (fun u j => v6 (ix2 u j)) v := by
  unfold pay9
  simp only [View.ld_unit_zero (S := S512x2048) hz, View.ld_unit_zero (S := S11x2048) hz, View.ld_unit_zero (S := S64x6) hz]
  exact Cert.KSide.pay_w6 x0 tp v6 p v

theorem pay6_apply (x0 : Vec Ideal S512x2048 .f32) (tp : Vec Ideal S11x2048 .f32) (wo : Vec Ideal S2048x11 .f32)
    (v2 : Vec Ideal S4x2 .f32) (v3 : Vec Ideal S8x3 .f32) (v6 : Vec Ideal S64x6 .f32) (p : Fin 512) (d : Fin 2048) :
    pay6 x0 tp wo v2 v3 v6 (ix2 p d) = Cert.Spec.outRowCat (fun d => x0 (ix2 p d)) (fun j d => tp (ix2 j d)) (fun u j => v2 (ix2 u j))
      (fun u j => v3 (ix2 u j)) (fun u j => v6 (ix2 u j)) (fun d j => wo (ix2 d j)) d := by
  unfold pay6
  simp only [View.ld_unit_zero (S := S512x2048) hz, View.ld_unit_zero (S := S11x2048) hz, View.ld_unit_zero (S := S2048x11) hz,
    View.ld_unit_zero (S := S4x2) hz, View.ld_unit_zero (S := S8x3) hz, View.ld_unit_zero (S := S64x6) hz]
  exact Cert.KSide.pay_out x0 tp v2 v3 v6 wo p d

/-! ## The arrays as functions of the row -/

/-- Row r of the reshaped x, as the region finds it. -/
def xrow (c : Dev nD) (r : Fin 32768) : Fin 2048 → EReal := fun d => V m c main_v0 (ix2 r d)

def g6 (c : Dev nD) (r : Fin 32768) (d : Fin 2048) : EReal :=
  Cert.Spec.outRowCat (xrow m c r) (fun j d => V m c main_v1 (ix2 j d)) (fun u j => V m c main_cst (ix2 u j))
    (fun u j => V m c main_cst_0 (ix2 u j)) (fun u j => V m c main_cst_1 (ix2 u j)) (fun d j => V m c main_v24 (ix2 d j)) d
def g7 (c : Dev nD) (r : Fin 32768) (v : Fin 4) : EReal :=
  Cert.Spec.wts (xrow m c r) (fun j d => V m c main_v1 (ix2 (Cert.Spec.c2 j) d)) (fun u j => V m c main_cst (ix2 u j)) v
def g8 (c : Dev nD) (r : Fin 32768) (v : Fin 8) : EReal :=
  Cert.Spec.wts (xrow m c r) (fun j d => V m c main_v1 (ix2 (Cert.Spec.c3 j) d)) (fun u j => V m c main_cst_0 (ix2 u j)) v
def g9 (c : Dev nD) (r : Fin 32768) (v : Fin 64) : EReal :=
  Cert.Spec.wts (xrow m c r) (fun j d => V m c main_v1 (ix2 (Cert.Spec.c6 j) d)) (fun u j => V m c main_cst_1 (ix2 u j)) v

def G6 (c : Dev nD) : S32768x2048.Idx → EReal := fun i => g6 m c (i 0) (i 1)
def G7 (c : Dev nD) : S32768x4.Idx → EReal := fun i => g7 m c (i 0) (i 1)
def G8 (c : Dev nD) : S32768x8.Idx → EReal := fun i => g8 m c (i 0) (i 1)
def G9 (c : Dev nD) : S32768x64.Idx → EReal := fun i => g9 m c (i 0) (i 1)

/-! ## What each point writes back -/

theorem flushed7_eq (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  unfold out0_7
  rw [View.canon_unit_zero hz]
  funext y
  obtain ⟨p, v, rfl⟩ : ∃ (p : Fin 512) (v : Fin 4), y = ix2 p v := ⟨y 0, y 1, eq_ix2 y⟩
  show pay7 (iblk m c 0 t) (iblk m c 1 t) (iblk m c 3 t) (ix2 p v) = G7 m c (((cfg0.win 7).blk t).view.emb (ix2 p v))
  rw [emb7]
  refine (pay7_apply (iblk m c 0 t) (iblk m c 1 t) (iblk m c 3 t) p v).trans ?_
  show _ = g7 m c (rowOf t p) v
  unfold g7 xrow
  simp only [iblk0_apply, iblk1_apply, iblk3_apply]

theorem flushed8_eq (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  unfold out0_8
  rw [View.canon_unit_zero hz]
  funext y
  obtain ⟨p, v, rfl⟩ : ∃ (p : Fin 512) (v : Fin 8), y = ix2 p v := ⟨y 0, y 1, eq_ix2 y⟩
  show pay8 (iblk m c 0 t) (iblk m c 1 t) (iblk m c 4 t) (ix2 p v) = G8 m c (((cfg0.win 8).blk t).view.emb (ix2 p v))
  rw [emb8]
  refine (pay8_apply (iblk m c 0 t) (iblk m c 1 t) (iblk m c 4 t) p v).trans ?_
  show _ = g8 m c (rowOf t p) v
  unfold g8 xrow
  simp only [iblk0_apply, iblk1_apply, iblk4_apply]

theorem flushed9_eq (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  unfold out0_9
  rw [View.canon_unit_zero hz]
  funext y
  obtain ⟨p, v, rfl⟩ : ∃ (p : Fin 512) (v : Fin 64), y = ix2 p v := ⟨y 0, y 1, eq_ix2 y⟩
  show pay9 (iblk m c 0 t) (iblk m c 1 t) (iblk m c 5 t) (ix2 p v) = G9 m c (((cfg0.win 9).blk t).view.emb (ix2 p v))
  rw [emb9]
  refine (pay9_apply (iblk m c 0 t) (iblk m c 1 t) (iblk m c 5 t) p v).trans ?_
  show _ = g9 m c (rowOf t p) v
  unfold g9 xrow
  simp only [iblk0_apply, iblk1_apply, iblk5_apply]

theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  unfold out0_6
  rw [View.canon_unit_zero hz]
  funext y
  obtain ⟨p, d, rfl⟩ : ∃ (p : Fin 512) (d : Fin 2048), y = ix2 p d := ⟨y 0, y 1, eq_ix2 y⟩
  show pay6 (iblk m c 0 t) (iblk m c 1 t) (iblk m c 2 t) (iblk m c 3 t) (iblk m c 4 t) (iblk m c 5 t) (ix2 p d) = G6 m c (((cfg0.win 6).blk t).view.emb (ix2 p d))
  rw [emb6]
  refine (pay6_apply (iblk m c 0 t) (iblk m c 1 t) (iblk m c 2 t) (iblk m c 3 t) (iblk m c 4 t) (iblk m c 5 t) p d).trans ?_
  show _ = g6 m c (rowOf t p) d
  unfold g6 xrow
  simp only [iblk0_apply, iblk1_apply, iblk2_apply, iblk3_apply, iblk4_apply, iblk5_apply]

/-! ## The arrays after the run -/

theorem final6 (c : Dev nD) : (dats m 0 c).arrAt 6 cfg0.N = G6 m c :=
  (dats m 0 c).arrAt_eq_of_cover 6 (G6 m c) (fun t _ => flushed6_eq m c t) cover6
theorem final7 (c : Dev nD) : (dats m 0 c).arrAt 7 cfg0.N = G7 m c :=
  (dats m 0 c).arrAt_eq_of_cover 7 (G7 m c) (fun t _ => flushed7_eq m c t) cover7
theorem final8 (c : Dev nD) : (dats m 0 c).arrAt 8 cfg0.N = G8 m c :=
  (dats m 0 c).arrAt_eq_of_cover 8 (G8 m c) (fun t _ => flushed8_eq m c t) cover8
theorem final9 (c : Dev nD) : (dats m 0 c).arrAt 9 cfg0.N = G9 m c :=
  (dats m 0 c).arrAt_eq_of_cover 9 (G9 m c) (fun t _ => flushed9_eq m c t) cover9

end Cert.KernelIdeal.Val

end
-- ==== Proof.KHost.lean ====
/-
  The arrays the region reads and the arrays @main returns, as functions of the argument arrays (idealized kernel).

  Before the region the host reshapes x to 32768 rows, stacks the three input-projection tables into 11 rows,
  turns the three scale weights into mixing weights by a softmax, scales each output-projection table by its
  mixing weight and lays the three side by side in 11 columns; the vertex tables are constants.  After the
  region each result is reshaped from 32768 rows back to 8 × 4096.
-/
import proofs.«107425_j46832323395756_2_alg».proof.Proof.FrameKI
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.ShloMosaic.ValueIdx
open Idealize.SL.Sem
open Cert.KernelIdeal Cert.KernelIdeal.Gen Cert.KernelIdeal.Fr

variable (m : (ℓ : Loc nD τ sig) → Buf (Elt Ideal) ℓ)

/-! ## The host's softmax of the three scale weights -/

/-- exp (s - max s) / Σ exp (s - max s), as the host spells it. -/
def swHost (s : FVec Ideal S3 .f32) : FVec Ideal S3 .f32 :=
  Host.divf (Host.exp (subf s (broadcastInDim S3 ![0] bcast_S1_S3_0 (broadcastInDim S1 ![] bcast_S_S1
      (maximumf (constant (F := Ideal) S_ .f32 0xFF800000#32) (Host.reduce FloatOps.maximumf s (constant (F := Ideal) S_ .f32 0xFF800000#32) reducesTo_S3_S_d0 h_S_))))))
    (broadcastInDim S3 ![0] bcast_S1_S3_0 (broadcastInDim S1 ![] bcast_S_S1
      (Host.reduceAdd (Host.exp (subf s (broadcastInDim S3 ![0] bcast_S1_S3_0 (broadcastInDim S1 ![] bcast_S_S1
        (maximumf (constant (F := Ideal) S_ .f32 0xFF800000#32) (Host.reduce FloatOps.maximumf s (constant (F := Ideal) S_ .f32 0xFF800000#32) reducesTo_S3_S_d0 h_S_))))))
        (constant (F := Ideal) S_ .f32 0x00000000#32) reducesTo_S3_S_d0 h_S_)))

/-- Mixing weight k as a scalar. -/
def sc0 (s : FVec Ideal S3 .f32) : FVec Ideal S_ .f32 := shapeCast S_ (extractStridedSlice S1 ![0] (swHost s) slices_S3_S1_0) shapeCasts_S1_S_
def sc1 (s : FVec Ideal S3 .f32) : FVec Ideal S_ .f32 := shapeCast S_ (extractStridedSlice S1 ![1] (swHost s) slices_S3_S1_1) shapeCasts_S1_S_
def sc2 (s : FVec Ideal S3 .f32) : FVec Ideal S_ .f32 := shapeCast S_ (extractStridedSlice S1 ![2] (swHost s) slices_S3_S1_2) shapeCasts_S1_S_

/-- The 11-row input-projection table. -/
def wpCat (a1 : FVec Ideal S2x2048 .f32) (a2 : FVec Ideal S3x2048 .f32) (a3 : FVec Ideal S6x2048 .f32) : FVec Ideal S11x2048 .f32 :=
  concatenate S11x2048 0 [⟨S2x2048, a1⟩, ⟨S3x2048, a2⟩, ⟨S6x2048, a3⟩] concatenates_S2x2048_S3x2048_S6x2048_S11x2048_d0

/-- The 11-column output-projection table, each group scaled by its mixing weight. -/
def woCat (a4 : FVec Ideal S2048x2 .f32) (a5 : FVec Ideal S2048x3 .f32) (a6 : FVec Ideal S2048x6 .f32) (s : FVec Ideal S3 .f32) : FVec Ideal S2048x11 .f32 :=
  concatenate S2048x11 1 [⟨S2048x2, mulf a4 (broadcastInDim S2048x2 ![] bcast_S_S2048x2 (sc0 s))⟩,
    ⟨S2048x3, mulf a5 (broadcastInDim S2048x3 ![] bcast_S_S2048x3 (sc1 s))⟩,
    ⟨S2048x6, mulf a6 (broadcastInDim S2048x6 ![] bcast_S_S2048x6 (sc2 s))⟩] concatenates_S2048x2_S2048x3_S2048x6_S2048x11_d1

/-! ## The region's arrays -/

theorem V_v0 (c : Dev nD) : (V m c main_v0 : S32768x2048.Idx → EReal)
    = shapeCast S32768x2048 (m ((c : Thread nD τ).loc main_arg0) : S8x4096x2048.Idx → EReal) shapeCasts_S8x4096x2048_S32768x2048 := by
  show StableHlo.after hostOps0 (fun b => m (c, b)) (Proc.devRef .tc main_v0) = _
  after_results
  rfl

theorem V_cst (c : Dev nD) : (V m c main_cst : S4x2.Idx → EReal) = fun i => FloatOps.ofBits (F := Ideal) .f32 (lit0 (S4x2.rowMajor i)) := by
  show StableHlo.after hostOps0 (fun b => m (c, b)) (Proc.devRef .tc main_cst) = _
  after_results
  rfl
theorem V_cst_0 (c : Dev nD) : (V m c main_cst_0 : S8x3.Idx → EReal) = fun i => FloatOps.ofBits (F := Ideal) .f32 (lit1 (S8x3.rowMajor i)) := by
  show StableHlo.after hostOps0 (fun b => m (c, b)) (Proc.devRef .tc main_cst_0) = _
  after_results
  rfl
theorem V_cst_1 (c : Dev nD) : (V m c main_cst_1 : S64x6.Idx → EReal) = fun i => FloatOps.ofBits (F := Ideal) .f32 (lit2 (S64x6.rowMajor i)) := by
  show StableHlo.after hostOps0 (fun b => m (c, b)) (Proc.devRef .tc main_cst_1) = _
  after_results
  rfl

theorem V_v1 (c : Dev nD) : (V m c main_v1 : S11x2048.Idx → EReal)
    = wpCat (m ((c : Thread nD τ).loc main_arg1)) (m ((c : Thread nD τ).loc main_arg2)) (m ((c : Thread nD τ).loc main_arg3)) := by
  show StableHlo.after hostOps0 (fun b => m (c, b)) (Proc.devRef .tc main_v1) = _
  after_results
  rfl

theorem V_v24 (c : Dev nD) : (V m c main_v24 : S2048x11.Idx → EReal)
    = woCat (m ((c : Thread nD τ).loc main_arg4)) (m ((c : Thread nD τ).loc main_arg5)) (m ((c : Thread nD τ).loc main_arg6)) (m ((c : Thread nD τ).loc main_arg7)) := by
  show StableHlo.after hostOps0 (fun b => m (c, b)) (Proc.devRef .tc main_v24) = _
  after_results
  rfl

end Cert.KernelIdeal.Val

end
-- ==== Proof.KHostIdx.lean ====
/-
  The region's arrays read at an index (idealized kernel): row 4096·b + t of the reshaped x is x[b, t, ·]; rows
  0–1, 2–4, 5–10 of the stacked input table are the rows of the three input tables; columns 0–1, 2–4, 5–10 of the
  output table are the columns of the three output tables, each times its mixing weight; and mixing weight k is
  entry k of the softmax of the three scale weights.
-/
import proofs.«107425_j46832323395756_2_alg».proof.Proof.KHost
import proofs.«107425_j46832323395756_2_alg».proof.Proof.Spec
import Idealize.ShloMosaic.Lib.IdealHost
import Idealize.ShloMosaic.Lib.ValueLayout

noncomputable section

namespace Cert.KernelIdeal.Val

open Idealize.ShloMosaic Idealize.ShloMosaic.TcCoe Idealize.ShloMosaic.ValueIdx
open Idealize.SL.Sem
open Cert.KernelIdeal Cert.KernelIdeal.Gen Cert.KernelIdeal.Fr

/-! ## x as rows, and back -/

theorem rows_apply (a0 : S8x4096x2048.Idx → EReal) (b : Fin 8) (t : Fin 4096) (d : Fin 2048) (r : Fin 32768)
    (hr : r.val = b.val * 4096 + t.val) :
    shapeCast S32768x2048 a0 shapeCasts_S8x4096x2048_S32768x2048 (ix2 r d) = a0 (ix3 b t d) :=
  shapeCast_apply a0 _ _ _ (by
    rw [Shape.rowMajor_val_three, Shape.rowMajor_val_two]
    show (b.val * 4096 + t.val) * 2048 + d.val = r.val * 2048 + d.val
    rw [hr])

/-! ## The stacked input table -/

theorem wpCat_c2 (a1 : FVec Ideal S2x2048 .f32) (a2 : FVec Ideal S3x2048 .f32) (a3 : FVec Ideal S6x2048 .f32) (j : Fin 2) (d : Fin 2048) :
    wpCat a1 a2 a3 (ix2 (Cert.Spec.c2 j) d) = a1 (ix2 j d) := by
  unfold wpCat
  refine concatenate_apply_piece (t := S11x2048) (0 : Fin 2) _ _ _ 0 ?_ S2x2048 a1 ?_ rfl 0 ?_ (ix2 j d) ?_ ?_
  · exact (by omega : (0 : Nat) < 3)
  · rfl
  · rfl
  · intro b hb
    match b with
    | ⟨0, _⟩ => exact absurd rfl hb
    | ⟨1, _⟩ => rfl
  · show 0 + j.val = j.val; omega

theorem wpCat_c3 (a1 : FVec Ideal S2x2048 .f32) (a2 : FVec Ideal S3x2048 .f32) (a3 : FVec Ideal S6x2048 .f32) (j : Fin 3) (d : Fin 2048) :
    wpCat a1 a2 a3 (ix2 (Cert.Spec.c3 j) d) = a2 (ix2 j d) := by
  unfold wpCat
  refine concatenate_apply_piece (t := S11x2048) (0 : Fin 2) _ _ _ 1 ?_ S3x2048 a2 ?_ rfl 2 ?_ (ix2 j d) ?_ ?_
  · exact (by omega : (1 : Nat) < 3)
  · rfl
  · rfl
  · intro b hb
    match b with
    | ⟨0, _⟩ => exact absurd rfl hb
    | ⟨1, _⟩ => rfl
  · show 2 + j.val = j.val + 2; omega

theorem wpCat_c6 (a1 : FVec Ideal S2x2048 .f32) (a2 : FVec Ideal S3x2048 .f32) (a3 : FVec Ideal S6x2048 .f32) (j : Fin 6) (d : Fin 2048) :
    wpCat a1 a2 a3 (ix2 (Cert.Spec.c6 j) d) = a3 (ix2 j d) := by
  unfold wpCat
  refine concatenate_apply_piece (t := S11x2048) (0 : Fin 2) _ _ _ 2 ?_ S6x2048 a3 ?_ rfl 5 ?_ (ix2 j d) ?_ ?_
  · exact (by omega : (2 : Nat) < 3)
  · rfl
  · rfl
  · intro b hb
    match b with
    | ⟨0, _⟩ => exact absurd rfl hb
    | ⟨1, _⟩ => rfl
  · show 5 + j.val = j.val + 5; omega

/-! ## The output table -/

theorem woCat_c2 (a4 : FVec Ideal S2048x2 .f32) (a5 : FVec Ideal S2048x3 .f32) (a6 : FVec Ideal S2048x6 .f32) (s : FVec Ideal S3 .f32) (d : Fin 2048) (j : Fin 2) :
    woCat a4 a5 a6 s (ix2 d (Cert.Spec.c2 j)) = a4 (ix2 d j) * sc0 s ix0 := by
  unfold woCat
  refine (concatenate_apply_piece (t := S2048x11) (1 : Fin 2) _ _ _ 0 ?_ S2048x2 (mulf a4 (broadcastInDim S2048x2 ![] bcast_S_S2048x2 (sc0 s))) ?_ rfl 0 ?_ (ix2 d j) ?_ ?_).trans ?_
  · exact (by omega : (0 : Nat) < 3)
  · rfl
  · rfl
  · intro b hb
    match b with
    | ⟨0, _⟩ => rfl
    | ⟨1, _⟩ => exact absurd rfl hb
  · show 0 + j.val = j.val; omega
  · rw [mulf_apply, broadcastInDim_scalar_apply]

theorem woCat_c3 (a4 : FVec Ideal S2048x2 .f32) (a5 : FVec Ideal S2048x3 .f32) (a6 : FVec Ideal S2048x6 .f32) (s : FVec Ideal S3 .f32) (d : Fin 2048) (j : Fin 3) :
    woCat a4 a5 a6 s (ix2 d (Cert.Spec.c3 j)) = a5 (ix2 d j) * sc1 s ix0 := by
  unfold woCat
  refine (concatenate_apply_piece (t := S2048x11) (1 : Fin 2) _ _ _ 1 ?_ S2048x3 (mulf a5 (broadcastInDim S2048x3 ![] bcast_S_S2048x3 (sc1 s))) ?_ rfl 2 ?_ (ix2 d j) ?_ ?_).trans ?_
  · exact (by omega : (1 : Nat) < 3)
  · rfl
  · rfl
  · intro b hb
    match b with
    | ⟨0, _⟩ => rfl
    | ⟨1, _⟩ => exact absurd rfl hb
  · show 2 + j.val = j.val + 2; omega
  · rw [mulf_apply, broadcastInDim_scalar_apply]

theorem woCat_c6 (a4 : FVec Ideal S2048x2 .f32) (a5 : FVec Ideal S2048x3 .f32) (a6 : FVec Ideal S2048x6 .f32) (s : FVec Ideal S3 .f32) (d : Fin 2048) (j : Fin 6) :
    woCat a4 a5 a6 s (ix2 d (Cert.Spec.c6 j)) = a6 (ix2 d j) * sc2 s ix0 := by
  unfold woCat
  refine (concatenate_apply_piece (t := S2048x11) (1 : Fin 2) _ _ _ 2 ?_ S2048x6 (mulf a6 (broadcastInDim S2048x6 ![] bcast_S_S2048x6 (sc2 s))) ?_ rfl 5 ?_ (ix2 d j) ?_ ?_).trans ?_
  · exact (by omega : (2 : Nat) < 3)
  · rfl
  · rfl
  · intro b hb
    match b with
    | ⟨0, _⟩ => rfl
    | ⟨1, _⟩ => exact absurd rfl hb
  · show 5 + j.val = j.val + 5; omega
  · rw [mulf_apply, broadcastInDim_scalar_apply]

/-! ## The mixing weights -/

/-- The three entries, as an index type. -/
def e3 : Fin 3 ≃ S3.Idx where
  toFun k := ix1 k
  invFun i := i 0
  left_inv _ := rfl
  right_inv i := (eq_ix1 i).symm

/-- A scalar spread over the three entries reads the scalar. -/
theorem spread3 (x : FVec Ideal S_ .f32) (k : Fin 3) :
    (broadcastInDim S3 ![0] bcast_S1_S3_0 (broadcastInDim S1 ![] bcast_S_S1 x : FVec Ideal S1 .f32) : FVec Ideal S3 .f32) (ix1 k) = x ix0 := by
  rw [broadcastInDim_apply ![0] bcast_S1_S3_0 _ (ix1 k) (ix1 (0 : Fin 1)) (fun a => by match a with | ⟨0, _⟩ => rfl),
    broadcastInDim_scalar_apply]

theorem drop3 (i : S3.Idx) : reducesTo_S3_S_d0.drop i = ix0 := funext fun a => a.elim0

/-- The maximum of the three weights, from -∞ and against -∞ once more. -/
theorem max3 (s : FVec Ideal S3 .f32) :
    (maximumf (constant (F := Ideal) S_ .f32 0xFF800000#32) (Host.reduce FloatOps.maximumf s (constant (F := Ideal) S_ .f32 0xFF800000#32) reducesTo_S3_S_d0 h_S_) : FVec Ideal S_ .f32) ix0
      = Cert.Spec.rowMax (fun k => s (ix1 k)) := by
  rw [maximumf_apply, Host.reduce_eq_fold FloatOps.maximumf s _ reducesTo_S3_S_d0 h_S_ ix0]
  unfold Cert.Spec.rowMax Cert.Spec.NEG
  refine congrArg (max _) ?_
  rw [Finset.filter_true_of_mem (fun i _ => drop3 i), ← Finset.map_univ_equiv e3, Finset.fold_map]
  rfl

theorem swHost_apply (s : FVec Ideal S3 .f32) (k : Fin 3) :
    swHost s (ix1 k) = Cert.Spec.softmaxRow (fun i => s (ix1 i)) k := by
  unfold swHost Cert.Spec.softmaxRow
  show Ideal.div (Ideal.exp (s (ix1 k) - (broadcastInDim S3 ![0] bcast_S1_S3_0 (broadcastInDim (s := S_) S1 ![] bcast_S_S1 _ : FVec Ideal S1 .f32) : FVec Ideal S3 .f32) (ix1 k)))
      ((broadcastInDim S3 ![0] bcast_S1_S3_0 (broadcastInDim (s := S_) S1 ![] bcast_S_S1 _ : FVec Ideal S1 .f32) : FVec Ideal S3 .f32) (ix1 k)) = _
  rw [spread3, spread3, max3]
  refine congrArg (Ideal.div _) ?_
  refine (Ideal.hostReduceAdd_total reducesTo_S3_S_d0 (fun b => b.elim0) _ _ ix0).trans ?_
  show Ideal.ofBits .f32 0x00000000#32 + _ = _
  rw [Ideal.ofBits_zero_f32, zero_add, ← Fintype.sum_equiv e3 (fun u => Ideal.exp (s (ix1 u) - Cert.Spec.rowMax fun k => s (ix1 k))) _ (fun u => ?_)]
  show Ideal.exp (s (ix1 u) - Cert.Spec.rowMax fun k => s (ix1 k)) = Ideal.exp (s (ix1 u) - (broadcastInDim S3 ![0] bcast_S1_S3_0 (broadcastInDim (s := S_) S1 ![] bcast_S_S1 _ : FVec Ideal S1 .f32) : FVec Ideal S3 .f32) (ix1 u))
  rw [spread3, max3]

theorem sc0_apply (s : FVec Ideal S3 .f32) : sc0 s ix0 = Cert.Spec.softmaxRow (fun i => s (ix1 i)) 0 := by
  unfold sc0
  rw [shapeCast_dropUnit_apply, extractStridedSlice_apply ![0] (swHost s) slices_S3_S1_0 _ (ix1 (0 : Fin 3)) (fun a => by match a with | ⟨0, _⟩ => rfl)]
  exact swHost_apply s 0
theorem sc1_apply (s : FVec Ideal S3 .f32) : sc1 s ix0 = Cert.Spec.softmaxRow (fun i => s (ix1 i)) 1 := by
  unfold sc1
  rw [shapeCast_dropUnit_apply, extractStridedSlice_apply ![1] (swHost s) slices_S3_S1_1 _ (ix1 (1 : Fin 3)) (fun a => by match a with | ⟨0, _⟩ => rfl)]
  exact swHost_apply s 1
theorem sc2_apply (s : FVec Ideal S3 .f32) : sc2 s ix0 = Cert.Spec.softmaxRow (fun i => s (ix1 i)) 2 := by
  unfold sc2
  rw [shapeCast_dropUnit_apply, extractStridedSlice_apply ![2] (swHost s) slices_S3_S1_2 _ (ix1 (2 : Fin 3)) (fun a => by match a with | ⟨0, _⟩ => rfl)]
  exact swHost_apply s 2

end Cert.KernelIdeal.Val

end
-- ==== Proof.SpecLaw.lean ====
/-
  The algebra that joins the two arrangements of the residual row.

  The kernel lays the three groups side by side: one sum over 11 columns, the mixing weight of each group folded
  into its columns of the output table.  The reference keeps the groups apart and multiplies each group's sum by
  its mixing weight.  A sum over the 11 columns is the sum of the three groups' sums (addition of extended reals
  is commutative and associative), and a NONNEGATIVE REAL factor may be moved across a finite sum of extended
  reals: c · (p + q) = c · p + c · q holds for every p, q when 0 ≤ c < ∞.  The mixing weights are such factors:
  they are the softmax of three finite numbers.
-/
import proofs.«107425_j46832323395756_2_alg».proof.Proof.Spec
import Mathlib.Data.EReal.Operations

noncomputable section

namespace Cert.Spec

open Idealize.ShloMosaic

/-! ## Sums over the 11 columns -/

theorem sum11 (f : Fin 11 → EReal) :
    ∑ j : Fin 11, f j = (∑ j : Fin 2, f (c2 j) + ∑ j : Fin 3, f (c3 j)) + ∑ j : Fin 6, f (c6 j) := by
  simp only [Fin.sum_univ_succ, Fin.sum_univ_zero, c2, c3, c6, add_zero]
  simp only [Fin.val_zero, Fin.val_succ, Nat.zero_add, Nat.reduceAdd]
  simp only [add_assoc]
  rfl

theorem cat11_c2 (a : Fin 2 → EReal) (b : Fin 3 → EReal) (c : Fin 6 → EReal) (j : Fin 2) : cat11 a b c (c2 j) = a j := by
  have h : (c2 j).val < 2 := j.isLt
  unfold cat11; rw [dif_pos h]
  exact congrArg a (Fin.ext rfl)
theorem cat11_c3 (a : Fin 2 → EReal) (b : Fin 3 → EReal) (c : Fin 6 → EReal) (j : Fin 3) : cat11 a b c (c3 j) = b j := by
  have h1 : ¬ (c3 j).val < 2 := by show ¬ j.val + 2 < 2; omega
  have h2 : (c3 j).val < 5 := by show j.val + 2 < 5; have := j.isLt; omega
  unfold cat11; rw [dif_neg h1, dif_pos h2]
  exact congrArg b (Fin.ext (by show j.val + 2 - 2 = j.val; omega))
theorem cat11_c6 (a : Fin 2 → EReal) (b : Fin 3 → EReal) (c : Fin 6 → EReal) (j : Fin 6) : cat11 a b c (c6 j) = c j := by
  have h1 : ¬ (c6 j).val < 2 := by show ¬ j.val + 5 < 2; omega
  have h2 : ¬ (c6 j).val < 5 := by show ¬ j.val + 5 < 5; omega
  unfold cat11; rw [dif_neg h1, dif_neg h2]
  exact congrArg c (Fin.ext (by show j.val + 5 - 5 = j.val; omega))

/-! ## A nonnegative real factor moves across a finite sum -/

theorem coe_mul_sum {ι : Type*} (S : Finset ι) (r : ℝ) (hr : 0 ≤ r) (g : ι → EReal) :
    (r : EReal) * ∑ j ∈ S, g j = ∑ j ∈ S, (r : EReal) * g j := by
  classical
  induction S using Finset.induction_on with
  | empty => simp
  | insert a S ha ih => rw [Finset.sum_insert ha, Finset.sum_insert ha, EReal.left_distrib_of_nonneg_of_ne_top (EReal.coe_nonneg.mpr hr) (EReal.coe_ne_top r), ih]

theorem scale_proj {k : Nat} (r : ℝ) (hr : 0 ≤ r) (e : Fin k → EReal) (W : Fin k → EReal) :
    ∑ j : Fin k, e j * (W j * (r : EReal)) = (r : EReal) * ∑ j : Fin k, e j * W j := by
  rw [coe_mul_sum _ r hr]
  exact Finset.sum_congr rfl fun j _ => by rw [← mul_assoc, mul_comm]

/-- The kernel's arrangement of the residual row is the reference's, when the 11-direction table stacks the three
    input tables, the 11-column table lays the three output tables side by side each scaled by its mixing weight,
    and the mixing weights are nonnegative reals. -/
theorem outRowCat_eq_outRow (xr : Fin 2048 → EReal) (Wp : Fin 11 → Fin 2048 → EReal)
    (Wp2 : Fin 2 → Fin 2048 → EReal) (Wp3 : Fin 3 → Fin 2048 → EReal) (Wp6 : Fin 6 → Fin 2048 → EReal)
    (V2 : Fin 4 → Fin 2 → EReal) (V3 : Fin 8 → Fin 3 → EReal) (V6 : Fin 64 → Fin 6 → EReal)
    (Wo : Fin 2048 → Fin 11 → EReal)
    (Wo2 : Fin 2048 → Fin 2 → EReal) (Wo3 : Fin 2048 → Fin 3 → EReal) (Wo6 : Fin 2048 → Fin 6 → EReal)
    (sw : Fin 3 → EReal) (r : Fin 3 → ℝ) (hr : ∀ i, 0 ≤ r i) (hsw : ∀ i, sw i = (r i : EReal))
    (hp2 : ∀ j d, Wp (c2 j) d = Wp2 j d) (hp3 : ∀ j d, Wp (c3 j) d = Wp3 j d) (hp6 : ∀ j d, Wp (c6 j) d = Wp6 j d)
    (ho2 : ∀ d j, Wo d (c2 j) = Wo2 d j * sw 0) (ho3 : ∀ d j, Wo d (c3 j) = Wo3 d j * sw 1) (ho6 : ∀ d j, Wo d (c6 j) = Wo6 d j * sw 2)
    (d : Fin 2048) :
    outRowCat xr Wp V2 V3 V6 Wo d = outRow xr Wp2 Wp3 Wp6 V2 V3 V6 Wo2 Wo3 Wo6 sw d := by
  unfold outRowCat outRow proj
  rw [sum11]
  simp only [cat11_c2, cat11_c3, cat11_c6, ho2, ho3, ho6, hsw]
  rw [scale_proj (r 0) (hr 0), scale_proj (r 1) (hr 1), scale_proj (r 2) (hr 2)]
  rw [show (fun j => Wp (c2 j)) = Wp2 from funext fun j => funext fun d => hp2 j d,
    show (fun j => Wp (c3 j)) = Wp3 from funext fun j => funext fun d => hp3 j d,
    show (fun j => Wp (c6 j)) = Wp6 from funext fun j => funext fun d => hp6 j d]

/-! ## The softmax of finitely many finite numbers is a nonnegative real -/

theorem NEG_eq_bot : NEG = ⊥ := by
  unfold NEG
  simp [Ideal.ofBits, Ideal.ieee]

theorem coe_sum {ι : Type*} (S : Finset ι) (g : ι → ℝ) : ∑ j ∈ S, ((g j : ℝ) : EReal) = ((∑ j ∈ S, g j : ℝ) : EReal) := by
  classical
  induction S using Finset.induction_on with
  | empty => simp
  | insert a S ha ih => rw [Finset.sum_insert ha, Finset.sum_insert ha, ih, EReal.coe_add]

theorem fold_max_real {ι : Type*} (S : Finset ι) (hS : S.Nonempty) (f : ι → EReal) (hf : ∀ i, ∃ q : ℝ, f i = q) :
    ∃ q : ℝ, S.fold max ⊥ f = q := by
  classical
  induction S using Finset.induction_on with
  | empty => exact absurd hS Finset.not_nonempty_empty
  | insert a S ha ih =>
    rw [Finset.fold_insert ha]
    obtain ⟨q, hq⟩ := hf a
    rw [hq]
    by_cases hS' : S.Nonempty
    · obtain ⟨p, hp⟩ := ih hS'
      rw [hp]
      exact ⟨max q p, (EReal.coe_strictMono.monotone.map_max).symm⟩
    · rw [Finset.not_nonempty_iff_eq_empty.mp hS', Finset.fold_empty]
      exact ⟨q, max_eq_left bot_le⟩

/-- The softmax of a nonempty row of finite numbers: every entry is a nonnegative real. -/
theorem softmaxRow_real {n : Nat} [NeZero n] (f : Fin n → EReal) (hf : ∀ i, ∃ q : ℝ, f i = q) (v : Fin n) :
    ∃ q : ℝ, 0 ≤ q ∧ softmaxRow f v = q := by
  obtain ⟨μ, hμ⟩ := fold_max_real (Finset.univ : Finset (Fin n)) Finset.univ_nonempty f hf
  have hM : rowMax f = (μ : EReal) := by
    unfold rowMax; rw [NEG_eq_bot, hμ]; exact max_eq_right bot_le
  choose g hg using hf
  have he : ∀ u, Ideal.exp (f u - rowMax f) = ((Real.exp (g u - μ) : ℝ) : EReal) := fun u => by
    rw [hM, hg u, ← EReal.coe_sub]; rfl
  unfold softmaxRow
  rw [he v, Finset.sum_congr rfl (fun u _ => he u), coe_sum]
  have hpos : 0 < ∑ u : Fin n, Real.exp (g u - μ) :=
    Finset.sum_pos (fun u _ => Real.exp_pos _) Finset.univ_nonempty
  rw [Ideal.div_coe (ne_of_gt hpos), ← EReal.coe_mul]
  exact ⟨_, mul_nonneg (le_of_lt (Real.exp_pos _)) (by positivity), rfl⟩

end Cert.Spec

end
-- ==== Proof.SpecArr.lean ====
/-
  The four results as whole arrays: entry (b, t, ·) of each is the specification's row function of row (b, t) of x.
-/
import proofs.«107425_j46832323395756_2_alg».proof.Proof.Spec

noncomputable section

namespace Cert.Spec

open Idealize.ShloMosaic Idealize.ShloMosaic.ValueIdx

/-- The weights over the 2^k vertices, for every row of x. -/
def wArr {k nv : Nat} (a0 : (⟨3, ![8, 4096, 2048]⟩ : Shape).Idx → EReal) (wp : (⟨2, ![k, 2048]⟩ : Shape).Idx → EReal)
    (tb : (⟨2, ![nv, k]⟩ : Shape).Idx → EReal) : (⟨3, ![8, 4096, nv]⟩ : Shape).Idx → EReal :=
  fun i => wts (fun d => a0 (ix3 (i 0) (i 1) d)) (fun j d => wp (ix2 j d)) (fun u j => tb (ix2 u j)) (i 2)

/-- The residual output, for every row of x; the mixing weights are the softmax of the three scale weights. -/
def outArr (a0 : (⟨3, ![8, 4096, 2048]⟩ : Shape).Idx → EReal)
    (a1 : (⟨2, ![2, 2048]⟩ : Shape).Idx → EReal) (a2 : (⟨2, ![3, 2048]⟩ : Shape).Idx → EReal) (a3 : (⟨2, ![6, 2048]⟩ : Shape).Idx → EReal)
    (t2 : (⟨2, ![4, 2]⟩ : Shape).Idx → EReal) (t3 : (⟨2, ![8, 3]⟩ : Shape).Idx → EReal) (t6 : (⟨2, ![64, 6]⟩ : Shape).Idx → EReal)
    (a4 : (⟨2, ![2048, 2]⟩ : Shape).Idx → EReal) (a5 : (⟨2, ![2048, 3]⟩ : Shape).Idx → EReal) (a6 : (⟨2, ![2048, 6]⟩ : Shape).Idx → EReal)
    (a7 : (⟨1, ![3]⟩ : Shape).Idx → EReal) : (⟨3, ![8, 4096, 2048]⟩ : Shape).Idx → EReal :=
  fun i => outRow (fun d => a0 (ix3 (i 0) (i 1) d)) (fun j d => a1 (ix2 j d)) (fun j d => a2 (ix2 j d)) (fun j d => a3 (ix2 j d))
    (fun u j => t2 (ix2 u j)) (fun u j => t3 (ix2 u j)) (fun u j => t6 (ix2 u j))
    (fun d j => a4 (ix2 d j)) (fun d j => a5 (ix2 d j)) (fun d j => a6 (ix2 d j))
    (fun i => softmaxRow (fun k => a7 (ix1 k)) i) (i 2)

end Cert.Spec

end
-- ==== Proof.KRun.lean ====
/-
  The idealized kernel's run, read: @main ends with each of its four results at the specification's whole-array
  function of the argument arrays, and the arguments unchanged.  The one step that uses the precondition: the
  three scale weights are finite, so their softmax — the mixing weights — are nonnegative reals, and such a
  factor may be moved from the output table's columns to the front of each group's sum.
-/
import proofs.«107425_j46832323395756_2_alg».proof.Proof.KFinal
import proofs.«107425_j46832323395756_2_alg».proof.Proof.KHostIdx
import proofs.«107425_j46832323395756_2_alg».proof.Proof.SpecLaw
import proofs.«107425_j46832323395756_2_alg».proof.Proof.SpecArr

noncomputable section

namespace Cert.KernelIdeal.Val

open Idealize.ShloMosaic Idealize.ShloMosaic.TcCoe Idealize.ShloMosaic.ValueIdx
open Idealize.SL.Sem
open Cert.KernelIdeal Cert.KernelIdeal.Gen Cert.KernelIdeal.Fr

variable (m : (ℓ : Loc nD τ sig) → Buf (Elt Ideal) ℓ) (ρ : Dev nD → PrngReg)

/-- The three vertex tables as the program writes them. -/
def T2 : S4x2.Idx → EReal := fun i => FloatOps.ofBits (F := Ideal) .f32 (lit0 (S4x2.rowMajor i))
def T3 : S8x3.Idx → EReal := fun i => FloatOps.ofBits (F := Ideal) .f32 (lit1 (S8x3.rowMajor i))
def T6 : S64x6.Idx → EReal := fun i => FloatOps.ofBits (F := Ideal) .f32 (lit2 (S64x6.rowMajor i))

/-! ## The reshapes after the region -/

theorem unrows_apply {n : Nat} (G : (⟨2, ![32768, n]⟩ : Shape).Idx → EReal)
    (h : (⟨2, ![32768, n]⟩ : Shape).ShapeCasts ⟨3, ![8, 4096, n]⟩) (b : Fin 8) (t : Fin 4096) (e : Fin n) (r : Fin 32768)
    (hr : r.val = b.val * 4096 + t.val) : shapeCast ⟨3, ![8, 4096, n]⟩ G h (ix3 b t e) = G (ix2 r e) :=
  shapeCast_apply G h _ _ (by
    rw [Shape.rowMajor_val_three, Shape.rowMajor_val_two]
    show r.val * n + e.val = (b.val * 4096 + t.val) * n + e.val
    rw [hr])

theorem tail26 (c : Dev nD) : (Pipeline.afterTail₀ cfgs (dats m) 0 (V0 m) [hostOps1] c main_v26 : S8x4096x2048.Idx → EReal)
    = shapeCast S8x4096x2048 ((dats m 0 c).arrAt 6 cfg0.N : S32768x2048.Idx → EReal) shapeCasts_S32768x2048_S8x4096x2048 := by
  unfold Pipeline.afterTail₀
  show StableHlo.after hostOps1 _ (Proc.devRef .tc main_v26) = _
  after_results
  rw [Pipeline.withArrays_arr spec0 launch0.win.arr_inj c _ _ 6]
  rfl
theorem tail27 (c : Dev nD) : (Pipeline.afterTail₀ cfgs (dats m) 0 (V0 m) [hostOps1] c main_v27 : S8x4096x4.Idx → EReal)
    = shapeCast S8x4096x4 ((dats m 0 c).arrAt 7 cfg0.N : S32768x4.Idx → EReal) shapeCasts_S32768x4_S8x4096x4 := by
  unfold Pipeline.afterTail₀
  show StableHlo.after hostOps1 _ (Proc.devRef .tc main_v27) = _
  after_results
  rw [Pipeline.withArrays_arr spec0 launch0.win.arr_inj c _ _ 7]
  rfl
theorem tail28 (c : Dev nD) : (Pipeline.afterTail₀ cfgs (dats m) 0 (V0 m) [hostOps1] c main_v28 : S8x4096x8.Idx → EReal)
    = shapeCast S8x4096x8 ((dats m 0 c).arrAt 8 cfg0.N : S32768x8.Idx → EReal) shapeCasts_S32768x8_S8x4096x8 := by
  unfold Pipeline.afterTail₀
  show StableHlo.after hostOps1 _ (Proc.devRef .tc main_v28) = _
  after_results
  rw [Pipeline.withArrays_arr spec0 launch0.win.arr_inj c _ _ 8]
  rfl
theorem tail29 (c : Dev nD) : (Pipeline.afterTail₀ cfgs (dats m) 0 (V0 m) [hostOps1] c main_v29 : S8x4096x64.Idx → EReal)
    = shapeCast S8x4096x64 ((dats m 0 c).arrAt 9 cfg0.N : S32768x64.Idx → EReal) shapeCasts_S32768x64_S8x4096x64 := by
  unfold Pipeline.afterTail₀
  show StableHlo.after hostOps1 _ (Proc.devRef .tc main_v29) = _
  after_results
  rw [Pipeline.withArrays_arr spec0 launch0.win.arr_inj c _ _ 9]
  rfl

/-! ## The results as functions of the arguments -/

theorem row_lt (b : Fin 8) (t : Fin 4096) : b.val * 4096 + t.val < 32768 := by have := b.isLt; have := t.isLt; omega

theorem res27 (c : Dev nD) : (Pipeline.afterTail₀ cfgs (dats m) 0 (V0 m) [hostOps1] c main_v27 : S8x4096x4.Idx → EReal)
    = Cert.Spec.wArr (m ((c : Thread nD τ).loc main_arg0)) (m ((c : Thread nD τ).loc main_arg1)) T2 := by
  rw [tail27, final7]
  funext i
  obtain ⟨b, t, v, rfl⟩ : ∃ (b : Fin 8) (t : Fin 4096) (v : Fin 4), i = ix3 b t v := ⟨i 0, i 1, i 2, eq_ix3 i⟩
  rw [unrows_apply (G7 m c) _ b t v ⟨b.val * 4096 + t.val, row_lt b t⟩ rfl]
  show g7 m c ⟨b.val * 4096 + t.val, row_lt b t⟩ v = Cert.Spec.wts (fun d => m ((c : Thread nD τ).loc main_arg0) (ix3 b t d)) _ _ v
  unfold g7 xrow
  rw [V_v0, V_v1, V_cst]
  simp only [wpCat_c2, rows_apply _ b t _ ⟨b.val * 4096 + t.val, row_lt b t⟩ rfl]
  rfl

theorem res28 (c : Dev nD) : (Pipeline.afterTail₀ cfgs (dats m) 0 (V0 m) [hostOps1] c main_v28 : S8x4096x8.Idx → EReal)
    = Cert.Spec.wArr (m ((c : Thread nD τ).loc main_arg0)) (m ((c : Thread nD τ).loc main_arg2)) T3 := by
  rw [tail28, final8]
  funext i
  obtain ⟨b, t, v, rfl⟩ : ∃ (b : Fin 8) (t : Fin 4096) (v : Fin 8), i = ix3 b t v := ⟨i 0, i 1, i 2, eq_ix3 i⟩
  rw [unrows_apply (G8 m c) _ b t v ⟨b.val * 4096 + t.val, row_lt b t⟩ rfl]
  show g8 m c ⟨b.val * 4096 + t.val, row_lt b t⟩ v = Cert.Spec.wts (fun d => m ((c : Thread nD τ).loc main_arg0) (ix3 b t d)) _ _ v
  unfold g8 xrow
  rw [V_v0, V_v1, V_cst_0]
  simp only [wpCat_c3, rows_apply _ b t _ ⟨b.val * 4096 + t.val, row_lt b t⟩ rfl]
  rfl

theorem res29 (c : Dev nD) : (Pipeline.afterTail₀ cfgs (dats m) 0 (V0 m) [hostOps1] c main_v29 : S8x4096x64.Idx → EReal)
    = Cert.Spec.wArr (m ((c : Thread nD τ).loc main_arg0)) (m ((c : Thread nD τ).loc main_arg3)) T6 := by
  rw [tail29, final9]
  funext i
  obtain ⟨b, t, v, rfl⟩ : ∃ (b : Fin 8) (t : Fin 4096) (v : Fin 64), i = ix3 b t v := ⟨i 0, i 1, i 2, eq_ix3 i⟩
  rw [unrows_apply (G9 m c) _ b t v ⟨b.val * 4096 + t.val, row_lt b t⟩ rfl]
  show g9 m c ⟨b.val * 4096 + t.val, row_lt b t⟩ v = Cert.Spec.wts (fun d => m ((c : Thread nD τ).loc main_arg0) (ix3 b t d)) _ _ v
  unfold g9 xrow
  rw [V_v0, V_v1, V_cst_1]
  simp only [wpCat_c6, rows_apply _ b t _ ⟨b.val * 4096 + t.val, row_lt b t⟩ rfl]
  rfl

theorem res26 (c : Dev nD)
    (hs : ∀ k : Fin 3, ∃ q : ℝ, (m ((c : Thread nD τ).loc main_arg7) : S3.Idx → EReal) (ix1 k) = (q : EReal)) :
    (Pipeline.afterTail₀ cfgs (dats m) 0 (V0 m) [hostOps1] c main_v26 : S8x4096x2048.Idx → EReal)
    = Cert.Spec.outArr (m ((c : Thread nD τ).loc main_arg0)) (m ((c : Thread nD τ).loc main_arg1)) (m ((c : Thread nD τ).loc main_arg2))
        (m ((c : Thread nD τ).loc main_arg3)) T2 T3 T6 (m ((c : Thread nD τ).loc main_arg4)) (m ((c : Thread nD τ).loc main_arg5))
        (m ((c : Thread nD τ).loc main_arg6)) (m ((c : Thread nD τ).loc main_arg7)) := by
  rw [tail26, final6]
  funext i
  obtain ⟨b, t, d, rfl⟩ : ∃ (b : Fin 8) (t : Fin 4096) (d : Fin 2048), i = ix3 b t d := ⟨i 0, i 1, i 2, eq_ix3 i⟩
  rw [unrows_apply (G6 m c) _ b t d ⟨b.val * 4096 + t.val, row_lt b t⟩ rfl]
  show g6 m c ⟨b.val * 4096 + t.val, row_lt b t⟩ d = Cert.Spec.outRow (fun d => m ((c : Thread nD τ).loc main_arg0) (ix3 b t d)) _ _ _ _ _ _ _ _ _ _ d
  unfold g6 xrow
  rw [V_v0, V_v1, V_v24, V_cst, V_cst_0, V_cst_1]
  simp only [rows_apply _ b t _ ⟨b.val * 4096 + t.val, row_lt b t⟩ rfl]
  choose q hq0 hq using fun k => Cert.Spec.softmaxRow_real (fun k => (m ((c : Thread nD τ).loc main_arg7) : S3.Idx → EReal) (ix1 k)) hs k
  refine Cert.Spec.outRowCat_eq_outRow _ _ _ _ _ _ _ _ _ _ _ _ _ q hq0 hq ?_ ?_ ?_ ?_ ?_ ?_ d
  · intro j d'; exact wpCat_c2 _ _ _ j d'
  · intro j d'; exact wpCat_c3 _ _ _ j d'
  · intro j d'; exact wpCat_c6 _ _ _ j d'
  · intro d' j; rw [woCat_c2, sc0_apply]
  · intro d' j; rw [woCat_c3, sc1_apply]
  · intro d' j; rw [woCat_c6, sc2_apply]

/-! ## The run -/

/-- Every weakly fair execution of the idealized kernel's @main terminates with the four results at the
    specification's arrays of the arguments, and the arguments unchanged. -/
theorem run (hs : ∀ (c : Dev nD) (k : Fin 3), ∃ q : ℝ, (m ((c : Thread nD τ).loc main_arg7) : S3.Idx → EReal) (ix1 k) = (q : EReal)) :
    θ_run defs (onTc (τ := τ) (main (F := Ideal))) ⟨m, fun _ => 0, ρ⟩ (fun r => ∀ c : Dev nD,
      r.2.mem ((c.tc : Thread nD τ).loc main_v26) = Cert.Spec.outArr (m ((c : Thread nD τ).loc main_arg0)) (m ((c : Thread nD τ).loc main_arg1)) (m ((c : Thread nD τ).loc main_arg2))
        (m ((c : Thread nD τ).loc main_arg3)) T2 T3 T6 (m ((c : Thread nD τ).loc main_arg4)) (m ((c : Thread nD τ).loc main_arg5))
        (m ((c : Thread nD τ).loc main_arg6)) (m ((c : Thread nD τ).loc main_arg7))
      ∧ r.2.mem ((c.tc : Thread nD τ).loc main_v27) = Cert.Spec.wArr (m ((c : Thread nD τ).loc main_arg0)) (m ((c : Thread nD τ).loc main_arg1)) T2
      ∧ r.2.mem ((c.tc : Thread nD τ).loc main_v28) = Cert.Spec.wArr (m ((c : Thread nD τ).loc main_arg0)) (m ((c : Thread nD τ).loc main_arg2)) T3
      ∧ r.2.mem ((c.tc : Thread nD τ).loc main_v29) = Cert.Spec.wArr (m ((c : Thread nD τ).loc main_arg0)) (m ((c : Thread nD τ).loc main_arg3)) T6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      ((h c).2 main_v26 (Pipeline.mem_restRefs_of main_v26 (by decide) (by decide))).trans (res26 m c (hs c)),
      ((h c).2 main_v27 (Pipeline.mem_restRefs_of main_v27 (by decide) (by decide))).trans (res27 m c),
      ((h c).2 main_v28 (Pipeline.mem_restRefs_of main_v28 (by decide) (by decide))).trans (res28 m c),
      ((h c).2 main_v29 (Pipeline.mem_restRefs_of main_v29 (by decide) (by decide))).trans (res29 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Val

end
-- ==== Proof.RefRun.lean ====
/-
  The reference program run to its end.

  Its 97 host operations are listed in the order the program performs them, in the program's two windows, and the
  run is read back buffer by buffer: after the last operation the four result buffers hold the composed functions
  `resOut`, `resW2`, `resW3`, `resW6` of the eight argument arrays, and the argument arrays are what they were.

  The composed functions are written group by group. For each of the three groups (2, 3, 6 directions; 4, 8, 64
  vertices): the similarities `sim`, the row maxima `mx`, the exponentials `ex`, the weights `resW` (a result), the
  embedding `emb`. The three mixing weights are a softmax `sw` of the scale array, each read out as a scalar; the
  residual `resOut` adds to the input the three embeddings projected back to 2048 columns, each times its weight.
-/
import proofs.«107425_j46832323395756_2_alg».proof.ReferenceIdeal
import proofs.«107425_j46832323395756_2_alg».proof.Proof.Gen.ReferenceIdeal
import proofs.«107425_j46832323395756_2_alg».proof.Defs
import proofs.«107425_j46832323395756_2_alg».proof.Proof.Gen.Pre_finite_inputs
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

/-! ## The results as functions of the arguments -/

/-! ### The group of 2 directions and its 4 vertices -/

/-- The 4 sign vertices in 2 coordinates, as the program writes the table. -/
def T2 : FVec Ideal S4x2 .f32 := fun i => FloatOps.ofBits (F := Ideal) .f32 (lit0 (S4x2.rowMajor i))

/-- The similarities of every row with the 4 vertices, over the temperature: tanh of the projection, times the table, divided by 1. -/
def sim2 (x : FVec Ideal S8x4096x2048 .f32) (Wp : FVec Ideal S2x2048 .f32) : FVec Ideal S8x4096x4 .f32 :=
  Host.divf (Host.dotGeneral dot_S8x4096x2_S4x2_S8x4096x4_2_1_01_0_n_n none (Host.tanh (Host.dotGeneral dot_S8x4096x2048_S2x2048_S8x4096x2_2_1_01_0_n_n none x Wp)) T2) (broadcastInDim S8x4096x4 ![] bcast_S_S8x4096x4 (constant S_ .f32 0x3F800000#32))

/-- Each row's maximum similarity (from -∞, and once more against -∞), laid back along the row. -/
def mx2 (x : FVec Ideal S8x4096x2048 .f32) (Wp : FVec Ideal S2x2048 .f32) : FVec Ideal S8x4096x4 .f32 :=
  broadcastInDim S8x4096x4 ![0, 1, 2] bcast_S8x4096x1_S8x4096x4_0_1_2 (broadcastInDim S8x4096x1 ![0, 1] bcast_S8x4096_S8x4096x1_0_1 (maximumf (broadcastInDim S8x4096 ![] bcast_S_S8x4096 (constant S_ .f32 0xFF800000#32)) (Host.reduce FloatOps.maximumf (sim2 x Wp) (constant S_ .f32 0xFF800000#32) reducesTo_S8x4096x4_S8x4096_d2 h_S_)))

/-- The exponentials of the similarities less the row's maximum. -/
def ex2 (x : FVec Ideal S8x4096x2048 .f32) (Wp : FVec Ideal S2x2048 .f32) : FVec Ideal S8x4096x4 .f32 :=
  Host.exp (subf (sim2 x Wp) (mx2 x Wp))

/-- The weights over the 4 vertices: the exponentials divided by their row sum. -/
def resW2 (x : FVec Ideal S8x4096x2048 .f32) (Wp : FVec Ideal S2x2048 .f32) : FVec Ideal S8x4096x4 .f32 :=
  Host.divf (ex2 x Wp) (broadcastInDim S8x4096x4 ![0, 1, 2] bcast_S8x4096x1_S8x4096x4_0_1_2 (broadcastInDim S8x4096x1 ![0, 1] bcast_S8x4096_S8x4096x1_0_1 (Host.reduceAdd (ex2 x Wp) (constant S_ .f32 0x00000000#32) reducesTo_S8x4096x4_S8x4096_d2 h_S_)))

/-- The embedding: the weights times the table of vertices. -/
def emb2 (x : FVec Ideal S8x4096x2048 .f32) (Wp : FVec Ideal S2x2048 .f32) : FVec Ideal S8x4096x2 .f32 :=
  Host.dotGeneral dot_S8x4096x4_S4x2_S8x4096x2_2_0_01_1_n_n none (resW2 x Wp) T2

/-! ### The group of 3 directions and its 8 vertices -/

/-- The 8 sign vertices in 3 coordinates, as the program writes the table. -/
def T3 : FVec Ideal S8x3 .f32 := fun i => FloatOps.ofBits (F := Ideal) .f32 (lit1 (S8x3.rowMajor i))

/-- The similarities of every row with the 8 vertices, over the temperature: tanh of the projection, times the table, divided by 1. -/
def sim3 (x : FVec Ideal S8x4096x2048 .f32) (Wp : FVec Ideal S3x2048 .f32) : FVec Ideal S8x4096x8 .f32 :=
  Host.divf (Host.dotGeneral dot_S8x4096x3_S8x3_S8x4096x8_2_1_01_0_n_n none (Host.tanh (Host.dotGeneral dot_S8x4096x2048_S3x2048_S8x4096x3_2_1_01_0_n_n none x Wp)) T3) (broadcastInDim S8x4096x8 ![] bcast_S_S8x4096x8 (constant S_ .f32 0x3F800000#32))

/-- Each row's maximum similarity (from -∞, and once more against -∞), laid back along the row. -/
def mx3 (x : FVec Ideal S8x4096x2048 .f32) (Wp : FVec Ideal S3x2048 .f32) : FVec Ideal S8x4096x8 .f32 :=
  broadcastInDim S8x4096x8 ![0, 1, 2] bcast_S8x4096x1_S8x4096x8_0_1_2 (broadcastInDim S8x4096x1 ![0, 1] bcast_S8x4096_S8x4096x1_0_1 (maximumf (broadcastInDim S8x4096 ![] bcast_S_S8x4096 (constant S_ .f32 0xFF800000#32)) (Host.reduce FloatOps.maximumf (sim3 x Wp) (constant S_ .f32 0xFF800000#32) reducesTo_S8x4096x8_S8x4096_d2 h_S_)))

/-- The exponentials of the similarities less the row's maximum. -/
def ex3 (x : FVec Ideal S8x4096x2048 .f32) (Wp : FVec Ideal S3x2048 .f32) : FVec Ideal S8x4096x8 .f32 :=
  Host.exp (subf (sim3 x Wp) (mx3 x Wp))

/-- The weights over the 8 vertices: the exponentials divided by their row sum. -/
def resW3 (x : FVec Ideal S8x4096x2048 .f32) (Wp : FVec Ideal S3x2048 .f32) : FVec Ideal S8x4096x8 .f32 :=
  Host.divf (ex3 x Wp) (broadcastInDim S8x4096x8 ![0, 1, 2] bcast_S8x4096x1_S8x4096x8_0_1_2 (broadcastInDim S8x4096x1 ![0, 1] bcast_S8x4096_S8x4096x1_0_1 (Host.reduceAdd (ex3 x Wp) (constant S_ .f32 0x00000000#32) reducesTo_S8x4096x8_S8x4096_d2 h_S_)))

/-- The embedding: the weights times the table of vertices. -/
def emb3 (x : FVec Ideal S8x4096x2048 .f32) (Wp : FVec Ideal S3x2048 .f32) : FVec Ideal S8x4096x3 .f32 :=
  Host.dotGeneral dot_S8x4096x8_S8x3_S8x4096x3_2_0_01_1_n_n none (resW3 x Wp) T3

/-! ### The group of 6 directions and its 64 vertices -/

/-- The 64 sign vertices in 6 coordinates, as the program writes the table. -/
def T6 : FVec Ideal S64x6 .f32 := fun i => FloatOps.ofBits (F := Ideal) .f32 (lit2 (S64x6.rowMajor i))

/-- The similarities of every row with the 64 vertices, over the temperature: tanh of the projection, times the table, divided by 1. -/
def sim6 (x : FVec Ideal S8x4096x2048 .f32) (Wp : FVec Ideal S6x2048 .f32) : FVec Ideal S8x4096x64 .f32 :=
  Host.divf (Host.dotGeneral dot_S8x4096x6_S64x6_S8x4096x64_2_1_01_0_n_n none (Host.tanh (Host.dotGeneral dot_S8x4096x2048_S6x2048_S8x4096x6_2_1_01_0_n_n none x Wp)) T6) (broadcastInDim S8x4096x64 ![] bcast_S_S8x4096x64 (constant S_ .f32 0x3F800000#32))

/-- Each row's maximum similarity (from -∞, and once more against -∞), laid back along the row. -/
def mx6 (x : FVec Ideal S8x4096x2048 .f32) (Wp : FVec Ideal S6x2048 .f32) : FVec Ideal S8x4096x64 .f32 :=
  broadcastInDim S8x4096x64 ![0, 1, 2] bcast_S8x4096x1_S8x4096x64_0_1_2 (broadcastInDim S8x4096x1 ![0, 1] bcast_S8x4096_S8x4096x1_0_1 (maximumf (broadcastInDim S8x4096 ![] bcast_S_S8x4096 (constant S_ .f32 0xFF800000#32)) (Host.reduce FloatOps.maximumf (sim6 x Wp) (constant S_ .f32 0xFF800000#32) reducesTo_S8x4096x64_S8x4096_d2 h_S_)))

/-- The exponentials of the similarities less the row's maximum. -/
def ex6 (x : FVec Ideal S8x4096x2048 .f32) (Wp : FVec Ideal S6x2048 .f32) : FVec Ideal S8x4096x64 .f32 :=
  Host.exp (subf (sim6 x Wp) (mx6 x Wp))

/-- The weights over the 64 vertices: the exponentials divided by their row sum. -/
def resW6 (x : FVec Ideal S8x4096x2048 .f32) (Wp : FVec Ideal S6x2048 .f32) : FVec Ideal S8x4096x64 .f32 :=
  Host.divf (ex6 x Wp) (broadcastInDim S8x4096x64 ![0, 1, 2] bcast_S8x4096x1_S8x4096x64_0_1_2 (broadcastInDim S8x4096x1 ![0, 1] bcast_S8x4096_S8x4096x1_0_1 (Host.reduceAdd (ex6 x Wp) (constant S_ .f32 0x00000000#32) reducesTo_S8x4096x64_S8x4096_d2 h_S_)))

/-- The embedding: the weights times the table of vertices. -/
def emb6 (x : FVec Ideal S8x4096x2048 .f32) (Wp : FVec Ideal S6x2048 .f32) : FVec Ideal S8x4096x6 .f32 :=
  Host.dotGeneral dot_S8x4096x64_S64x6_S8x4096x6_2_0_01_1_n_n none (resW6 x Wp) T6

/-! ### The mixing weights and the residual -/

/-- The exponentials of the scale array less its maximum (from -∞, and once more against -∞). -/
def swExp (s : FVec Ideal S3 .f32) : FVec Ideal S3 .f32 :=
  Host.exp (subf s (broadcastInDim S3 ![0] bcast_S1_S3_0 (broadcastInDim S1 ![] bcast_S_S1 (maximumf (constant S_ .f32 0xFF800000#32) (Host.reduce FloatOps.maximumf s (constant S_ .f32 0xFF800000#32) reducesTo_S3_S_d0 h_S_)))))

/-- The three mixing weights: the softmax of the scale array. -/
def sw (s : FVec Ideal S3 .f32) : FVec Ideal S3 .f32 :=
  Host.divf (swExp s) (broadcastInDim S3 ![0] bcast_S1_S3_0 (broadcastInDim S1 ![] bcast_S_S1 (Host.reduceAdd (swExp s) (constant S_ .f32 0x00000000#32) reducesTo_S3_S_d0 h_S_)))

/-- The mixing weights read out one by one as scalars. -/
def sw0 (s : FVec Ideal S3 .f32) : FVec Ideal S_ .f32 := shapeCast S_ (extractStridedSlice S1 ![0] (sw s) slices_S3_S1_0) shapeCasts_S1_S_
def sw1 (s : FVec Ideal S3 .f32) : FVec Ideal S_ .f32 := shapeCast S_ (extractStridedSlice S1 ![1] (sw s) slices_S3_S1_1) shapeCasts_S1_S_
def sw2 (s : FVec Ideal S3 .f32) : FVec Ideal S_ .f32 := shapeCast S_ (extractStridedSlice S1 ![2] (sw s) slices_S3_S1_2) shapeCasts_S1_S_

/-- The residual: the input plus the three embeddings projected back, each times its mixing weight. -/
def resOut (x : FVec Ideal S8x4096x2048 .f32) (Wp2 : FVec Ideal S2x2048 .f32) (Wp3 : FVec Ideal S3x2048 .f32) (Wp6 : FVec Ideal S6x2048 .f32)
    (Wo2 : FVec Ideal S2048x2 .f32) (Wo3 : FVec Ideal S2048x3 .f32) (Wo6 : FVec Ideal S2048x6 .f32) (s : FVec Ideal S3 .f32) : FVec Ideal S8x4096x2048 .f32 :=
  addf x (addf (addf
    (mulf (broadcastInDim S8x4096x2048 ![] bcast_S_S8x4096x2048 (sw0 s)) (Host.dotGeneral dot_S8x4096x2_S2048x2_S8x4096x2048_2_1_01_0_n_n none (emb2 x Wp2) Wo2))
    (mulf (broadcastInDim S8x4096x2048 ![] bcast_S_S8x4096x2048 (sw1 s)) (Host.dotGeneral dot_S8x4096x3_S2048x3_S8x4096x2048_2_1_01_0_n_n none (emb3 x Wp3) Wo3)))
    (mulf (broadcastInDim S8x4096x2048 ![] bcast_S_S8x4096x2048 (sw2 s)) (Host.dotGeneral dot_S8x4096x6_S2048x6_S8x4096x2048_2_1_01_0_n_n none (emb6 x Wp6) Wo6)))

/-! ## The program as a list of operations -/

section Program
variable {F : FTy → Type} [FloatOps F]

/-- The operations of the program's first window, in order. -/
abbrev ops_part0 : List (HloOp τ sig (Elt F)) :=
  [ nullary main_cst (fun i => FloatOps.ofBits .f32 (lit0 (S4x2.rowMajor i))),
    nullary main_cst_0 (fun i => FloatOps.ofBits .f32 (lit1 (S8x3.rowMajor i))),
    nullary main_cst_1 (fun i => FloatOps.ofBits .f32 (lit2 (S64x6.rowMajor i))),
    binary main_arg0 main_arg1 main_v0 ((fun l r => Host.dotGeneral dot_S8x4096x2048_S2x2048_S8x4096x2_2_1_01_0_n_n none l r) : (⟨S8x4096x2048, .f32⟩ : BufTy).Contents (Elt F) → (⟨S2x2048, .f32⟩ : BufTy).Contents (Elt F) → (⟨S8x4096x2, .f32⟩ : BufTy).Contents (Elt F)),
    unary main_v0 main_v1 (Host.tanh : (⟨S8x4096x2, .f32⟩ : BufTy).Contents (Elt F) → (⟨S8x4096x2, .f32⟩ : BufTy).Contents (Elt F)),
    binary main_v1 main_cst main_v2 ((fun l r => Host.dotGeneral dot_S8x4096x2_S4x2_S8x4096x4_2_1_01_0_n_n none l r) : (⟨S8x4096x2, .f32⟩ : BufTy).Contents (Elt F) → (⟨S4x2, .f32⟩ : BufTy).Contents (Elt F) → (⟨S8x4096x4, .f32⟩ : BufTy).Contents (Elt F)),
    nullary main_cst_2 (constant S_ .f32 0x3F800000#32),
    unary main_cst_2 main_v3 (broadcastInDim S8x4096x4 ![] bcast_S_S8x4096x4 : (⟨S_, .f32⟩ : BufTy).Contents (Elt F) → (⟨S8x4096x4, .f32⟩ : BufTy).Contents (Elt F)),
    binary main_v2 main_v3 main_v4 (Host.divf : (⟨S8x4096x4, .f32⟩ : BufTy).Contents (Elt F) → (⟨S8x4096x4, .f32⟩ : BufTy).Contents (Elt F) → (⟨S8x4096x4, .f32⟩ : BufTy).Contents (Elt F)),
    nullary main_cst_3 (constant S_ .f32 0xFF800000#32),
    binary main_v4 main_cst_3 main_v5 ((fun x v => Host.reduce FloatOps.maximumf x v reducesTo_S8x4096x4_S8x4096_d2 h_S_) : (⟨S8x4096x4, .f32⟩ : BufTy).Contents (Elt F) → (⟨S_, .f32⟩ : BufTy).Contents (Elt F) → (⟨S8x4096, .f32⟩ : BufTy).Contents (Elt F)),
    nullary main_cst_4 (constant S_ .f32 0xFF800000#32),
    unary main_cst_4 main_v6 (broadcastInDim S8x4096 ![] bcast_S_S8x4096 : (⟨S_, .f32⟩ : BufTy).Contents (Elt F) → (⟨S8x4096, .f32⟩ : BufTy).Contents (Elt F)),
    binary main_v6 main_v5 main_v7 (maximumf : (⟨S8x4096, .f32⟩ : BufTy).Contents (Elt F) → (⟨S8x4096, .f32⟩ : BufTy).Contents (Elt F) → (⟨S8x4096, .f32⟩ : BufTy).Contents (Elt F)),
    unary main_v7 main_v8 (broadcastInDim S8x4096x1 ![0, 1] bcast_S8x4096_S8x4096x1_0_1 : (⟨S8x4096, .f32⟩ : BufTy).Contents (Elt F) → (⟨S8x4096x1, .f32⟩ : BufTy).Contents (Elt F)),
    unary main_v8 main_v9 (broadcastInDim S8x4096x4 ![0, 1, 2] bcast_S8x4096x1_S8x4096x4_0_1_2 : (⟨S8x4096x1, .f32⟩ : BufTy).Contents (Elt F) → (⟨S8x4096x4, .f32⟩ : BufTy).Contents (Elt F)),
    binary main_v4 main_v9 main_v10 (subf : (⟨S8x4096x4, .f32⟩ : BufTy).Contents (Elt F) → (⟨S8x4096x4, .f32⟩ : BufTy).Contents (Elt F) → (⟨S8x4096x4, .f32⟩ : BufTy).Contents (Elt F)),
    unary main_v10 main_v11 (Host.exp : (⟨S8x4096x4, .f32⟩ : BufTy).Contents (Elt F) → (⟨S8x4096x4, .f32⟩ : BufTy).Contents (Elt F)),
    nullary main_cst_5 (constant S_ .f32 0x00000000#32),
    binary main_v11 main_cst_5 main_v12 ((fun x v => Host.reduceAdd x v reducesTo_S8x4096x4_S8x4096_d2 h_S_) : (⟨S8x4096x4, .f32⟩ : BufTy).Contents (Elt F) → (⟨S_, .f32⟩ : BufTy).Contents (Elt F) → (⟨S8x4096, .f32⟩ : BufTy).Contents (Elt F)),
    unary main_v12 main_v13 (broadcastInDim S8x4096x1 ![0, 1] bcast_S8x4096_S8x4096x1_0_1 : (⟨S8x4096, .f32⟩ : BufTy).Contents (Elt F) → (⟨S8x4096x1, .f32⟩ : BufTy).Contents (Elt F)),
    unary main_v13 main_v14 (broadcastInDim S8x4096x4 ![0, 1, 2] bcast_S8x4096x1_S8x4096x4_0_1_2 : (⟨S8x4096x1, .f32⟩ : BufTy).Contents (Elt F) → (⟨S8x4096x4, .f32⟩ : BufTy).Contents (Elt F)),
    binary main_v11 main_v14 main_v15 (Host.divf : (⟨S8x4096x4, .f32⟩ : BufTy).Contents (Elt F) → (⟨S8x4096x4, .f32⟩ : BufTy).Contents (Elt F) → (⟨S8x4096x4, .f32⟩ : BufTy).Contents (Elt F)),
    binary main_v15 main_cst main_v16 ((fun l r => Host.dotGeneral dot_S8x4096x4_S4x2_S8x4096x2_2_0_01_1_n_n none l r) : (⟨S8x4096x4, .f32⟩ : BufTy).Contents (Elt F) → (⟨S4x2, .f32⟩ : BufTy).Contents (Elt F) → (⟨S8x4096x2, .f32⟩ : BufTy).Contents (Elt F)),
    binary main_arg0 main_arg2 main_v17 ((fun l r => Host.dotGeneral dot_S8x4096x2048_S3x2048_S8x4096x3_2_1_01_0_n_n none l r) : (⟨S8x4096x2048, .f32⟩ : BufTy).Contents (Elt F) → (⟨S3x2048, .f32⟩ : BufTy).Contents (Elt F) → (⟨S8x4096x3, .f32⟩ : BufTy).Contents (Elt F)),
    unary main_v17 main_v18 (Host.tanh : (⟨S8x4096x3, .f32⟩ : BufTy).Contents (Elt F) → (⟨S8x4096x3, .f32⟩ : BufTy).Contents (Elt F)),
    binary main_v18 main_cst_0 main_v19 ((fun l r => Host.dotGeneral dot_S8x4096x3_S8x3_S8x4096x8_2_1_01_0_n_n none l r) : (⟨S8x4096x3, .f32⟩ : BufTy).Contents (Elt F) → (⟨S8x3, .f32⟩ : BufTy).Contents (Elt F) → (⟨S8x4096x8, .f32⟩ : BufTy).Contents (Elt F)),
    nullary main_cst_6 (constant S_ .f32 0x3F800000#32),
    unary main_cst_6 main_v20 (broadcastInDim S8x4096x8 ![] bcast_S_S8x4096x8 : (⟨S_, .f32⟩ : BufTy).Contents (Elt F) → (⟨S8x4096x8, .f32⟩ : BufTy).Contents (Elt F)),
    binary main_v19 main_v20 main_v21 (Host.divf : (⟨S8x4096x8, .f32⟩ : BufTy).Contents (Elt F) → (⟨S8x4096x8, .f32⟩ : BufTy).Contents (Elt F) → (⟨S8x4096x8, .f32⟩ : BufTy).Contents (Elt F)),
    nullary main_cst_7 (constant S_ .f32 0xFF800000#32),
    binary main_v21 main_cst_7 main_v22 ((fun x v => Host.reduce FloatOps.maximumf x v reducesTo_S8x4096x8_S8x4096_d2 h_S_) : (⟨S8x4096x8, .f32⟩ : BufTy).Contents (Elt F) → (⟨S_, .f32⟩ : BufTy).Contents (Elt F) → (⟨S8x4096, .f32⟩ : BufTy).Contents (Elt F)),
    nullary main_cst_8 (constant S_ .f32 0xFF800000#32),
    unary main_cst_8 main_v23 (broadcastInDim S8x4096 ![] bcast_S_S8x4096 : (⟨S_, .f32⟩ : BufTy).Contents (Elt F) → (⟨S8x4096, .f32⟩ : BufTy).Contents (Elt F)),
    binary main_v23 main_v22 main_v24 (maximumf : (⟨S8x4096, .f32⟩ : BufTy).Contents (Elt F) → (⟨S8x4096, .f32⟩ : BufTy).Contents (Elt F) → (⟨S8x4096, .f32⟩ : BufTy).Contents (Elt F)),
    unary main_v24 main_v25 (broadcastInDim S8x4096x1 ![0, 1] bcast_S8x4096_S8x4096x1_0_1 : (⟨S8x4096, .f32⟩ : BufTy).Contents (Elt F) → (⟨S8x4096x1, .f32⟩ : BufTy).Contents (Elt F)),
    unary main_v25 main_v26 (broadcastInDim S8x4096x8 ![0, 1, 2] bcast_S8x4096x1_S8x4096x8_0_1_2 : (⟨S8x4096x1, .f32⟩ : BufTy).Contents (Elt F) → (⟨S8x4096x8, .f32⟩ : BufTy).Contents (Elt F)),
    binary main_v21 main_v26 main_v27 (subf : (⟨S8x4096x8, .f32⟩ : BufTy).Contents (Elt F) → (⟨S8x4096x8, .f32⟩ : BufTy).Contents (Elt F) → (⟨S8x4096x8, .f32⟩ : BufTy).Contents (Elt F)),
    unary main_v27 main_v28 (Host.exp : (⟨S8x4096x8, .f32⟩ : BufTy).Contents (Elt F) → (⟨S8x4096x8, .f32⟩ : BufTy).Contents (Elt F)),
    nullary main_cst_9 (constant S_ .f32 0x00000000#32),
    binary main_v28 main_cst_9 main_v29 ((fun x v => Host.reduceAdd x v reducesTo_S8x4096x8_S8x4096_d2 h_S_) : (⟨S8x4096x8, .f32⟩ : BufTy).Contents (Elt F) → (⟨S_, .f32⟩ : BufTy).Contents (Elt F) → (⟨S8x4096, .f32⟩ : BufTy).Contents (Elt F)),
    unary main_v29 main_v30 (broadcastInDim S8x4096x1 ![0, 1] bcast_S8x4096_S8x4096x1_0_1 : (⟨S8x4096, .f32⟩ : BufTy).Contents (Elt F) → (⟨S8x4096x1, .f32⟩ : BufTy).Contents (Elt F)),
    unary main_v30 main_v31 (broadcastInDim S8x4096x8 ![0, 1, 2] bcast_S8x4096x1_S8x4096x8_0_1_2 : (⟨S8x4096x1, .f32⟩ : BufTy).Contents (Elt F) → (⟨S8x4096x8, .f32⟩ : BufTy).Contents (Elt F)),
    binary main_v28 main_v31 main_v32 (Host.divf : (⟨S8x4096x8, .f32⟩ : BufTy).Contents (Elt F) → (⟨S8x4096x8, .f32⟩ : BufTy).Contents (Elt F) → (⟨S8x4096x8, .f32⟩ : BufTy).Contents (Elt F)),
    binary main_v32 main_cst_0 main_v33 ((fun l r => Host.dotGeneral dot_S8x4096x8_S8x3_S8x4096x3_2_0_01_1_n_n none l r) : (⟨S8x4096x8, .f32⟩ : BufTy).Contents (Elt F) → (⟨S8x3, .f32⟩ : BufTy).Contents (Elt F) → (⟨S8x4096x3, .f32⟩ : BufTy).Contents (Elt F)),
    binary main_arg0 main_arg3 main_v34 ((fun l r => Host.dotGeneral dot_S8x4096x2048_S6x2048_S8x4096x6_2_1_01_0_n_n none l r) : (⟨S8x4096x2048, .f32⟩ : BufTy).Contents (Elt F) → (⟨S6x2048, .f32⟩ : BufTy).Contents (Elt F) → (⟨S8x4096x6, .f32⟩ : BufTy).Contents (Elt F)),
    unary main_v34 main_v35 (Host.tanh : (⟨S8x4096x6, .f32⟩ : BufTy).Contents (Elt F) → (⟨S8x4096x6, .f32⟩ : BufTy).Contents (Elt F)),
    binary main_v35 main_cst_1 main_v36 ((fun l r => Host.dotGeneral dot_S8x4096x6_S64x6_S8x4096x64_2_1_01_0_n_n none l r) : (⟨S8x4096x6, .f32⟩ : BufTy).Contents (Elt F) → (⟨S64x6, .f32⟩ : BufTy).Contents (Elt F) → (⟨S8x4096x64, .f32⟩ : BufTy).Contents (Elt F)),
    nullary main_cst_10 (constant S_ .f32 0x3F800000#32),
    unary main_cst_10 main_v37 (broadcastInDim S8x4096x64 ![] bcast_S_S8x4096x64 : (⟨S_, .f32⟩ : BufTy).Contents (Elt F) → (⟨S8x4096x64, .f32⟩ : BufTy).Contents (Elt F)),
    binary main_v36 main_v37 main_v38 (Host.divf : (⟨S8x4096x64, .f32⟩ : BufTy).Contents (Elt F) → (⟨S8x4096x64, .f32⟩ : BufTy).Contents (Elt F) → (⟨S8x4096x64, .f32⟩ : BufTy).Contents (Elt F)),
    nullary main_cst_11 (constant S_ .f32 0xFF800000#32),
    binary main_v38 main_cst_11 main_v39 ((fun x v => Host.reduce FloatOps.maximumf x v reducesTo_S8x4096x64_S8x4096_d2 h_S_) : (⟨S8x4096x64, .f32⟩ : BufTy).Contents (Elt F) → (⟨S_, .f32⟩ : BufTy).Contents (Elt F) → (⟨S8x4096, .f32⟩ : BufTy).Contents (Elt F)),
    nullary main_cst_12 (constant S_ .f32 0xFF800000#32),
    unary main_cst_12 main_v40 (broadcastInDim S8x4096 ![] bcast_S_S8x4096 : (⟨S_, .f32⟩ : BufTy).Contents (Elt F) → (⟨S8x4096, .f32⟩ : BufTy).Contents (Elt F)),
    binary main_v40 main_v39 main_v41 (maximumf : (⟨S8x4096, .f32⟩ : BufTy).Contents (Elt F) → (⟨S8x4096, .f32⟩ : BufTy).Contents (Elt F) → (⟨S8x4096, .f32⟩ : BufTy).Contents (Elt F)),
    unary main_v41 main_v42 (broadcastInDim S8x4096x1 ![0, 1] bcast_S8x4096_S8x4096x1_0_1 : (⟨S8x4096, .f32⟩ : BufTy).Contents (Elt F) → (⟨S8x4096x1, .f32⟩ : BufTy).Contents (Elt F)),
    unary main_v42 main_v43 (broadcastInDim S8x4096x64 ![0, 1, 2] bcast_S8x4096x1_S8x4096x64_0_1_2 : (⟨S8x4096x1, .f32⟩ : BufTy).Contents (Elt F) → (⟨S8x4096x64, .f32⟩ : BufTy).Contents (Elt F)),
    binary main_v38 main_v43 main_v44 (subf : (⟨S8x4096x64, .f32⟩ : BufTy).Contents (Elt F) → (⟨S8x4096x64, .f32⟩ : BufTy).Contents (Elt F) → (⟨S8x4096x64, .f32⟩ : BufTy).Contents (Elt F)),
    unary main_v44 main_v45 (Host.exp : (⟨S8x4096x64, .f32⟩ : BufTy).Contents (Elt F) → (⟨S8x4096x64, .f32⟩ : BufTy).Contents (Elt F)) ]

/-- The operations of the program's second window, in order. -/
abbrev ops_part1 : List (HloOp τ sig (Elt F)) :=
  [ nullary main_cst_13 (constant S_ .f32 0x00000000#32),
    binary main_v45 main_cst_13 main_v46 ((fun x v => Host.reduceAdd x v reducesTo_S8x4096x64_S8x4096_d2 h_S_) : (⟨S8x4096x64, .f32⟩ : BufTy).Contents (Elt F) → (⟨S_, .f32⟩ : BufTy).Contents (Elt F) → (⟨S8x4096, .f32⟩ : BufTy).Contents (Elt F)),
    unary main_v46 main_v47 (broadcastInDim S8x4096x1 ![0, 1] bcast_S8x4096_S8x4096x1_0_1 : (⟨S8x4096, .f32⟩ : BufTy).Contents (Elt F) → (⟨S8x4096x1, .f32⟩ : BufTy).Contents (Elt F)),
    unary main_v47 main_v48 (broadcastInDim S8x4096x64 ![0, 1, 2] bcast_S8x4096x1_S8x4096x64_0_1_2 : (⟨S8x4096x1, .f32⟩ : BufTy).Contents (Elt F) → (⟨S8x4096x64, .f32⟩ : BufTy).Contents (Elt F)),
    binary main_v45 main_v48 main_v49 (Host.divf : (⟨S8x4096x64, .f32⟩ : BufTy).Contents (Elt F) → (⟨S8x4096x64, .f32⟩ : BufTy).Contents (Elt F) → (⟨S8x4096x64, .f32⟩ : BufTy).Contents (Elt F)),
    binary main_v49 main_cst_1 main_v50 ((fun l r => Host.dotGeneral dot_S8x4096x64_S64x6_S8x4096x6_2_0_01_1_n_n none l r) : (⟨S8x4096x64, .f32⟩ : BufTy).Contents (Elt F) → (⟨S64x6, .f32⟩ : BufTy).Contents (Elt F) → (⟨S8x4096x6, .f32⟩ : BufTy).Contents (Elt F)),
    nullary main_cst_14 (constant S_ .f32 0xFF800000#32),
    binary main_arg7 main_cst_14 main_v51 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    nullary main_cst_15 (constant S_ .f32 0xFF800000#32),
    binary main_cst_15 main_v51 main_v52 (maximumf : (⟨S_, .f32⟩ : BufTy).Contents (Elt F) → (⟨S_, .f32⟩ : BufTy).Contents (Elt F) → (⟨S_, .f32⟩ : BufTy).Contents (Elt F)),
    unary main_v52 main_v53 (broadcastInDim S1 ![] bcast_S_S1 : (⟨S_, .f32⟩ : BufTy).Contents (Elt F) → (⟨S1, .f32⟩ : BufTy).Contents (Elt F)),
    unary main_v53 main_v54 (broadcastInDim S3 ![0] bcast_S1_S3_0 : (⟨S1, .f32⟩ : BufTy).Contents (Elt F) → (⟨S3, .f32⟩ : BufTy).Contents (Elt F)),
    binary main_arg7 main_v54 main_v55 (subf : (⟨S3, .f32⟩ : BufTy).Contents (Elt F) → (⟨S3, .f32⟩ : BufTy).Contents (Elt F) → (⟨S3, .f32⟩ : BufTy).Contents (Elt F)),
    unary main_v55 main_v56 (Host.exp : (⟨S3, .f32⟩ : BufTy).Contents (Elt F) → (⟨S3, .f32⟩ : BufTy).Contents (Elt F)),
    nullary main_cst_16 (constant S_ .f32 0x00000000#32),
    binary main_v56 main_cst_16 main_v57 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    unary main_v57 main_v58 (broadcastInDim S1 ![] bcast_S_S1 : (⟨S_, .f32⟩ : BufTy).Contents (Elt F) → (⟨S1, .f32⟩ : BufTy).Contents (Elt F)),
    unary main_v58 main_v59 (broadcastInDim S3 ![0] bcast_S1_S3_0 : (⟨S1, .f32⟩ : BufTy).Contents (Elt F) → (⟨S3, .f32⟩ : BufTy).Contents (Elt F)),
    binary main_v56 main_v59 main_v60 (Host.divf : (⟨S3, .f32⟩ : BufTy).Contents (Elt F) → (⟨S3, .f32⟩ : BufTy).Contents (Elt F) → (⟨S3, .f32⟩ : BufTy).Contents (Elt F)),
    unary main_v60 main_v61 ((extractStridedSlice S1 ![0] · slices_S3_S1_0) : (⟨S3, .f32⟩ : BufTy).Contents (Elt F) → (⟨S1, .f32⟩ : BufTy).Contents (Elt F)),
    reshape main_v61 main_v62 rfl shapeCasts_S1_S_,
    binary main_v16 main_arg4 main_v63 ((fun l r => Host.dotGeneral dot_S8x4096x2_S2048x2_S8x4096x2048_2_1_01_0_n_n none l r) : (⟨S8x4096x2, .f32⟩ : BufTy).Contents (Elt F) → (⟨S2048x2, .f32⟩ : BufTy).Contents (Elt F) → (⟨S8x4096x2048, .f32⟩ : BufTy).Contents (Elt F)),
    unary main_v62 main_v64 (broadcastInDim S8x4096x2048 ![] bcast_S_S8x4096x2048 : (⟨S_, .f32⟩ : BufTy).Contents (Elt F) → (⟨S8x4096x2048, .f32⟩ : BufTy).Contents (Elt F)),
    binary main_v64 main_v63 main_v65 (mulf : (⟨S8x4096x2048, .f32⟩ : BufTy).Contents (Elt F) → (⟨S8x4096x2048, .f32⟩ : BufTy).Contents (Elt F) → (⟨S8x4096x2048, .f32⟩ : BufTy).Contents (Elt F)),
    unary main_v60 main_v66 ((extractStridedSlice S1 ![1] · slices_S3_S1_1) : (⟨S3, .f32⟩ : BufTy).Contents (Elt F) → (⟨S1, .f32⟩ : BufTy).Contents (Elt F)),
    reshape main_v66 main_v67 rfl shapeCasts_S1_S_,
    binary main_v33 main_arg5 main_v68 ((fun l r => Host.dotGeneral dot_S8x4096x3_S2048x3_S8x4096x2048_2_1_01_0_n_n none l r) : (⟨S8x4096x3, .f32⟩ : BufTy).Contents (Elt F) → (⟨S2048x3, .f32⟩ : BufTy).Contents (Elt F) → (⟨S8x4096x2048, .f32⟩ : BufTy).Contents (Elt F)),
    unary main_v67 main_v69 (broadcastInDim S8x4096x2048 ![] bcast_S_S8x4096x2048 : (⟨S_, .f32⟩ : BufTy).Contents (Elt F) → (⟨S8x4096x2048, .f32⟩ : BufTy).Contents (Elt F)),
    binary main_v69 main_v68 main_v70 (mulf : (⟨S8x4096x2048, .f32⟩ : BufTy).Contents (Elt F) → (⟨S8x4096x2048, .f32⟩ : BufTy).Contents (Elt F) → (⟨S8x4096x2048, .f32⟩ : BufTy).Contents (Elt F)),
    binary main_v65 main_v70 main_v71 (addf : (⟨S8x4096x2048, .f32⟩ : BufTy).Contents (Elt F) → (⟨S8x4096x2048, .f32⟩ : BufTy).Contents (Elt F) → (⟨S8x4096x2048, .f32⟩ : BufTy).Contents (Elt F)),
    unary main_v60 main_v72 ((extractStridedSlice S1 ![2] · slices_S3_S1_2) : (⟨S3, .f32⟩ : BufTy).Contents (Elt F) → (⟨S1, .f32⟩ : BufTy).Contents (Elt F)),
    reshape main_v72 main_v73 rfl shapeCasts_S1_S_,
    binary main_v50 main_arg6 main_v74 ((fun l r => Host.dotGeneral dot_S8x4096x6_S2048x6_S8x4096x2048_2_1_01_0_n_n none l r) : (⟨S8x4096x6, .f32⟩ : BufTy).Contents (Elt F) → (⟨S2048x6, .f32⟩ : BufTy).Contents (Elt F) → (⟨S8x4096x2048, .f32⟩ : BufTy).Contents (Elt F)),
    unary main_v73 main_v75 (broadcastInDim S8x4096x2048 ![] bcast_S_S8x4096x2048 : (⟨S_, .f32⟩ : BufTy).Contents (Elt F) → (⟨S8x4096x2048, .f32⟩ : BufTy).Contents (Elt F)),
    binary main_v75 main_v74 main_v76 (mulf : (⟨S8x4096x2048, .f32⟩ : BufTy).Contents (Elt F) → (⟨S8x4096x2048, .f32⟩ : BufTy).Contents (Elt F) → (⟨S8x4096x2048, .f32⟩ : BufTy).Contents (Elt F)),
    binary main_v71 main_v76 main_v77 (addf : (⟨S8x4096x2048, .f32⟩ : BufTy).Contents (Elt F) → (⟨S8x4096x2048, .f32⟩ : BufTy).Contents (Elt F) → (⟨S8x4096x2048, .f32⟩ : BufTy).Contents (Elt F)),
    binary main_arg0 main_v77 main_v78 (addf : (⟨S8x4096x2048, .f32⟩ : BufTy).Contents (Elt F) → (⟨S8x4096x2048, .f32⟩ : BufTy).Contents (Elt F) → (⟨S8x4096x2048, .f32⟩ : BufTy).Contents (Elt F)) ]

/-- All the operations, in order. -/
abbrev ops : List (HloOp τ sig (Elt F)) := ops_part0 ++ ops_part1

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., nullary_bufs_sub .., nullary_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub ..⟩
set_option maxRecDepth 8192 in
theorem ops_part1_sub : (ops_part1 : List (HloOp τ sig (Elt F))).Forall fun op => op.bufs ⊆ tcRefs τ sig :=
  ⟨nullary_bufs_sub .., binary_bufs_sub .., unary_bufs_sub .., unary_bufs_sub .., binary_bufs_sub .., binary_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., binary_bufs_sub .., unary_bufs_sub .., binary_bufs_sub .., unary_bufs_sub .., reshape_bufs_sub .., binary_bufs_sub .., unary_bufs_sub .., binary_bufs_sub .., binary_bufs_sub .., unary_bufs_sub .., reshape_bufs_sub .., binary_bufs_sub .., unary_bufs_sub .., binary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

/-- Running two lists one after the other folds the second over the contents the first leaves. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

end Program

/-! ## The contents after the first window -/

/-- The buffer contents after the first window. -/
def val1 (V0 : Valuation τ sig (Elt Ideal)) : Valuation τ sig (Elt Ideal) := after ops_part0 V0
/-- The buffers the first window writes. -/
abbrev ops_part0_W : List (Ref sig .tc) := [main_cst, main_cst_0, main_cst_1, main_v0, main_v1, main_v2, main_cst_2, main_v3, main_v4, main_cst_3, main_v5, main_cst_4, main_v6, main_v7, main_v8, main_v9, main_v10, main_v11, main_cst_5, main_v12, main_v13, main_v14, main_v15, main_v16, main_v17, main_v18, main_v19, main_cst_6, main_v20, main_v21, main_cst_7, main_v22, main_cst_8, main_v23, main_v24, main_v25, main_v26, main_v27, main_v28, main_cst_9, main_v29, main_v30, main_v31, main_v32, main_v33, main_v34, main_v35, main_v36, main_cst_10, main_v37, main_v38, main_cst_11, main_v39, main_cst_12, main_v40, main_v41, main_v42, main_v43, main_v44, main_v45]
set_option maxRecDepth 8192 in
theorem ops_part0_writes : (ops_part0 : List (HloOp τ sig (Elt Ideal))).Forall fun op => op.writes ⊆ (ops_part0_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩
/-- A buffer the first window does not write keeps its contents through it. -/
theorem val1_keep (V0 : Valuation τ sig (Elt Ideal)) (r : Ref sig .tc) (h : r ∉ ops_part0_W) :
    val1 V0 (Proc.devRef .tc r) = V0 (Proc.devRef .tc r) :=
  after_of_writes_sub ops_part0 _ ops_part0_writes h
theorem val1_main_arg0 (V0 : Valuation τ sig (Elt Ideal)) : val1 V0 (no_index (Proc.devRef .tc main_arg0)) = V0 (Proc.devRef .tc main_arg0) :=
  val1_keep V0 main_arg0 (by decide)
theorem val1_main_arg1 (V0 : Valuation τ sig (Elt Ideal)) : val1 V0 (no_index (Proc.devRef .tc main_arg1)) = V0 (Proc.devRef .tc main_arg1) :=
  val1_keep V0 main_arg1 (by decide)
theorem val1_main_arg2 (V0 : Valuation τ sig (Elt Ideal)) : val1 V0 (no_index (Proc.devRef .tc main_arg2)) = V0 (Proc.devRef .tc main_arg2) :=
  val1_keep V0 main_arg2 (by decide)
theorem val1_main_arg3 (V0 : Valuation τ sig (Elt Ideal)) : val1 V0 (no_index (Proc.devRef .tc main_arg3)) = V0 (Proc.devRef .tc main_arg3) :=
  val1_keep V0 main_arg3 (by decide)
theorem val1_main_arg4 (V0 : Valuation τ sig (Elt Ideal)) : val1 V0 (no_index (Proc.devRef .tc main_arg4)) = V0 (Proc.devRef .tc main_arg4) :=
  val1_keep V0 main_arg4 (by decide)
theorem val1_main_arg5 (V0 : Valuation τ sig (Elt Ideal)) : val1 V0 (no_index (Proc.devRef .tc main_arg5)) = V0 (Proc.devRef .tc main_arg5) :=
  val1_keep V0 main_arg5 (by decide)
theorem val1_main_arg6 (V0 : Valuation τ sig (Elt Ideal)) : val1 V0 (no_index (Proc.devRef .tc main_arg6)) = V0 (Proc.devRef .tc main_arg6) :=
  val1_keep V0 main_arg6 (by decide)
theorem val1_main_arg7 (V0 : Valuation τ sig (Elt Ideal)) : val1 V0 (no_index (Proc.devRef .tc main_arg7)) = V0 (Proc.devRef .tc main_arg7) :=
  val1_keep V0 main_arg7 (by decide)
set_option maxRecDepth 8192 in
set_option maxHeartbeats 4000000 in
theorem val1_main_v15 (V0 : Valuation τ sig (Elt Ideal)) : val1 V0 (no_index (Proc.devRef .tc main_v15)) = resW2 (V0 (Proc.devRef .tc main_arg0)) (V0 (Proc.devRef .tc main_arg1)) := by
  unfold val1
  simp only [ops_part0]
  after_results_simp
  rfl
set_option maxRecDepth 8192 in
set_option maxHeartbeats 4000000 in
theorem val1_main_v16 (V0 : Valuation τ sig (Elt Ideal)) : val1 V0 (no_index (Proc.devRef .tc main_v16)) = emb2 (V0 (Proc.devRef .tc main_arg0)) (V0 (Proc.devRef .tc main_arg1)) := by
  unfold val1
  simp only [ops_part0]
  after_results_simp
  rfl
set_option maxRecDepth 8192 in
set_option maxHeartbeats 4000000 in
theorem val1_main_v32 (V0 : Valuation τ sig (Elt Ideal)) : val1 V0 (no_index (Proc.devRef .tc main_v32)) = resW3 (V0 (Proc.devRef .tc main_arg0)) (V0 (Proc.devRef .tc main_arg2)) := by
  unfold val1
  simp only [ops_part0]
  after_results_simp
  rfl
set_option maxRecDepth 8192 in
set_option maxHeartbeats 4000000 in
theorem val1_main_v33 (V0 : Valuation τ sig (Elt Ideal)) : val1 V0 (no_index (Proc.devRef .tc main_v33)) = emb3 (V0 (Proc.devRef .tc main_arg0)) (V0 (Proc.devRef .tc main_arg2)) := by
  unfold val1
  simp only [ops_part0]
  after_results_simp
  rfl
set_option maxRecDepth 8192 in
set_option maxHeartbeats 4000000 in
theorem val1_main_v45 (V0 : Valuation τ sig (Elt Ideal)) : val1 V0 (no_index (Proc.devRef .tc main_v45)) = ex6 (V0 (Proc.devRef .tc main_arg0)) (V0 (Proc.devRef .tc main_arg3)) := by
  unfold val1
  simp only [ops_part0]
  after_results_simp
  rfl
set_option maxRecDepth 8192 in
set_option maxHeartbeats 4000000 in
theorem val1_main_cst_1 (V0 : Valuation τ sig (Elt Ideal)) : val1 V0 (no_index (Proc.devRef .tc main_cst_1)) = T6 := by
  unfold val1
  simp only [ops_part0]
  after_results_simp
  rfl

/-! ## The contents after the second window -/

/-- The buffer contents after both windows. -/
def val2 (V0 : Valuation τ sig (Elt Ideal)) : Valuation τ sig (Elt Ideal) := after ops_part1 (val1 V0)
/-- The buffers the second window writes. -/
abbrev ops_part1_W : List (Ref sig .tc) := [main_cst_13, main_v46, main_v47, main_v48, main_v49, main_v50, main_cst_14, main_v51, main_cst_15, main_v52, main_v53, main_v54, main_v55, main_v56, main_cst_16, main_v57, main_v58, main_v59, main_v60, main_v61, main_v62, main_v63, main_v64, main_v65, main_v66, main_v67, main_v68, main_v69, main_v70, main_v71, main_v72, main_v73, main_v74, main_v75, main_v76, main_v77, main_v78]
set_option maxRecDepth 8192 in
theorem ops_part1_writes : (ops_part1 : List (HloOp τ sig (Elt Ideal))).Forall fun op => op.writes ⊆ (ops_part1_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩
/-- A buffer the second window does not write keeps its contents through it. -/
theorem val2_keep (V0 : Valuation τ sig (Elt Ideal)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt Ideal)) : val2 V0 (Proc.devRef .tc main_arg0) = V0 (Proc.devRef .tc main_arg0) :=
  (val2_keep V0 main_arg0 (by decide)).trans (val1_main_arg0 V0)
theorem val2_main_arg1 (V0 : Valuation τ sig (Elt Ideal)) : val2 V0 (Proc.devRef .tc main_arg1) = V0 (Proc.devRef .tc main_arg1) :=
  (val2_keep V0 main_arg1 (by decide)).trans (val1_main_arg1 V0)
theorem val2_main_arg2 (V0 : Valuation τ sig (Elt Ideal)) : val2 V0 (Proc.devRef .tc main_arg2) = V0 (Proc.devRef .tc main_arg2) :=
  (val2_keep V0 main_arg2 (by decide)).trans (val1_main_arg2 V0)
theorem val2_main_arg3 (V0 : Valuation τ sig (Elt Ideal)) : val2 V0 (Proc.devRef .tc main_arg3) = V0 (Proc.devRef .tc main_arg3) :=
  (val2_keep V0 main_arg3 (by decide)).trans (val1_main_arg3 V0)
theorem val2_main_arg4 (V0 : Valuation τ sig (Elt Ideal)) : val2 V0 (Proc.devRef .tc main_arg4) = V0 (Proc.devRef .tc main_arg4) :=
  (val2_keep V0 main_arg4 (by decide)).trans (val1_main_arg4 V0)
theorem val2_main_arg5 (V0 : Valuation τ sig (Elt Ideal)) : val2 V0 (Proc.devRef .tc main_arg5) = V0 (Proc.devRef .tc main_arg5) :=
  (val2_keep V0 main_arg5 (by decide)).trans (val1_main_arg5 V0)
theorem val2_main_arg6 (V0 : Valuation τ sig (Elt Ideal)) : val2 V0 (Proc.devRef .tc main_arg6) = V0 (Proc.devRef .tc main_arg6) :=
  (val2_keep V0 main_arg6 (by decide)).trans (val1_main_arg6 V0)
theorem val2_main_arg7 (V0 : Valuation τ sig (Elt Ideal)) : val2 V0 (Proc.devRef .tc main_arg7) = V0 (Proc.devRef .tc main_arg7) :=
  (val2_keep V0 main_arg7 (by decide)).trans (val1_main_arg7 V0)
theorem val2_main_v15 (V0 : Valuation τ sig (Elt Ideal)) : val2 V0 (Proc.devRef .tc main_v15) = resW2 (V0 (Proc.devRef .tc main_arg0)) (V0 (Proc.devRef .tc main_arg1)) :=
  (val2_keep V0 main_v15 (by decide)).trans (val1_main_v15 V0)
theorem val2_main_v32 (V0 : Valuation τ sig (Elt Ideal)) : val2 V0 (Proc.devRef .tc main_v32) = resW3 (V0 (Proc.devRef .tc main_arg0)) (V0 (Proc.devRef .tc main_arg2)) :=
  (val2_keep V0 main_v32 (by decide)).trans (val1_main_v32 V0)
set_option maxRecDepth 8192 in
set_option maxHeartbeats 4000000 in
theorem val2_main_v49 (V0 : Valuation τ sig (Elt Ideal)) : val2 V0 (Proc.devRef .tc main_v49) = resW6 (V0 (Proc.devRef .tc main_arg0)) (V0 (Proc.devRef .tc main_arg3)) := by
  unfold val2
  simp only [ops_part1]
  after_results_simp
  simp only [val1_main_v45] <;> rfl
set_option maxRecDepth 8192 in
set_option maxHeartbeats 4000000 in
theorem val2_main_v78 (V0 : Valuation τ sig (Elt Ideal)) : val2 V0 (Proc.devRef .tc main_v78) = resOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val2
  simp only [ops_part1]
  after_results_simp
  simp only [val1_main_arg0, val1_main_arg4, val1_main_arg5, val1_main_arg6, val1_main_arg7, val1_main_v16, val1_main_v33, val1_main_v45, val1_main_cst_1] <;> rfl

/-- The contents after all the operations are the contents after the two windows in turn. -/
theorem after_ops (V0 : Valuation τ sig (Elt Ideal)) : after ops V0 = val2 V0 := after_two ops_part0 ops_part1 V0

/-! ## The run -/

set_option maxRecDepth 8192 in
/-- On the device, from any memory with zero counters: every weakly fair execution of the program terminates with the
    four results at the composed functions of the arguments' contents at launch, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v78) = resOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v15) = resW2 (m ((c.tc : Thread nD τ).loc main_arg0)) (m ((c.tc : Thread nD τ).loc main_arg1))
      ∧ r.2.mem ((c.tc : Thread nD τ).loc main_v32) = resW3 (m ((c.tc : Thread nD τ).loc main_arg0)) (m ((c.tc : Thread nD τ).loc main_arg2))
      ∧ r.2.mem ((c.tc : Thread nD τ).loc main_v49) = resW6 (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v78).trans (by rw [after_ops]; exact val2_main_v78 (launchContents m c)),
      (h c main_v15).trans (by rw [after_ops]; exact val2_main_v15 (launchContents m c)),
      (h c main_v32).trans (by rw [after_ops]; exact val2_main_v32 (launchContents m c)),
      (h c main_v49).trans (by rw [after_ops]; exact val2_main_v49 (launchContents m c)),
      (h c main_arg0).trans (by rw [after_ops]; exact val2_main_arg0 (launchContents m c)),
      (h c main_arg1).trans (by rw [after_ops]; exact val2_main_arg1 (launchContents m c)),
      (h c main_arg2).trans (by rw [after_ops]; exact val2_main_arg2 (launchContents m c)),
      (h c main_arg3).trans (by rw [after_ops]; exact val2_main_arg3 (launchContents m c)),
      (h c main_arg4).trans (by rw [after_ops]; exact val2_main_arg4 (launchContents m c)),
      (h c main_arg5).trans (by rw [after_ops]; exact val2_main_arg5 (launchContents m c)),
      (h c main_arg6).trans (by rw [after_ops]; exact val2_main_arg6 (launchContents m c)),
      (h c main_arg7).trans (by rw [after_ops]; exact val2_main_arg7 (launchContents m c))⟩)
    (run_seq scopedRefs_eq scopedSems_eq defs main (fun _ => ops) main_eq (fun _ => ops_sub) m ρ)

/-- The program runs and leaves its arguments unchanged: the run with the results forgotten. -/
theorem frame_ri : Cert.frame_ReferenceIdeal := fun m ρ _ =>
  (θ_run Cert.ReferenceIdeal.defs _ _).mono (fun _ h c => (h c).2.2.2.2) (run m ρ)

end Cert.RefSide

end
-- ==== Proof.RefOps.lean ====
/-
  The reference's host operations read at an index, at the ideal values.

  A product contracted over one axis is the plain sum over that axis. A softmax over the last axis of an
  [8, 4096, n] array, spelt as the host spells it (the row maximum taken from -∞ and once more against -∞, laid back
  along the row; the exponentials of the differences; their row sum from 0, laid back; the quotient), is the row
  softmax of the specification. The same for a vector of three entries, each entry then read out as a scalar.
  Every shape fact an operation carries is a variable of the statement.
-/
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value
import proofs.«107425_j46832323395756_2_alg».proof.Proof.Spec

noncomputable section

namespace Cert.RefSide

open Idealize.ShloMosaic Idealize.ShloMosaic.ValueIdx
open scoped BigOperators

/-! ## Products contracted over one axis -/

/-- The dimension numbers of [8, 4096, K] times [N, K], contracted over K. -/
abbrev dNT (K N : Nat) (wf : DotDims.WF ⟨3, ![8, 4096, K]⟩ ⟨2, ![N, K]⟩ ⟨3, ![8, 4096, N]⟩ [2] [1] [0, 1] [0] [] []) :
    DotDims ⟨3, ![8, 4096, K]⟩ ⟨2, ![N, K]⟩ ⟨3, ![8, 4096, N]⟩ := ⟨[2], [1], [0, 1], [0], [], [], wf⟩

/-- The dimension numbers of [8, 4096, K] times [K, N], contracted over K. -/
abbrev dNN (K N : Nat) (wf : DotDims.WF ⟨3, ![8, 4096, K]⟩ ⟨2, ![K, N]⟩ ⟨3, ![8, 4096, N]⟩ [2] [0] [0, 1] [1] [] []) :
    DotDims ⟨3, ![8, 4096, K]⟩ ⟨2, ![K, N]⟩ ⟨3, ![8, 4096, N]⟩ := ⟨[2], [0], [0, 1], [1], [], [], wf⟩

/-- (l · rᵀ)(b, t, n) = Σ_k l(b, t, k) · r(n, k). -/
theorem dotNT_apply {K N : Nat} (wf : DotDims.WF ⟨3, ![8, 4096, K]⟩ ⟨2, ![N, K]⟩ ⟨3, ![8, 4096, N]⟩ [2] [1] [0, 1] [0] [] [])
    (l : FVec Ideal ⟨3, ![8, 4096, K]⟩ .f32) (r : FVec Ideal ⟨2, ![N, K]⟩ .f32) (b : Fin 8) (t : Fin 4096) (n : Fin N) :
    Host.dotGeneral (F := Ideal) (dNT K N wf) none l r (ix3 b t n) = ∑ k : Fin K, l (ix3 b t k) * r (ix2 n k) := by
  show FloatOps.dotGeneral (dNT K N wf) none .single l r (ix3 b t n) = _
  rw [Ideal.dotGeneral_apply, ← Equiv.sum_comp (contrEquiv1 (dNT K N wf) K rfl rfl).symm]
  refine Finset.sum_congr rfl fun k _ => ?_
  have hl : (dNT K N wf).lhsIdx (ix3 b t n) ((contrEquiv1 (dNT K N wf) K rfl rfl).symm k) = ix3 b t k := by
    funext a
    refine Fin.ext ?_
    match a with
    | ⟨0, _⟩ => rfl
    | ⟨1, _⟩ => rfl
    | ⟨2, _⟩ => exact ((dNT K N wf).lhsIdx_val_of_single rfl _ _).trans (contrEquiv1_symm_val (dNT K N wf) K rfl rfl k)
  have hr : (dNT K N wf).rhsIdx (ix3 b t n) ((contrEquiv1 (dNT K N wf) K rfl rfl).symm k) = ix2 n k := by
    funext a
    refine Fin.ext ?_
    match a with
    | ⟨0, _⟩ => rfl
    | ⟨1, _⟩ => exact ((dNT K N wf).rhsIdx_val_of_single rfl _ _).trans (contrEquiv1_symm_val (dNT K N wf) K rfl rfl k)
  rw [hl, hr]

/-- (l · r)(b, t, n) = Σ_k l(b, t, k) · r(k, n). -/
theorem dotNN_apply {K N : Nat} (wf : DotDims.WF ⟨3, ![8, 4096, K]⟩ ⟨2, ![K, N]⟩ ⟨3, ![8, 4096, N]⟩ [2] [0] [0, 1] [1] [] [])
    (l : FVec Ideal ⟨3, ![8, 4096, K]⟩ .f32) (r : FVec Ideal ⟨2, ![K, N]⟩ .f32) (b : Fin 8) (t : Fin 4096) (n : Fin N) :
    Host.dotGeneral (F := Ideal) (dNN K N wf) none l r (ix3 b t n) = ∑ k : Fin K, l (ix3 b t k) * r (ix2 k n) := by
  show FloatOps.dotGeneral (dNN K N wf) none .single l r (ix3 b t n) = _
  rw [Ideal.dotGeneral_apply, ← Equiv.sum_comp (contrEquiv1 (dNN K N wf) K rfl rfl).symm]
  refine Finset.sum_congr rfl fun k _ => ?_
  have hl : (dNN K N wf).lhsIdx (ix3 b t n) ((contrEquiv1 (dNN K N wf) K rfl rfl).symm k) = ix3 b t k := by
    funext a
    refine Fin.ext ?_
    match a with
    | ⟨0, _⟩ => rfl
    | ⟨1, _⟩ => rfl
    | ⟨2, _⟩ => exact ((dNN K N wf).lhsIdx_val_of_single rfl _ _).trans (contrEquiv1_symm_val (dNN K N wf) K rfl rfl k)
  have hr : (dNN K N wf).rhsIdx (ix3 b t n) ((contrEquiv1 (dNN K N wf) K rfl rfl).symm k) = ix2 k n := by
    funext a
    refine Fin.ext ?_
    match a with
    | ⟨0, _⟩ => exact ((dNN K N wf).rhsIdx_val_of_single rfl _ _).trans (contrEquiv1_symm_val (dNN K N wf) K rfl rfl k)
    | ⟨1, _⟩ => rfl
  rw [hl, hr]

/-! ## The softmax over the last axis of an [8, 4096, n] array -/

section Rows
variable {n : Nat}

/-- Row (b, t) with the last coordinate put back is (b, t, k). -/
theorem lift_last (h : (⟨3, ![8, 4096, n]⟩ : Shape).Reduces [2] ⟨2, ![8, 4096]⟩) (b : Fin 8) (t : Fin 4096)
    (k : Fin ((⟨3, ![8, 4096, n]⟩ : Shape).size 2)) : h.lift (ix2 b t) k = ix3 b t (⟨k.val, k.isLt⟩ : Fin n) := by
  funext c; apply Fin.ext
  fin_cases c <;> rfl

/-- A per-row value laid back along the rows reads the row's value. -/
theorem bcast_rows_apply (hb1 : (⟨2, ![8, 4096]⟩ : Shape).BroadcastsInDim ⟨3, ![8, 4096, 1]⟩ ![0, 1])
    (hb2 : (⟨3, ![8, 4096, 1]⟩ : Shape).BroadcastsInDim ⟨3, ![8, 4096, n]⟩ ![0, 1, 2])
    (y : FVec Ideal ⟨2, ![8, 4096]⟩ .f32) (b : Fin 8) (t : Fin 4096) (v : Fin n) :
    broadcastInDim ⟨3, ![8, 4096, n]⟩ ![0, 1, 2] hb2 (broadcastInDim ⟨3, ![8, 4096, 1]⟩ ![0, 1] hb1 y) (ix3 b t v) = y (ix2 b t) := by
  refine (broadcastInDim_apply ![0, 1, 2] hb2 _ (ix3 b t v) (ix3 b t (0 : Fin 1)) ?_).trans
    (broadcastInDim_apply ![0, 1] hb1 y (ix3 b t (0 : Fin 1)) (ix2 b t) ?_)
  · intro a
    match a with
    | ⟨0, _⟩ => rfl
    | ⟨1, _⟩ => rfl
    | ⟨2, _⟩ => rfl
  · intro a
    match a with
    | ⟨0, _⟩ => rfl
    | ⟨1, _⟩ => rfl

/-- The rows' maxima laid back along the rows, as the host takes them. -/
def rowMaxB (z : FVec Ideal ⟨3, ![8, 4096, n]⟩ .f32)
    (hr : (⟨3, ![8, 4096, n]⟩ : Shape).ReducesTo [2] ⟨2, ![8, 4096]⟩) (hu : 0 < (⟨0, ![]⟩ : Shape).numel)
    (hb0 : (⟨0, ![]⟩ : Shape).BroadcastsInDim ⟨2, ![8, 4096]⟩ ![])
    (hb1 : (⟨2, ![8, 4096]⟩ : Shape).BroadcastsInDim ⟨3, ![8, 4096, 1]⟩ ![0, 1])
    (hb2 : (⟨3, ![8, 4096, 1]⟩ : Shape).BroadcastsInDim ⟨3, ![8, 4096, n]⟩ ![0, 1, 2]) : FVec Ideal ⟨3, ![8, 4096, n]⟩ .f32 :=
  broadcastInDim ⟨3, ![8, 4096, n]⟩ ![0, 1, 2] hb2 (broadcastInDim ⟨3, ![8, 4096, 1]⟩ ![0, 1] hb1
    (maximumf (broadcastInDim ⟨2, ![8, 4096]⟩ ![] hb0 (constant (F := Ideal) ⟨0, ![]⟩ .f32 0xFF800000#32))
      (Host.reduce FloatOps.maximumf z (constant (F := Ideal) ⟨0, ![]⟩ .f32 0xFF800000#32) hr hu)))

/-- The exponentials of the entries less their row's maximum. -/
def expB (z : FVec Ideal ⟨3, ![8, 4096, n]⟩ .f32)
    (hr : (⟨3, ![8, 4096, n]⟩ : Shape).ReducesTo [2] ⟨2, ![8, 4096]⟩) (hu : 0 < (⟨0, ![]⟩ : Shape).numel)
    (hb0 : (⟨0, ![]⟩ : Shape).BroadcastsInDim ⟨2, ![8, 4096]⟩ ![])
    (hb1 : (⟨2, ![8, 4096]⟩ : Shape).BroadcastsInDim ⟨3, ![8, 4096, 1]⟩ ![0, 1])
    (hb2 : (⟨3, ![8, 4096, 1]⟩ : Shape).BroadcastsInDim ⟨3, ![8, 4096, n]⟩ ![0, 1, 2]) : FVec Ideal ⟨3, ![8, 4096, n]⟩ .f32 :=
  Host.exp (subf z (rowMaxB z hr hu hb0 hb1 hb2))

/-- The host's softmax over the last axis. -/
def softmaxB (z : FVec Ideal ⟨3, ![8, 4096, n]⟩ .f32)
    (hr : (⟨3, ![8, 4096, n]⟩ : Shape).ReducesTo [2] ⟨2, ![8, 4096]⟩) (hu : 0 < (⟨0, ![]⟩ : Shape).numel)
    (hb0 : (⟨0, ![]⟩ : Shape).BroadcastsInDim ⟨2, ![8, 4096]⟩ ![])
    (hb1 : (⟨2, ![8, 4096]⟩ : Shape).BroadcastsInDim ⟨3, ![8, 4096, 1]⟩ ![0, 1])
    (hb2 : (⟨3, ![8, 4096, 1]⟩ : Shape).BroadcastsInDim ⟨3, ![8, 4096, n]⟩ ![0, 1, 2]) : FVec Ideal ⟨3, ![8, 4096, n]⟩ .f32 :=
  Host.divf (expB z hr hu hb0 hb1 hb2) (broadcastInDim ⟨3, ![8, 4096, n]⟩ ![0, 1, 2] hb2 (broadcastInDim ⟨3, ![8, 4096, 1]⟩ ![0, 1] hb1
    (Host.reduceAdd (expB z hr hu hb0 hb1 hb2) (constant (F := Ideal) ⟨0, ![]⟩ .f32 0x00000000#32) hr hu)))

/-- The host's exponential read at an index. -/
theorem hostExp_apply {s : Shape} {φ : FTy} (x : FVec Ideal s φ) (i : s.Idx) : Host.exp x i = Ideal.exp (x i) := rfl

/-- The row maximum the host takes is the specification's. -/
theorem rowMaxB_apply (z : FVec Ideal ⟨3, ![8, 4096, n]⟩ .f32)
    (hr : (⟨3, ![8, 4096, n]⟩ : Shape).ReducesTo [2] ⟨2, ![8, 4096]⟩) (h : (⟨3, ![8, 4096, n]⟩ : Shape).Reduces [2] ⟨2, ![8, 4096]⟩)
    (hu : 0 < (⟨0, ![]⟩ : Shape).numel)
    (hb0 : (⟨0, ![]⟩ : Shape).BroadcastsInDim ⟨2, ![8, 4096]⟩ ![])
    (hb1 : (⟨2, ![8, 4096]⟩ : Shape).BroadcastsInDim ⟨3, ![8, 4096, 1]⟩ ![0, 1])
    (hb2 : (⟨3, ![8, 4096, 1]⟩ : Shape).BroadcastsInDim ⟨3, ![8, 4096, n]⟩ ![0, 1, 2])
    (b : Fin 8) (t : Fin 4096) (v : Fin n) :
    rowMaxB z hr hu hb0 hb1 hb2 (ix3 b t v) = Spec.rowMax fun u => z (ix3 b t u) := by
  unfold rowMaxB
  rw [bcast_rows_apply hb1 hb2]
  refine (maximumf_apply _ _ _).trans ?_
  rw [broadcastInDim_scalar_apply, constant_apply, Host.reduce_eq_fold_single FloatOps.maximumf z _ hr h hu, constant_apply]
  unfold Spec.rowMax Spec.NEG
  refine congrArg (max (Ideal.ofBits .f32 0xFF800000#32)) ?_
  have hf : (z ∘ h.lift (ix2 b t)) = fun u : Fin n => z (ix3 b t u) := funext fun k => congrArg z (lift_last h b t k)
  exact congrArg (fun f => Finset.fold max (Ideal.ofBits .f32 0xFF800000#32) f (Finset.univ : Finset (Fin n))) hf

/-- The exponentials read at an entry. -/
theorem expB_apply (z : FVec Ideal ⟨3, ![8, 4096, n]⟩ .f32)
    (hr : (⟨3, ![8, 4096, n]⟩ : Shape).ReducesTo [2] ⟨2, ![8, 4096]⟩) (h : (⟨3, ![8, 4096, n]⟩ : Shape).Reduces [2] ⟨2, ![8, 4096]⟩)
    (hu : 0 < (⟨0, ![]⟩ : Shape).numel)
    (hb0 : (⟨0, ![]⟩ : Shape).BroadcastsInDim ⟨2, ![8, 4096]⟩ ![])
    (hb1 : (⟨2, ![8, 4096]⟩ : Shape).BroadcastsInDim ⟨3, ![8, 4096, 1]⟩ ![0, 1])
    (hb2 : (⟨3, ![8, 4096, 1]⟩ : Shape).BroadcastsInDim ⟨3, ![8, 4096, n]⟩ ![0, 1, 2])
    (b : Fin 8) (t : Fin 4096) (v : Fin n) :
    expB z hr hu hb0 hb1 hb2 (ix3 b t v) = Ideal.exp (z (ix3 b t v) - Spec.rowMax fun u => z (ix3 b t u)) := by
  unfold expB
  rw [hostExp_apply, subf_apply, rowMaxB_apply z hr h hu hb0 hb1 hb2 b t v]

/-- The rows' sums of the exponentials, from 0. -/
theorem sumExpB_apply (z : FVec Ideal ⟨3, ![8, 4096, n]⟩ .f32)
    (hr : (⟨3, ![8, 4096, n]⟩ : Shape).ReducesTo [2] ⟨2, ![8, 4096]⟩) (h : (⟨3, ![8, 4096, n]⟩ : Shape).Reduces [2] ⟨2, ![8, 4096]⟩)
    (hu : 0 < (⟨0, ![]⟩ : Shape).numel)
    (hb0 : (⟨0, ![]⟩ : Shape).BroadcastsInDim ⟨2, ![8, 4096]⟩ ![])
    (hb1 : (⟨2, ![8, 4096]⟩ : Shape).BroadcastsInDim ⟨3, ![8, 4096, 1]⟩ ![0, 1])
    (hb2 : (⟨3, ![8, 4096, 1]⟩ : Shape).BroadcastsInDim ⟨3, ![8, 4096, n]⟩ ![0, 1, 2])
    (b : Fin 8) (t : Fin 4096) :
    Host.reduceAdd (expB z hr hu hb0 hb1 hb2) (constant (F := Ideal) ⟨0, ![]⟩ .f32 0x00000000#32) hr hu (ix2 b t)
      = ∑ u : Fin n, Ideal.exp (z (ix3 b t u) - Spec.rowMax fun u => z (ix3 b t u)) := by
  rw [hostReduceAdd_apply, Ideal.hostReduceAdd_single hr h, constant_apply, Ideal.ofBits_zero_f32, zero_add]
  refine Finset.sum_congr rfl fun k _ => ?_
  rw [lift_last h b t k]
  exact expB_apply z hr h hu hb0 hb1 hb2 b t _

/-- The host's softmax over the last axis, read at an entry, is the row softmax. -/
theorem softmaxB_apply (z : FVec Ideal ⟨3, ![8, 4096, n]⟩ .f32)
    (hr : (⟨3, ![8, 4096, n]⟩ : Shape).ReducesTo [2] ⟨2, ![8, 4096]⟩) (h : (⟨3, ![8, 4096, n]⟩ : Shape).Reduces [2] ⟨2, ![8, 4096]⟩)
    (hu : 0 < (⟨0, ![]⟩ : Shape).numel)
    (hb0 : (⟨0, ![]⟩ : Shape).BroadcastsInDim ⟨2, ![8, 4096]⟩ ![])
    (hb1 : (⟨2, ![8, 4096]⟩ : Shape).BroadcastsInDim ⟨3, ![8, 4096, 1]⟩ ![0, 1])
    (hb2 : (⟨3, ![8, 4096, 1]⟩ : Shape).BroadcastsInDim ⟨3, ![8, 4096, n]⟩ ![0, 1, 2])
    (b : Fin 8) (t : Fin 4096) (v : Fin n) :
    softmaxB z hr hu hb0 hb1 hb2 (ix3 b t v) = Spec.softmaxRow (fun u => z (ix3 b t u)) v := by
  unfold softmaxB
  refine (hostDivf_apply _ _ _).trans ?_
  rw [bcast_rows_apply hb1 hb2, sumExpB_apply z hr h hu hb0 hb1 hb2 b t, expB_apply z hr h hu hb0 hb1 hb2 b t v]
  rfl

end Rows

/-! ## The softmax of a vector of three entries, read out entry by entry -/

section Scale

/-- An index of a vector of three entries is its coordinate. -/
def idx3 : Fin 3 ≃ (⟨1, ![3]⟩ : Shape).Idx where
  toFun := ix1
  invFun i := i 0
  left_inv _ := rfl
  right_inv i := (eq_ix1 i).symm

/-- A fold over the indices of a vector of three entries is the fold over the three coordinates. -/
theorem fold_idx3 (b0 : EReal) (f : (⟨1, ![3]⟩ : Shape).Idx → EReal) :
    (Finset.univ : Finset (⟨1, ![3]⟩ : Shape).Idx).fold max b0 f = (Finset.univ : Finset (Fin 3)).fold max b0 fun k => f (ix1 k) := by
  rw [← Finset.map_univ_equiv idx3, Finset.fold_map]
  rfl

/-- A sum over the indices of a vector of three entries is the sum over the three coordinates. -/
theorem sum_idx3 (f : (⟨1, ![3]⟩ : Shape).Idx → EReal) : ∑ i, f i = ∑ k : Fin 3, f (ix1 k) :=
  (Equiv.sum_comp idx3 f).symm

/-- The one-entry vector has one index. -/
theorem idx11_eq (i j : (⟨1, ![1]⟩ : Shape).Idx) : i = j := by
  funext a
  match a with
  | ⟨0, h0⟩ =>
    have hi : (i ⟨0, h0⟩).val < 1 := (i ⟨0, h0⟩).isLt
    have hj : (j ⟨0, h0⟩).val < 1 := (j ⟨0, h0⟩).isLt
    exact Fin.ext (by omega)

/-- The exponentials of the three entries less their maximum (taken from -∞, and once more against -∞). -/
def scaleExp (s : FVec Ideal ⟨1, ![3]⟩ .f32)
    (hr : (⟨1, ![3]⟩ : Shape).ReducesTo [0] ⟨0, ![]⟩) (hu : 0 < (⟨0, ![]⟩ : Shape).numel)
    (hb0 : (⟨0, ![]⟩ : Shape).BroadcastsInDim ⟨1, ![1]⟩ ![])
    (hb1 : (⟨1, ![1]⟩ : Shape).BroadcastsInDim ⟨1, ![3]⟩ ![0]) : FVec Ideal ⟨1, ![3]⟩ .f32 :=
  Host.exp (subf s (broadcastInDim ⟨1, ![3]⟩ ![0] hb1 (broadcastInDim ⟨1, ![1]⟩ ![] hb0
    (maximumf (constant (F := Ideal) ⟨0, ![]⟩ .f32 0xFF800000#32)
      (Host.reduce FloatOps.maximumf s (constant (F := Ideal) ⟨0, ![]⟩ .f32 0xFF800000#32) hr hu)))))

/-- The host's softmax of the three entries. -/
def scaleSoftmax (s : FVec Ideal ⟨1, ![3]⟩ .f32)
    (hr : (⟨1, ![3]⟩ : Shape).ReducesTo [0] ⟨0, ![]⟩) (hu : 0 < (⟨0, ![]⟩ : Shape).numel)
    (hb0 : (⟨0, ![]⟩ : Shape).BroadcastsInDim ⟨1, ![1]⟩ ![])
    (hb1 : (⟨1, ![1]⟩ : Shape).BroadcastsInDim ⟨1, ![3]⟩ ![0]) : FVec Ideal ⟨1, ![3]⟩ .f32 :=
  Host.divf (scaleExp s hr hu hb0 hb1) (broadcastInDim ⟨1, ![3]⟩ ![0] hb1 (broadcastInDim ⟨1, ![1]⟩ ![] hb0
    (Host.reduceAdd (scaleExp s hr hu hb0 hb1) (constant (F := Ideal) ⟨0, ![]⟩ .f32 0x00000000#32) hr hu)))

/-- A scalar laid along the three entries reads the scalar. -/
theorem bcast_scalar3_apply (hb0 : (⟨0, ![]⟩ : Shape).BroadcastsInDim ⟨1, ![1]⟩ ![])
    (hb1 : (⟨1, ![1]⟩ : Shape).BroadcastsInDim ⟨1, ![3]⟩ ![0]) (y : FVec Ideal ⟨0, ![]⟩ .f32) (i : Fin 3) :
    broadcastInDim ⟨1, ![3]⟩ ![0] hb1 (broadcastInDim ⟨1, ![1]⟩ ![] hb0 y) (ix1 i) = y ix0 := by
  refine (broadcastInDim_apply ![0] hb1 _ (ix1 i) (ix1 (0 : Fin 1)) ?_).trans (broadcastInDim_scalar_apply hb0 y _)
  intro a
  match a with
  | ⟨0, _⟩ => rfl

/-- The maximum the host takes of the three entries is the specification's. -/
theorem scaleMax_apply (s : FVec Ideal ⟨1, ![3]⟩ .f32)
    (hr : (⟨1, ![3]⟩ : Shape).ReducesTo [0] ⟨0, ![]⟩) (hu : 0 < (⟨0, ![]⟩ : Shape).numel) :
    maximumf (constant (F := Ideal) ⟨0, ![]⟩ .f32 0xFF800000#32)
        (Host.reduce FloatOps.maximumf s (constant (F := Ideal) ⟨0, ![]⟩ .f32 0xFF800000#32) hr hu) ix0
      = Spec.rowMax fun k => s (ix1 k) := by
  refine (maximumf_apply _ _ _).trans ?_
  rw [constant_apply, Host.reduce_eq_fold FloatOps.maximumf s _ hr hu, constant_apply,
    Finset.filter_true_of_mem fun i _ => funext fun a => a.elim0]
  unfold Spec.rowMax Spec.NEG
  exact congrArg (max (Ideal.ofBits .f32 0xFF800000#32)) (fold_idx3 _ s)

/-- The exponentials read at an entry. -/
theorem scaleExp_apply (s : FVec Ideal ⟨1, ![3]⟩ .f32)
    (hr : (⟨1, ![3]⟩ : Shape).ReducesTo [0] ⟨0, ![]⟩) (hu : 0 < (⟨0, ![]⟩ : Shape).numel)
    (hb0 : (⟨0, ![]⟩ : Shape).BroadcastsInDim ⟨1, ![1]⟩ ![])
    (hb1 : (⟨1, ![1]⟩ : Shape).BroadcastsInDim ⟨1, ![3]⟩ ![0]) (i : Fin 3) :
    scaleExp s hr hu hb0 hb1 (ix1 i) = Ideal.exp (s (ix1 i) - Spec.rowMax fun k => s (ix1 k)) := by
  unfold scaleExp
  rw [hostExp_apply, subf_apply, bcast_scalar3_apply hb0 hb1, scaleMax_apply s hr hu]

/-- The host's softmax of the three entries is the row softmax. -/
theorem scaleSoftmax_apply (s : FVec Ideal ⟨1, ![3]⟩ .f32)
    (hr : (⟨1, ![3]⟩ : Shape).ReducesTo [0] ⟨0, ![]⟩) (hu : 0 < (⟨0, ![]⟩ : Shape).numel)
    (hb0 : (⟨0, ![]⟩ : Shape).BroadcastsInDim ⟨1, ![1]⟩ ![])
    (hb1 : (⟨1, ![1]⟩ : Shape).BroadcastsInDim ⟨1, ![3]⟩ ![0]) (i : Fin 3) :
    scaleSoftmax s hr hu hb0 hb1 (ix1 i) = Spec.softmaxRow (fun k => s (ix1 k)) i := by
  unfold scaleSoftmax
  refine (hostDivf_apply _ _ _).trans ?_
  rw [bcast_scalar3_apply hb0 hb1, hostReduceAdd_apply, Ideal.hostReduceAdd_total hr (fun a => a.elim0), constant_apply,
    Ideal.ofBits_zero_f32, zero_add, sum_idx3, scaleExp_apply s hr hu hb0 hb1 i]
  unfold Spec.softmaxRow
  exact congrArg (Ideal.div _) (Finset.sum_congr rfl fun k _ => scaleExp_apply s hr hu hb0 hb1 k)

/-- Entry `o` of the host's softmax of the three entries, cut out and read as a scalar. -/
theorem scale_softmax (s : FVec Ideal ⟨1, ![3]⟩ .f32)
    (hr : (⟨1, ![3]⟩ : Shape).ReducesTo [0] ⟨0, ![]⟩) (hu : 0 < (⟨0, ![]⟩ : Shape).numel)
    (hb0 : (⟨0, ![]⟩ : Shape).BroadcastsInDim ⟨1, ![1]⟩ ![])
    (hb1 : (⟨1, ![1]⟩ : Shape).BroadcastsInDim ⟨1, ![3]⟩ ![0])
    (o : Nat) (ho : o < 3) (hs : (⟨1, ![3]⟩ : Shape).Slices ![o] ⟨1, ![1]⟩) (hc : (⟨1, ![1]⟩ : Shape).ShapeCasts ⟨0, ![]⟩) :
    shapeCast ⟨0, ![]⟩ (extractStridedSlice ⟨1, ![1]⟩ ![o] (scaleSoftmax s hr hu hb0 hb1) hs) hc ix0
      = Spec.softmaxRow (fun k => s (ix1 k)) ⟨o, ho⟩ := by
  unfold shapeCast
  rw [idx11_eq (Shape.reshapeEquiv hc ix0) (ix1 (0 : Fin 1)),
    extractStridedSlice_apply ![o] _ hs (ix1 (0 : Fin 1)) (ix1 (⟨o, ho⟩ : Fin 3)) (by
      intro a
      match a with
      | ⟨0, _⟩ => rfl)]
  exact scaleSoftmax_apply s hr hu hb0 hb1 ⟨o, ho⟩

end Scale

end Cert.RefSide

end
-- ==== Proof.RefValue.lean ====
/-
  The reference's results read at an index are the specification's row functions.

  Row (b, t) of each result depends on row (b, t) of the input only: the projections, the similarities with the
  vertices and the embeddings are plain sums over one axis, the weights are the row softmax of the similarities, and
  the residual adds the three embeddings projected back, each times its mixing weight.
-/
import proofs.«107425_j46832323395756_2_alg».proof.Proof.RefRun
import proofs.«107425_j46832323395756_2_alg».proof.Proof.RefOps
import proofs.«107425_j46832323395756_2_alg».proof.Proof.SpecArr

noncomputable section

namespace Cert.RefSide

open Cert.ReferenceIdeal Cert.ReferenceIdeal.Gen Idealize.ShloMosaic Idealize.ShloMosaic.ValueIdx
open scoped BigOperators

/-- The host's tanh read at an index. -/
theorem hostTanh_apply {s : Shape} {φ : FTy} (x : FVec Ideal s φ) (i : s.Idx) : Host.tanh x i = Ideal.tanh (x i) := rfl

/-! ## The group of 2 directions and 4 vertices -/

/-- The similarities of row (b, t) with the vertices are the specification's. -/
theorem sim2_apply (x : FVec Ideal S8x4096x2048 .f32) (Wp : FVec Ideal S2x2048 .f32) (b : Fin 8) (t : Fin 4096) (u : Fin 4) :
    sim2 x Wp (ix3 b t u) = Spec.sim (Spec.soft (fun d => x (ix3 b t d)) (fun j d => Wp (ix2 j d))) (fun u j => T2 (ix2 u j)) u := by
  unfold sim2 Spec.sim Spec.soft Spec.ONE
  refine (hostDivf_apply _ _ _).trans ?_
  rw [broadcastInDim_scalar_apply, constant_apply]
  refine congrArg (fun a => Ideal.div a (Ideal.ofBits .f32 0x3F800000#32)) ?_
  refine (dotNT_apply _ _ _ b t u).trans (Finset.sum_congr rfl fun j _ => ?_)
  refine congrArg (· * T2 (ix2 u j)) ?_
  exact (hostTanh_apply _ _).trans (congrArg Ideal.tanh (dotNT_apply _ x Wp b t j))

/-- The weights of row (b, t) over the vertices are the specification's. -/
theorem resW2_apply (x : FVec Ideal S8x4096x2048 .f32) (Wp : FVec Ideal S2x2048 .f32) (b : Fin 8) (t : Fin 4096) (v : Fin 4) :
    resW2 x Wp (ix3 b t v) = Spec.wts (fun d => x (ix3 b t d)) (fun j d => Wp (ix2 j d)) (fun u j => T2 (ix2 u j)) v := by
  refine (softmaxB_apply (sim2 x Wp) reducesTo_S8x4096x4_S8x4096_d2 (by decide) h_S_ bcast_S_S8x4096 bcast_S8x4096_S8x4096x1_0_1
    bcast_S8x4096x1_S8x4096x4_0_1_2 b t v).trans ?_
  unfold Spec.wts
  exact congrArg (fun f => Spec.softmaxRow f v) (funext fun u => sim2_apply x Wp b t u)

/-- The embedding of row (b, t) is the specification's. -/
theorem emb2_apply (x : FVec Ideal S8x4096x2048 .f32) (Wp : FVec Ideal S2x2048 .f32) (b : Fin 8) (t : Fin 4096) (j : Fin 2) :
    emb2 x Wp (ix3 b t j) = Spec.embRow (fun d => x (ix3 b t d)) (fun j d => Wp (ix2 j d)) (fun u j => T2 (ix2 u j)) j := by
  unfold emb2 Spec.embRow Spec.emb
  refine (dotNN_apply _ _ _ b t j).trans (Finset.sum_congr rfl fun v _ => ?_)
  exact congrArg (· * T2 (ix2 v j)) (resW2_apply x Wp b t v)

/-- The embedding of row (b, t) projected back to column d is the specification's. -/
theorem proj2_apply (x : FVec Ideal S8x4096x2048 .f32) (Wp : FVec Ideal S2x2048 .f32) (Wo : FVec Ideal S2048x2 .f32) (b : Fin 8) (t : Fin 4096) (d : Fin 2048) :
    Host.dotGeneral (F := Ideal) dot_S8x4096x2_S2048x2_S8x4096x2048_2_1_01_0_n_n none (emb2 x Wp) Wo (ix3 b t d)
      = Spec.proj (Spec.embRow (fun d => x (ix3 b t d)) (fun j d => Wp (ix2 j d)) (fun u j => T2 (ix2 u j))) (fun d j => Wo (ix2 d j)) d := by
  unfold Spec.proj
  refine (dotNT_apply _ _ _ b t d).trans (Finset.sum_congr rfl fun j _ => ?_)
  exact congrArg (· * Wo (ix2 d j)) (emb2_apply x Wp b t j)

/-! ## The group of 3 directions and 8 vertices -/

/-- The similarities of row (b, t) with the vertices are the specification's. -/
theorem sim3_apply (x : FVec Ideal S8x4096x2048 .f32) (Wp : FVec Ideal S3x2048 .f32) (b : Fin 8) (t : Fin 4096) (u : Fin 8) :
    sim3 x Wp (ix3 b t u) = Spec.sim (Spec.soft (fun d => x (ix3 b t d)) (fun j d => Wp (ix2 j d))) (fun u j => T3 (ix2 u j)) u := by
  unfold sim3 Spec.sim Spec.soft Spec.ONE
  refine (hostDivf_apply _ _ _).trans ?_
  rw [broadcastInDim_scalar_apply, constant_apply]
  refine congrArg (fun a => Ideal.div a (Ideal.ofBits .f32 0x3F800000#32)) ?_
  refine (dotNT_apply _ _ _ b t u).trans (Finset.sum_congr rfl fun j _ => ?_)
  refine congrArg (· * T3 (ix2 u j)) ?_
  exact (hostTanh_apply _ _).trans (congrArg Ideal.tanh (dotNT_apply _ x Wp b t j))

/-- The weights of row (b, t) over the vertices are the specification's. -/
theorem resW3_apply (x : FVec Ideal S8x4096x2048 .f32) (Wp : FVec Ideal S3x2048 .f32) (b : Fin 8) (t : Fin 4096) (v : Fin 8) :
    resW3 x Wp (ix3 b t v) = Spec.wts (fun d => x (ix3 b t d)) (fun j d => Wp (ix2 j d)) (fun u j => T3 (ix2 u j)) v := by
  refine (softmaxB_apply (sim3 x Wp) reducesTo_S8x4096x8_S8x4096_d2 (by decide) h_S_ bcast_S_S8x4096 bcast_S8x4096_S8x4096x1_0_1
    bcast_S8x4096x1_S8x4096x8_0_1_2 b t v).trans ?_
  unfold Spec.wts
  exact congrArg (fun f => Spec.softmaxRow f v) (funext fun u => sim3_apply x Wp b t u)

/-- The embedding of row (b, t) is the specification's. -/
theorem emb3_apply (x : FVec Ideal S8x4096x2048 .f32) (Wp : FVec Ideal S3x2048 .f32) (b : Fin 8) (t : Fin 4096) (j : Fin 3) :
    emb3 x Wp (ix3 b t j) = Spec.embRow (fun d => x (ix3 b t d)) (fun j d => Wp (ix2 j d)) (fun u j => T3 (ix2 u j)) j := by
  unfold emb3 Spec.embRow Spec.emb
  refine (dotNN_apply _ _ _ b t j).trans (Finset.sum_congr rfl fun v _ => ?_)
  exact congrArg (· * T3 (ix2 v j)) (resW3_apply x Wp b t v)

/-- The embedding of row (b, t) projected back to column d is the specification's. -/
theorem proj3_apply (x : FVec Ideal S8x4096x2048 .f32) (Wp : FVec Ideal S3x2048 .f32) (Wo : FVec Ideal S2048x3 .f32) (b : Fin 8) (t : Fin 4096) (d : Fin 2048) :
    Host.dotGeneral (F := Ideal) dot_S8x4096x3_S2048x3_S8x4096x2048_2_1_01_0_n_n none (emb3 x Wp) Wo (ix3 b t d)
      = Spec.proj (Spec.embRow (fun d => x (ix3 b t d)) (fun j d => Wp (ix2 j d)) (fun u j => T3 (ix2 u j))) (fun d j => Wo (ix2 d j)) d := by
  unfold Spec.proj
  refine (dotNT_apply _ _ _ b t d).trans (Finset.sum_congr rfl fun j _ => ?_)
  exact congrArg (· * Wo (ix2 d j)) (emb3_apply x Wp b t j)

/-! ## The group of 6 directions and 64 vertices -/

/-- The similarities of row (b, t) with the vertices are the specification's. -/
theorem sim6_apply (x : FVec Ideal S8x4096x2048 .f32) (Wp : FVec Ideal S6x2048 .f32) (b : Fin 8) (t : Fin 4096) (u : Fin 64) :
    sim6 x Wp (ix3 b t u) = Spec.sim (Spec.soft (fun d => x (ix3 b t d)) (fun j d => Wp (ix2 j d))) (fun u j => T6 (ix2 u j)) u := by
  unfold sim6 Spec.sim Spec.soft Spec.ONE
  refine (hostDivf_apply _ _ _).trans ?_
  rw [broadcastInDim_scalar_apply, constant_apply]
  refine congrArg (fun a => Ideal.div a (Ideal.ofBits .f32 0x3F800000#32)) ?_
  refine (dotNT_apply _ _ _ b t u).trans (Finset.sum_congr rfl fun j _ => ?_)
  refine congrArg (· * T6 (ix2 u j)) ?_
  exact (hostTanh_apply _ _).trans (congrArg Ideal.tanh (dotNT_apply _ x Wp b t j))

/-- The weights of row (b, t) over the vertices are the specification's. -/
theorem resW6_apply (x : FVec Ideal S8x4096x2048 .f32) (Wp : FVec Ideal S6x2048 .f32) (b : Fin 8) (t : Fin 4096) (v : Fin 64) :
    resW6 x Wp (ix3 b t v) = Spec.wts (fun d => x (ix3 b t d)) (fun j d => Wp (ix2 j d)) (fun u j => T6 (ix2 u j)) v := by
  refine (softmaxB_apply (sim6 x Wp) reducesTo_S8x4096x64_S8x4096_d2 (by decide) h_S_ bcast_S_S8x4096 bcast_S8x4096_S8x4096x1_0_1
    bcast_S8x4096x1_S8x4096x64_0_1_2 b t v).trans ?_
  unfold Spec.wts
  exact congrArg (fun f => Spec.softmaxRow f v) (funext fun u => sim6_apply x Wp b t u)

/-- The embedding of row (b, t) is the specification's. -/
theorem emb6_apply (x : FVec Ideal S8x4096x2048 .f32) (Wp : FVec Ideal S6x2048 .f32) (b : Fin 8) (t : Fin 4096) (j : Fin 6) :
    emb6 x Wp (ix3 b t j) = Spec.embRow (fun d => x (ix3 b t d)) (fun j d => Wp (ix2 j d)) (fun u j => T6 (ix2 u j)) j := by
  unfold emb6 Spec.embRow Spec.emb
  refine (dotNN_apply _ _ _ b t j).trans (Finset.sum_congr rfl fun v _ => ?_)
  exact congrArg (· * T6 (ix2 v j)) (resW6_apply x Wp b t v)

/-- The embedding of row (b, t) projected back to column d is the specification's. -/
theorem proj6_apply (x : FVec Ideal S8x4096x2048 .f32) (Wp : FVec Ideal S6x2048 .f32) (Wo : FVec Ideal S2048x6 .f32) (b : Fin 8) (t : Fin 4096) (d : Fin 2048) :
    Host.dotGeneral (F := Ideal) dot_S8x4096x6_S2048x6_S8x4096x2048_2_1_01_0_n_n none (emb6 x Wp) Wo (ix3 b t d)
      = Spec.proj (Spec.embRow (fun d => x (ix3 b t d)) (fun j d => Wp (ix2 j d)) (fun u j => T6 (ix2 u j))) (fun d j => Wo (ix2 d j)) d := by
  unfold Spec.proj
  refine (dotNT_apply _ _ _ b t d).trans (Finset.sum_congr rfl fun j _ => ?_)
  exact congrArg (· * Wo (ix2 d j)) (emb6_apply x Wp b t j)

/-! ## The mixing weights and the residual -/

theorem sw0_apply (s : FVec Ideal S3 .f32) : sw0 s ix0 = Spec.softmaxRow (fun k => s (ix1 k)) 0 :=
  scale_softmax s reducesTo_S3_S_d0 h_S_ bcast_S_S1 bcast_S1_S3_0 0 (by decide) slices_S3_S1_0 shapeCasts_S1_S_
theorem sw1_apply (s : FVec Ideal S3 .f32) : sw1 s ix0 = Spec.softmaxRow (fun k => s (ix1 k)) 1 :=
  scale_softmax s reducesTo_S3_S_d0 h_S_ bcast_S_S1 bcast_S1_S3_0 1 (by decide) slices_S3_S1_1 shapeCasts_S1_S_
theorem sw2_apply (s : FVec Ideal S3 .f32) : sw2 s ix0 = Spec.softmaxRow (fun k => s (ix1 k)) 2 :=
  scale_softmax s reducesTo_S3_S_d0 h_S_ bcast_S_S1 bcast_S1_S3_0 2 (by decide) slices_S3_S1_2 shapeCasts_S1_S_

/-- The residual at (b, t, d) is the specification's row function of row (b, t). -/
theorem resOut_apply (x : FVec Ideal S8x4096x2048 .f32) (Wp2 : FVec Ideal S2x2048 .f32) (Wp3 : FVec Ideal S3x2048 .f32) (Wp6 : FVec Ideal S6x2048 .f32)
    (Wo2 : FVec Ideal S2048x2 .f32) (Wo3 : FVec Ideal S2048x3 .f32) (Wo6 : FVec Ideal S2048x6 .f32) (s : FVec Ideal S3 .f32)
    (b : Fin 8) (t : Fin 4096) (d : Fin 2048) :
    resOut x Wp2 Wp3 Wp6 Wo2 Wo3 Wo6 s (ix3 b t d)
      = Spec.outRow (fun d => x (ix3 b t d)) (fun j d => Wp2 (ix2 j d)) (fun j d => Wp3 (ix2 j d)) (fun j d => Wp6 (ix2 j d))
          (fun u j => T2 (ix2 u j)) (fun u j => T3 (ix2 u j)) (fun u j => T6 (ix2 u j))
          (fun d j => Wo2 (ix2 d j)) (fun d j => Wo3 (ix2 d j)) (fun d j => Wo6 (ix2 d j))
          (fun i => Spec.softmaxRow (fun k => s (ix1 k)) i) d := by
  unfold resOut Spec.outRow
  refine (addf_apply _ _ _).trans (congrArg (x (ix3 b t d) + ·) ?_)
  refine (addf_apply _ _ _).trans (congrArg₂ (· + ·) ?_ ?_)
  · refine (addf_apply _ _ _).trans (congrArg₂ (· + ·) ?_ ?_)
    · exact (mulf_apply _ _ _).trans (congrArg₂ (· * ·) ((broadcastInDim_scalar_apply _ _ _).trans (sw0_apply s)) (proj2_apply x Wp2 Wo2 b t d))
    · exact (mulf_apply _ _ _).trans (congrArg₂ (· * ·) ((broadcastInDim_scalar_apply _ _ _).trans (sw1_apply s)) (proj3_apply x Wp3 Wo3 b t d))
  · exact (mulf_apply _ _ _).trans (congrArg₂ (· * ·) ((broadcastInDim_scalar_apply _ _ _).trans (sw2_apply s)) (proj6_apply x Wp6 Wo6 b t d))

/-! ## The results as whole arrays -/

/-- The weights over the 4 vertices, as one array, are the specification's. -/
theorem resW2_eq (x : FVec Ideal S8x4096x2048 .f32) (Wp : FVec Ideal S2x2048 .f32) : resW2 x Wp = Spec.wArr x Wp T2 := by
  funext i
  obtain ⟨b, t, v, rfl⟩ : ∃ (b : Fin 8) (t : Fin 4096) (v : Fin 4), i = ix3 b t v := ⟨i 0, i 1, i 2, eq_ix3 i⟩
  exact resW2_apply x Wp b t v

/-- The weights over the 8 vertices, as one array, are the specification's. -/
theorem resW3_eq (x : FVec Ideal S8x4096x2048 .f32) (Wp : FVec Ideal S3x2048 .f32) : resW3 x Wp = Spec.wArr x Wp T3 := by
  funext i
  obtain ⟨b, t, v, rfl⟩ : ∃ (b : Fin 8) (t : Fin 4096) (v : Fin 8), i = ix3 b t v := ⟨i 0, i 1, i 2, eq_ix3 i⟩
  exact resW3_apply x Wp b t v

/-- The weights over the 64 vertices, as one array, are the specification's. -/
theorem resW6_eq (x : FVec Ideal S8x4096x2048 .f32) (Wp : FVec Ideal S6x2048 .f32) : resW6 x Wp = Spec.wArr x Wp T6 := by
  funext i
  obtain ⟨b, t, v, rfl⟩ : ∃ (b : Fin 8) (t : Fin 4096) (v : Fin 64), i = ix3 b t v := ⟨i 0, i 1, i 2, eq_ix3 i⟩
  exact resW6_apply x Wp b t v

/-- The residual, as one array, is the specification's. -/
theorem resOut_eq (x : FVec Ideal S8x4096x2048 .f32) (Wp2 : FVec Ideal S2x2048 .f32) (Wp3 : FVec Ideal S3x2048 .f32) (Wp6 : FVec Ideal S6x2048 .f32)
    (Wo2 : FVec Ideal S2048x2 .f32) (Wo3 : FVec Ideal S2048x3 .f32) (Wo6 : FVec Ideal S2048x6 .f32) (s : FVec Ideal S3 .f32) :
    resOut x Wp2 Wp3 Wp6 Wo2 Wo3 Wo6 s = Spec.outArr x Wp2 Wp3 Wp6 T2 T3 T6 Wo2 Wo3 Wo6 s := by
  funext i
  obtain ⟨b, t, d, rfl⟩ : ∃ (b : Fin 8) (t : Fin 4096) (d : Fin 2048), i = ix3 b t d := ⟨i 0, i 1, i 2, eq_ix3 i⟩
  exact resOut_apply x Wp2 Wp3 Wp6 Wo2 Wo3 Wo6 s b t d

end Cert.RefSide

end
-- ==== Proof.PreS.lean ====
/-
  What the precondition says of the three mixing weights: each of them is a real number.

  The precondition is a conjunction, one conjunct per input array, each saying that every entry x of the array has
  |x| < +∞.  The last conjunct is about the vector of the three mixing weights.  On the extended reals |x| is
  max x (-x), the word of +∞ is ⊤, and an extended real whose absolute value is below ⊤ is neither ⊥ nor ⊤, so it is
  a real.
-/
import proofs.«107425_j46832323395756_2_alg».proof.Pre_finite_inputs
import proofs.«107425_j46832323395756_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

namespace Cert.PreS

open Idealize.ShloMosaic Cert.Pre_finite_inputs

/-- The shape without axes has one index. -/
instance : Subsingleton S_.Idx := ⟨fun _ _ => funext fun d => d.elim0⟩

/-- A one-bit word made from a Boolean is 1 only if the Boolean is true. -/
theorem ofBool_one {b : Bool} (h : BitVec.ofBool b = 1#1) : b = true := by
  cases b
  · exact absurd h (by decide)
  · rfl

/-- The f32 word of +∞ denotes ⊤. -/
theorem inf_word : Ideal.ofBits .f32 0x7F800000#32 = ⊤ := by simp [Ideal.ofBits, Ideal.ieee]

/-- An extended real whose absolute value is below ⊤ is a real. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- Under the precondition each mixing weight is a real. -/
theorem scale_real (a0 : FVec Ideal S8x4096x2048 .f32) (a1 : FVec Ideal S2x2048 .f32) (a2 : FVec Ideal S3x2048 .f32)
    (a3 : FVec Ideal S6x2048 .f32) (a4 : FVec Ideal S2048x2 .f32) (a5 : FVec Ideal S2048x3 .f32)
    (a6 : FVec Ideal S2048x6 .f32) (a7 : FVec Ideal S3 .f32)
    (h : Cert.Pre_finite_inputs.fn (F := Ideal) a0 a1 a2 a3 a4 a5 a6 a7 = fun _ => 1#1) (k : Fin 3) :
    ∃ r : ℝ, a7 (ValueIdx.ix1 k) = (r : EReal) := by
  have h0 := congrFun h ValueIdx.ix0
  dsimp only [fn, fn_part1, fn_part2, andi] at h0
  have h37 := (IntOp.andi_eq_one.1 h0).2
  have hk := Host.reduce_andi_all _ _ _ _ _ h37 (ValueIdx.ix1 k)
  have hb : decide (max (a7 (ValueIdx.ix1 k)) (-(a7 (ValueIdx.ix1 k))) < Ideal.ofBits .f32 0x7F800000#32) = true :=
    ofBool_one hk
  have hlt := of_decide_eq_true hb
  rw [inf_word] at hlt
  exact real_of_abs_lt_top _ hlt

end Cert.PreS
-- ==== Proof.Tables.lean ====
/-
  The two programs write the same three constant vertex tables (4 × 2, 8 × 3 and 64 × 6 entries): listed row by row,
  they are the same words.
-/
import proofs.«107425_j46832323395756_2_alg».proof.KernelIdeal
import proofs.«107425_j46832323395756_2_alg».proof.ReferenceIdeal

namespace Cert.Tables

/-- The 4 × 2 table. -/
theorem lit0_eq : Cert.KernelIdeal.lit0 = Cert.ReferenceIdeal.lit0 := rfl

/-- The 8 × 3 table. -/
theorem lit1_eq : Cert.KernelIdeal.lit1 = Cert.ReferenceIdeal.lit1 := rfl

/-- The 64 × 6 table. -/
theorem lit2_eq : Cert.KernelIdeal.lit2 = Cert.ReferenceIdeal.lit2 := rfl

end Cert.Tables
-- ==== Proof.lean ====
/-
  The five claims.

  The kernel projects every row of x onto 11 directions at once, squashes, and for each of the three groups of
  directions (2, 3, 6 of them) weighs the vertices of the group's cube by a row softmax of the similarities,
  averages the vertices into an embedding, lays the three embeddings side by side, projects them back through one
  table of 11 columns into which the host has folded the three mixing weights, and adds the row.  The reference
  does the same group by group and multiplies each group's back-projection by its mixing weight afterwards.
  Over the extended reals the two agree entry by entry: sums may be regrouped freely, and the mixing weights,
  being the softmax of three FINITE scale weights (the one place the precondition is used), are nonnegative reals,
  which may be moved across a sum.  The weights over the vertices are the same function of the row on both sides.

  Frames: the kernel's (at both instances) is its run with the results forgotten; the reference's is its run.
-/
import proofs.«107425_j46832323395756_2_alg».proof.Defs
import proofs.«107425_j46832323395756_2_alg».proof.Proof.Gen.Kernel
import proofs.«107425_j46832323395756_2_alg».proof.Proof.Gen.KernelIdeal
import proofs.«107425_j46832323395756_2_alg».proof.Proof.Gen.ReferenceIdeal
import proofs.«107425_j46832323395756_2_alg».proof.Proof.Gen.Pre_finite_inputs
import proofs.«107425_j46832323395756_2_alg».proof.Proof.FrameK
import proofs.«107425_j46832323395756_2_alg».proof.Proof.KRun
import proofs.«107425_j46832323395756_2_alg».proof.Proof.RefRun
import proofs.«107425_j46832323395756_2_alg».proof.Proof.RefValue
import proofs.«107425_j46832323395756_2_alg».proof.Proof.PreS
import proofs.«107425_j46832323395756_2_alg».proof.Proof.Tables
import Idealize.ShloMosaic.Adequacy
import Idealize.ShloMosaic.Init

noncomputable section

namespace Cert.Proof

open Idealize.ShloMosaic Idealize.ShloMosaic.ValueIdx Idealize.SL.Sem

/-! ## The reference's results as whole arrays -/

theorem refW2 (x : FVec Ideal Cert.ReferenceIdeal.S8x4096x2048 .f32) (Wp : FVec Ideal Cert.ReferenceIdeal.S2x2048 .f32) :
    Cert.RefSide.resW2 x Wp = Cert.Spec.wArr x Wp Cert.RefSide.T2 := by
  funext i
  obtain ⟨b, t, v, rfl⟩ : ∃ (b : Fin 8) (t : Fin 4096) (v : Fin 4), i = ix3 b t v := ⟨i 0, i 1, i 2, eq_ix3 i⟩
  exact Cert.RefSide.resW2_apply x Wp b t v
theorem refW3 (x : FVec Ideal Cert.ReferenceIdeal.S8x4096x2048 .f32) (Wp : FVec Ideal Cert.ReferenceIdeal.S3x2048 .f32) :
    Cert.RefSide.resW3 x Wp = Cert.Spec.wArr x Wp Cert.RefSide.T3 := by
  funext i
  obtain ⟨b, t, v, rfl⟩ : ∃ (b : Fin 8) (t : Fin 4096) (v : Fin 8), i = ix3 b t v := ⟨i 0, i 1, i 2, eq_ix3 i⟩
  exact Cert.RefSide.resW3_apply x Wp b t v
theorem refW6 (x : FVec Ideal Cert.ReferenceIdeal.S8x4096x2048 .f32) (Wp : FVec Ideal Cert.ReferenceIdeal.S6x2048 .f32) :
    Cert.RefSide.resW6 x Wp = Cert.Spec.wArr x Wp Cert.RefSide.T6 := by
  funext i
  obtain ⟨b, t, v, rfl⟩ : ∃ (b : Fin 8) (t : Fin 4096) (v : Fin 64), i = ix3 b t v := ⟨i 0, i 1, i 2, eq_ix3 i⟩
  exact Cert.RefSide.resW6_apply x Wp b t v
theorem refOut (x : FVec Ideal Cert.ReferenceIdeal.S8x4096x2048 .f32) (Wp2 : FVec Ideal Cert.ReferenceIdeal.S2x2048 .f32)
    (Wp3 : FVec Ideal Cert.ReferenceIdeal.S3x2048 .f32) (Wp6 : FVec Ideal Cert.ReferenceIdeal.S6x2048 .f32)
    (Wo2 : FVec Ideal Cert.ReferenceIdeal.S2048x2 .f32) (Wo3 : FVec Ideal Cert.ReferenceIdeal.S2048x3 .f32)
    (Wo6 : FVec Ideal Cert.ReferenceIdeal.S2048x6 .f32) (s : FVec Ideal Cert.ReferenceIdeal.S3 .f32) :
    Cert.RefSide.resOut x Wp2 Wp3 Wp6 Wo2 Wo3 Wo6 s
      = Cert.Spec.outArr x Wp2 Wp3 Wp6 Cert.RefSide.T2 Cert.RefSide.T3 Cert.RefSide.T6 Wo2 Wo3 Wo6 s := by
  funext i
  obtain ⟨b, t, d, rfl⟩ : ∃ (b : Fin 8) (t : Fin 4096) (d : Fin 2048), i = ix3 b t d := ⟨i 0, i 1, i 2, eq_ix3 i⟩
  exact Cert.RefSide.resOut_apply x Wp2 Wp3 Wp6 Wo2 Wo3 Wo6 s b t d

/-- The two programs write the same vertex tables. -/
theorem T2_eq : Cert.RefSide.T2 = Cert.KernelIdeal.Val.T2 := by
  unfold Cert.RefSide.T2 Cert.KernelIdeal.Val.T2; rw [Cert.Tables.lit0_eq]
theorem T3_eq : Cert.RefSide.T3 = Cert.KernelIdeal.Val.T3 := by
  unfold Cert.RefSide.T3 Cert.KernelIdeal.Val.T3; rw [Cert.Tables.lit1_eq]
theorem T6_eq : Cert.RefSide.T6 = Cert.KernelIdeal.Val.T6 := by
  unfold Cert.RefSide.T6 Cert.KernelIdeal.Val.T6; rw [Cert.Tables.lit2_eq]

/-! ## The claims -/

theorem frame_k : Cert.frame_Kernel := fun m ρ _ => Cert.Kernel.Fr.frame m ρ
theorem frame_ki : Cert.frame_KernelIdeal := fun m ρ _ => Cert.KernelIdeal.Fr.frame m ρ

theorem algebraic : Cert.algebraic_KernelIdeal_ReferenceIdeal := by
  intro m ρ m' ρ' hpre hagree
  have hs : ∀ (c : Dev Cert.KernelIdeal.nD) (k : Fin 3), ∃ q : ℝ,
      (m ((c.tc : Thread Cert.KernelIdeal.nD Cert.KernelIdeal.τ).loc Cert.KernelIdeal.main_arg7) : Cert.KernelIdeal.S3.Idx → EReal) (ix1 k) = (q : EReal) :=
    fun c k => Cert.PreS.scale_real _ _ _ _ _ _ _ _ (hpre c) k
  refine ⟨_, _, _, _, Cert.KernelIdeal.Val.run m ρ hs, ?_⟩
  refine (θ_run Cert.ReferenceIdeal.defs _ _).mono (fun r h c => ?_) (Cert.RefSide.run m' ρ')
  obtain ⟨h0, h1, h2, h3, hargs⟩ := h c
  obtain ⟨e0, e1, e2, e3, e4, e5, e6, e7⟩ := hagree c
  refine ⟨h0.trans ?_, h1.trans ?_, h2.trans ?_, h3.trans ?_, hargs⟩
  · rw [refOut, e0, e1, e2, e3, e4, e5, e6, e7, T2_eq, T3_eq, T6_eq]
  · rw [refW2, e0, e1, T2_eq]
  · rw [refW3, e0, e2, T3_eq]
  · rw [refW6, e0, e3, T6_eq]

theorem claim : Cert.Claim := ⟨Cert.Kernel.Gen.facts, Cert.KernelIdeal.Gen.facts, Cert.ReferenceIdeal.Gen.facts, Cert.Pre_finite_inputs.Gen.facts,
  frame_k, frame_ki, Cert.RefSide.frame_ri, trivial, algebraic⟩

end Cert.Proof

end
